-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S_S_d : S_.ReducesTo [] S_

variable [Facts]

def fn {F : FTy → Type} [FloatOps F] (main_arg0 : FVec F S8192x256 .f32) (main_arg1 : FVec F S8192x256 .f32) (main_arg2 : FVec F S_ .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8192x256 : Shape := ⟨2, ![8192, 256]⟩
abbrev S_ : Shape := ⟨0, ![]⟩
abbrev S1x1 : Shape := ⟨2, ![1, 1]⟩
abbrev S16384x256 : Shape := ⟨2, ![16384, 256]⟩
abbrev S16384x1 : Shape := ⟨2, ![16384, 1]⟩
abbrev S1024x1 : Shape := ⟨2, ![1024, 1]⟩
abbrev S1024x256 : Shape := ⟨2, ![1024, 256]⟩
abbrev S256x1024 : Shape := ⟨2, ![256, 1024]⟩
abbrev S1024x1024 : Shape := ⟨2, ![1024, 1024]⟩
abbrev S1x1024 : Shape := ⟨2, ![1, 1024]⟩
abbrev S1024 : Shape := ⟨1, ![1024]⟩
abbrev S16384 : Shape := ⟨1, ![16384]⟩
abbrev S8192x1 : Shape := ⟨2, ![8192, 1]⟩
abbrev S8192 : Shape := ⟨1, ![8192]⟩

abbrev nBuf : Space → Nat
  | .hbm => 24
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S16384x256, .f32⟩
  | .hbm, ⟨8, _⟩ => ⟨S16384x256, .bf16⟩
  | .hbm, ⟨9, _⟩ => ⟨S16384x1, .f32⟩
  | .hbm, ⟨10, _⟩ => ⟨S16384, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S16384x256, .bf16⟩
  | .local _ .vmem, ⟨1, _⟩ => ⟨S1x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v10 : Index := Scalar.indexCast v6
  let c0_2 : Index := 0#32
  ![v10.toNat, 0]
def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_18 : BitVec 32 := 0#32
  let v53 : BitVec 1 := Scalar.cmpi .ne v52 c0_i32_18
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16384x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S_S1x1 : S_.ShapeCasts S1x1
  concatenates_S8192x256_S8192x256_S16384x256_d0 : Shape.Concatenates [S8192x256, S8192x256] S16384x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x256 : 0 < S1024x256.numel
  shapeCasts_S1024x256_S1024x256 : S1024x256.ShapeCasts S1024x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S1024x256_p1_0_S256x1024 : S1024x256.Transposes [1, 0] S256x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S16384x1_S16384 : S16384x1.ShapeCasts S16384
  inb_S1024x256_S1024x256_0_0 : ∀ a, (![0, 0] : Fin 2 → Nat) a + S1024x256.size a ≤ S1024x256.size a
  reduces_S1024x256_S1024 : S1024x256.Reduces [1] S1024
  shapeCasts_S8192x1_S8192 : S8192x1.ShapeCasts S8192
  slices_S16384_S8192_0 : S16384.Slices ![0] S8192
  slices_S16384_S8192_8192 : S16384.Slices ![8192] S8192
  reducesTo_S8192_S_d0 : S8192.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x256.size a ≤ S16384x256.size a
  k0_off2_inb : ∀ i : grid0.Coords, ∀ a, (k0_off2 i) a + S1024x256.size a ≤ S16384x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x256.size a ≤ S16384x256.size a
  hwx0_0 : ∀ i : grid0.Coords, EltTy.bits .bf16 = 32 ∨ (Rect.block (s := S16384x256) S16384x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v4) S16384x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S_ : Shape := ⟨0, ![]⟩
abbrev S16384x256 : Shape := ⟨2, ![16384, 256]⟩
abbrev S256x16384 : Shape := ⟨2, ![256, 16384]⟩
abbrev S16384x16384 : Shape := ⟨2, ![16384, 16384]⟩
abbrev S8192 : Shape := ⟨1, ![8192]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S16384x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S256x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S16384x16384, .i32⟩
  | .hbm, ⟨12, _⟩ => ⟨S16384x16384, .i32⟩
  | .hbm, ⟨13, _⟩ => ⟨S_, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S16384, .i32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x16384, .f32⟩
  | .hbm, ⟨33, _⟩ => ⟨S16384x16384, .f32⟩
  | .hbm, ⟨34, _⟩ => ⟨S16384x16384, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1, .f32⟩
  | .hbm, ⟨39, _⟩ => ⟨S16384x16384, .f32⟩
  | .hbm, ⟨40, _⟩ => ⟨S16384x16384, .f32⟩
  | .hbm, ⟨41, _⟩ => ⟨S16384x1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S_, .i32⟩
  | .hbm, ⟨46, _⟩ => ⟨S16384x1, .i32⟩
  | .hbm, ⟨47, _⟩ => ⟨S16384x1, .i32⟩
  | .hbm, ⟨48, _⟩ => ⟨S16384x1, .i32⟩
  | .hbm, ⟨49, _⟩ => ⟨S16384x1x1, .i32⟩
  | .hbm, ⟨50, _⟩ => ⟨S1, .i32⟩
  | .hbm, ⟨51, _⟩ => ⟨S_, .i32⟩
  | .hbm, ⟨52, _⟩ => ⟨S16384x1x1, .i32⟩
  | .hbm, ⟨53, _⟩ => ⟨S16384x1x1, .i1⟩
  | .hbm, ⟨54, _⟩ => ⟨S1x1x1, .i32⟩
  | .hbm, ⟨55, _⟩ => ⟨S16384x1x1, .i32⟩
  | .hbm, ⟨56, _⟩ => ⟨S16384x1x1, .i1⟩
  | .hbm, ⟨57, _⟩ => ⟨S16384x1x1, .i1⟩
  | .hbm, ⟨58, _⟩ => ⟨S_, .i1⟩
  | .hbm, ⟨59, _⟩ => ⟨S16384x1, .i1⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v18 : Ref sig .tc := ⟨.hbm, 40, rfl⟩
abbrev main_v19 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩

abbrev nD : Nat := 1
abbrev τ : Topo := Topo.v7x

variable {F : FTy → Type} [FloatOps F]

class Facts₀ : Prop where
  concatenates_S8192x256_S8192x256_S16384x256_d0 : Shape.Concatenates [S8192x256, S8192x256] S16384x256 0
  transposes_S16384x256_S256x16384_1_0 : S16384x256.Transposes [1, 0] S256x16384
  bcast_S_S16384x16384 : S_.BroadcastsInDim S16384x16384 (![] : Fin 0 → Fin S16384x16384.rank)
  bcast_S_S8192 : S_.BroadcastsInDim S8192 (![] : Fin 0 → Fin S8192.rank)
  concatenates_S8192_S8192_S16384_d0 : Shape.Concatenates [S8192, S8192] S16384 0
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x256_S256x16384_S16384x16384_1_0_0_1_n_n_wf : DotDims.WF S16384x256 S256x16384 S16384x16384 [1] [0] [0] [1] [] []
  gather_S16384x16384_S16384x1x1_S16384x1_n_1_0_0_1_2_11_wf : GatherDims.WF S16384x16384 S16384x1x1 S16384x1 [] [1] [0] [1] [0] 2 ![1, 1]

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def gather_S16384x16384_S16384x1x1_S16384x1_n_1_0_0_1_2_11 : GatherDims S16384x16384 S16384x1x1 S16384x1 where
  offsetDims := []
  collapsedSliceDims := [1]
  operandBatchingDims := [0]
  startIndicesBatchingDims := [0]
  startIndexMap := [1]
  indexVectorDim := 2
  sliceSizes := ![1, 1]
  wf := gather_S16384x16384_S16384x1x1_S16384x1_n_1_0_0_1_2_11_wf

class Facts : Prop extends Facts₀ where

variable [Facts]
-- ==== Proof.KLseShared.lean ====
/-
  The first kernel region (the tiled logsumexp) at a generic float instance: what its three kinds of grid point
  share. The grid is 16 × 16, walked row-major: point t is row block t / 16 and column tile t % 16. The body resets
  its two carried scratch buffers (the running maximum and the running sum) at the first tile of a row block
  (t % 16 = 0) and writes the output block only at the last one (t % 16 = 15); at every other point the output
  window is idle.
-/
import proofs.«111248_j26912265077430_1_alg».proof.Proof.Gen.Kernel.Launch
import proofs.«111248_j26912265077430_1_alg».proof.Proof.Gen.Kernel.Skeleton
import proofs.«111248_j26912265077430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first column tile": the reset of the running maximum and sum. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column tile": the output block is written. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Off the last tile the output window is idle and is not written back. -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem liveAt2 : ∀ t : Fin cfg0.N, condLast (grid0.coords t) → cfg0.idle 2 (grid0.coords t) = false := by decide +kernel

/-! ## The memrefs the body is called with -/

abbrev ms0 (t : Fin cfg0.N) : Memref sig .tc .vmem S16384x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The two scratch buffers: the running maximum and the running sum. -/
abbrev scM : Memref sig .tc .vmem S1024x1 .f32 := Memref.whole cc0_scratch0
abbrev scL : Memref sig .tc .vmem S1024x1 .f32 := Memref.whole cc0_scratch1
abbrev VM : View sig .tc .vmem S1024x1 .f32 := scM.view
abbrev VL : View sig .tc .vmem S1024x1 .f32 := scL.view
abbrev VO : View sig .tc .vmem S1024x1 .f32 := (Memref.whole cc0_stg2_0 : Memref sig .tc .vmem S1024x1 .f32).view

end Cert.Kernel.Lse

end
-- ==== Proof.KLseRunFirst.lean ====
/-
  The body at the first column tile of a row block: both scratch buffers are overwritten before they are read, so
  they may hold anything on entry; the output window is not touched.
-/
import proofs.«111248_j26912265077430_1_alg».proof.Proof.KLseShared

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers at a first tile (last store first), with the body's
    triple: the inputs' staging memrefs at their contents and the idle output's at any contents are handed back
    untouched. -/
noncomputable def runFirst (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 : Vec F S16384x256 .bf16) (x1 : Vec F S1x1 .f32) :
    Σ' (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%dm, %fm, -, HM⟩, ⟨%dl, %fl, -, HL⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HM]; · iexists _; iexact HM
    iexists _; iexact HL

end Cert.Kernel.Lse

end
-- ==== Proof.KLseRunMid.lean ====
/-
  The body at a middle column tile: the scratch buffers hold what the tile before left and are updated; the output
  window is not touched.
-/
import proofs.«111248_j26912265077430_1_alg».proof.Proof.KLseShared

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers at a middle tile, from their contents on entry. -/
noncomputable def runMid (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 : Vec F S16384x256 .bf16) (x1 : Vec F S1x1 .f32) (xm xl : Vec F S1024x1 .f32) :
    Σ' (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fm, %hfm, HM⟩, ⟨%fl, %hfl, HL⟩, Hk⟩
    obtain rfl := harg2.eq_unread hf0; obtain rfl := harg3.eq_unread hf1; obtain rfl := harg4.eq_unread hf2
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HM]; · iexists _; iexact HM
    iexists _; iexact HL

end Cert.Kernel.Lse

end
-- ==== Proof.KLseRunLast.lean ====
/-
  The body at the last column tile of a row block: the scratch buffers are updated once more and the output block is
  written from them.
-/
import proofs.«111248_j26912265077430_1_alg».proof.Proof.KLseShared

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the two scratch buffers at a last tile. -/
noncomputable def runLast (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 : Vec F S16384x256 .bf16) (x1 : Vec F S1x1 .f32) (xm xl : Vec F S1024x1 .f32) :
    Σ' (LO : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xm ∗ owns (c : Thread nD τ) arg6 fullShare xl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fm, %hfm, HM⟩, ⟨%fl, %hfl, HL⟩, Hk⟩
    obtain rfl := harg2.eq_unread hf0; obtain rfl := harg3.eq_unread hf1
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HM]; · iexists _; iexact HM
    iexists _; iexact HL

end Cert.Kernel.Lse

end
-- ==== Proof.KLseData.lean ====
/-
  The first kernel region's proof data and body obligation, at a generic float instance and at ANY contents V of the
  TensorCore's buffers on entry: what the two carried scratch buffers (the running maximum, the running sum) and the
  output's staging buffer hold after each grid point, by recursion on the point; the region invariant that carries
  the scratch contents from one point to the next; and the body's triple at every point, by cases on the point's
  position in its row block (first tile, middle tile, last tile).
-/
import proofs.«111248_j26912265077430_1_alg».proof.Proof.KLseRunFirst
import proofs.«111248_j26912265077430_1_alg».proof.Proof.KLseRunMid
import proofs.«111248_j26912265077430_1_alg».proof.Proof.KLseRunLast

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves: the stores' pieces read back -/

section Pieces
variable (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole)

theorem coverM_first (hc0 : condFirst i) (hc1 : ¬condLast i) (x0 : Vec F S16384x256 .bf16) (x1 : Vec F S1x1 .f32) (y : S1024x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x1.size (by sl_kernel_rfl) y
theorem coverL_first (hc0 : condFirst i) (hc1 : ¬condLast i) (x0 : Vec F S16384x256 .bf16) (x1 : Vec F S1x1 .f32) (y : S1024x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1024x1.size (by sl_kernel_rfl) y
/-- The running maximum and the running sum after a first tile. -/
def mFirst (hc0 : condFirst i) (hc1 : ¬condLast i) (x0 : Vec F S16384x256 .bf16) (x1 : Vec F S1x1 .f32) : Vec F S1024x1 .f32 :=
  VM.read (Elt F) (VM.writes (Elt F) VM.junk (runFirst c i arg2 harg2 arg3 harg3 arg4 harg4 arg5 harg5 arg6 harg6 hc0 hc1 x0 x1).1)
def lFirst (hc0 : condFirst i) (hc1 : ¬condLast i) (x0 : Vec F S16384x256 .bf16) (x1 : Vec F S1x1 .f32) : Vec F S1024x1 .f32 :=
  VL.read (Elt F) (VL.writes (Elt F) VL.junk (runFirst c i arg2 harg2 arg3 harg3 arg4 harg4 arg5 harg5 arg6 harg6 hc0 hc1 x0 x1).2.1)

theorem coverM_mid (hc0 : ¬condFirst i) (hc1 : ¬condLast i) (x0 : Vec F S16384x256 .bf16) (x1 : Vec F S1x1 .f32) (xm xl : Vec F S1024x1 .f32) (y : S1024x1.Idx) :
    ∃ pc ∈ (runMid c i arg2 harg2 arg3 harg3 arg4 harg4 arg5 harg5 arg6 harg6 hc0 hc1 x0 x1 xm xl).1, y ∈ pc.1.set :=
  View.cover_of_tiledL (runMid c i arg2 harg2 arg3 harg3 arg4 harg4 arg5 harg5 arg6 harg6 hc0 hc1 x0 x1 xm xl).1 S1024x1.size (by sl_kernel_rfl) y
theorem coverL_mid (hc0 : ¬condFirst i) (hc1 : ¬condLast i) (x0 : Vec F S16384x256 .bf16) (x1 : Vec F S1x1 .f32) (xm xl : Vec F S1024x1 .f32) (y : S1024x1.Idx) :
    ∃ pc ∈ (runMid c i arg2 harg2 arg3 harg3 arg4 harg4 arg5 harg5 arg6 harg6 hc0 hc1 x0 x1 xm xl).2.1, y ∈ pc.1.set :=
  View.cover_of_tiledL (runMid c i arg2 harg2 arg3 harg3 arg4 harg4 arg5 harg5 arg6 harg6 hc0 hc1 x0 x1 xm xl).2.1 S1024x1.size (by sl_kernel_rfl) y
/-- The running maximum and the running sum after a middle tile, from those before it. -/
def mMid (hc0 : ¬condFirst i) (hc1 : ¬condLast i) (x0 : Vec F S16384x256 .bf16) (x1 : Vec F S1x1 .f32) (xm xl : Vec F S1024x1 .f32) : Vec F S1024x1 .f32 :=
  VM.read (Elt F) (VM.writes (Elt F) VM.junk (runMid c i arg2 harg2 arg3 harg3 arg4 harg4 arg5 harg5 arg6 harg6 hc0 hc1 x0 x1 xm xl).1)
def lMid (hc0 : ¬condFirst i) (hc1 : ¬condLast i) (x0 : Vec F S16384x256 .bf16) (x1 : Vec F S1x1 .f32) (xm xl : Vec F S1024x1 .f32) : Vec F S1024x1 .f32 :=
  VL.read (Elt F) (VL.writes (Elt F) VL.junk (runMid c i arg2 harg2 arg3 harg3 arg4 harg4 arg5 harg5 arg6 harg6 hc0 hc1 x0 x1 xm xl).2.1)

theorem coverO_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).1, y ∈ pc.1.set :=
  View.cover_of_tiledL (runLast c i arg2 harg2 arg3 harg3 arg4 harg4 arg5 harg5 arg6 harg6 hc0 hc1 x0 x1 xm xl).1 S1024x1.size (by sl_kernel_rfl) y
theorem coverM_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).2.1, y ∈ pc.1.set :=
  View.cover_of_tiledL (runLast c i arg2 harg2 arg3 harg3 arg4 harg4 arg5 harg5 arg6 harg6 hc0 hc1 x0 x1 xm xl).2.1 S1024x1.size (by sl_kernel_rfl) y
theorem coverL_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).2.2.1, y ∈ pc.1.set :=
  View.cover_of_tiledL (runLast c i arg2 harg2 arg3 harg3 arg4 harg4 arg5 harg5 arg6 harg6 hc0 hc1 x0 x1 xm xl).2.2.1 S1024x1.size (by sl_kernel_rfl) y
/-- The output block, the running maximum and the running sum after a last tile. -/
def oLast (hc0 : ¬condFirst i) (hc1 : condLast i) (x0 : Vec F S16384x256 .bf16) (x1 : Vec F S1x1 .f32) (xm xl : Vec F S1024x1 .f32) : Vec F S1024x1 .f32 :=
  VO.read (Elt F) (VO.writes (Elt F) VO.junk (runLast c i arg2 harg2 arg3 harg3 arg4 harg4 arg5 harg5 arg6 harg6 hc0 hc1 x0 x1 xm xl).1)
def mLast (hc0 : ¬condFirst i) (hc1 : condLast i) (x0 : Vec F S16384x256 .bf16) (x1 : Vec F S1x1 .f32) (xm xl : Vec F S1024x1 .f32) : Vec F S1024x1 .f32 :=
  VM.read (Elt F) (VM.writes (Elt F) VM.junk (runLast c i arg2 harg2 arg3 harg3 arg4 harg4 arg5 harg5 arg6 harg6 hc0 hc1 x0 x1 xm xl).2.1)
def lLast (hc0 : ¬condFirst i) (hc1 : condLast i) (x0 : Vec F S16384x256 .bf16) (x1 : Vec F S1x1 .f32) (xm xl : Vec F S1024x1 .f32) : Vec F S1024x1 .f32 :=
  VL.read (Elt F) (VL.writes (Elt F) VL.junk (runLast c i arg2 harg2 arg3 harg3 arg4 harg4 arg5 harg5 arg6 harg6 hc0 hc1 x0 x1 xm xl).2.2.1)

end Pieces

/-- What an idle point "leaves" in the output's staging buffer: a placeholder nothing consults. -/
def oIdle : Vec F S1024x1 .f32 := VO.read (Elt F) (VO.writes (Elt F) VO.junk [])

/-! ## What the buffers hold after each point -/

/-- After the body at position n: the output's staging buffer, the running maximum, the running sum. A first tile starts
    afresh; every other tile continues from what the point before left in the scratch buffers. -/
def outsAt0 (c : Dev nD) : (n : ℕ) → n < cfg0.N → Vec F S1024x1 .f32 × Vec F S1024x1 .f32 × Vec F S1024x1 .f32
  | 0, hn => (oIdle,
      mFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) scL (Memref.isWhole_whole _) ((hcondFirst ⟨0, hn⟩).mpr (Nat.zero_mod _)) (fun h => by have := (hcondLast ⟨0, hn⟩).mp h; (try dsimp only at this); omega) (iblk0 V c 0 ⟨0, hn⟩) (iblk0 V c 1 ⟨0, hn⟩),
      lFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) scL (Memref.isWhole_whole _) ((hcondFirst ⟨0, hn⟩).mpr (Nat.zero_mod _)) (fun h => by have := (hcondLast ⟨0, hn⟩).mp h; (try dsimp only at this); omega) (iblk0 V c 0 ⟨0, hn⟩) (iblk0 V c 1 ⟨0, hn⟩))
  | n + 1, hn =>
    if h0 : (n + 1) % 16 = 0 then
      (oIdle,
        mFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) ((hcondFirst ⟨n + 1, hn⟩).mpr h0) (fun h => by have := (hcondLast ⟨n + 1, hn⟩).mp h; (try dsimp only at this); omega) (iblk0 V c 0 ⟨n + 1, hn⟩) (iblk0 V c 1 ⟨n + 1, hn⟩),
        lFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) ((hcondFirst ⟨n + 1, hn⟩).mpr h0) (fun h => by have := (hcondLast ⟨n + 1, hn⟩).mp h; (try dsimp only at this); omega) (iblk0 V c 0 ⟨n + 1, hn⟩) (iblk0 V c 1 ⟨n + 1, hn⟩))
    else if h1 : (n + 1) % 16 = 15 then
      (oLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
        mLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
        lLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
    else
      (oIdle,
        mMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
        lMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- The point before t (t itself when t is the first point). -/
abbrev prevLt (t : Fin cfg0.N) : t.val - 1 < cfg0.N := Nat.lt_of_le_of_lt (Nat.sub_le _ _) t.isLt

theorem outsAt0_first (c : Dev nD) (t : Fin cfg0.N) (h0 : t.val % 16 = 0) (hc1 : ¬condLast (grid0.coords t)) :
    outsAt0 V c t.val t.isLt = (oIdle,
      mFirst c (grid0.coords t) (ms0 t) (hs0 t) (ms1 t) (hs1 t) (ms2 t) (hs2 t) scM (Memref.isWhole_whole _) scL (Memref.isWhole_whole _) ((hcondFirst t).mpr h0) hc1 (iblk0 V c 0 t) (iblk0 V c 1 t),
      lFirst c (grid0.coords t) (ms0 t) (hs0 t) (ms1 t) (hs1 t) (ms2 t) (hs2 t) scM (Memref.isWhole_whole _) scL (Memref.isWhole_whole _) ((hcondFirst t).mpr h0) hc1 (iblk0 V c 0 t) (iblk0 V c 1 t)) := by
  obtain ⟨n, hn⟩ := t
  cases n with
  | zero => exact rfl
  | succ n => exact (dif_pos h0).trans rfl

theorem outsAt0_mid (c : Dev nD) (t : Fin cfg0.N) (h0 : ¬t.val % 16 = 0) (h1 : ¬t.val % 16 = 15) :
    outsAt0 V c t.val t.isLt = (oIdle,
      mMid c (grid0.coords t) (ms0 t) (hs0 t) (ms1 t) (hs1 t) (ms2 t) (hs2 t) scM (Memref.isWhole_whole _) scL (Memref.isWhole_whole _) (fun h => h0 ((hcondFirst t).mp h)) (fun h => h1 ((hcondLast t).mp h)) (iblk0 V c 0 t) (iblk0 V c 1 t) (outsAt0 V c (t.val - 1) (prevLt t)).2.1 (outsAt0 V c (t.val - 1) (prevLt t)).2.2,
      lMid c (grid0.coords t) (ms0 t) (hs0 t) (ms1 t) (hs1 t) (ms2 t) (hs2 t) scM (Memref.isWhole_whole _) scL (Memref.isWhole_whole _) (fun h => h0 ((hcondFirst t).mp h)) (fun h => h1 ((hcondLast t).mp h)) (iblk0 V c 0 t) (iblk0 V c 1 t) (outsAt0 V c (t.val - 1) (prevLt t)).2.1 (outsAt0 V c (t.val - 1) (prevLt t)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 16 = 0) (h1 : t.val % 16 = 15) :
    outsAt0 V c t.val t.isLt = (
      oLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2,
      mLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2,
      lLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The scoped buffers of the core that this region neither stages nor uses as scratch (the other region's staging
    buffers), each whole at some contents. -/
def restOther (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant with nothing known of the scratch buffers, spelt out. -/
theorem PhiA0_eq (c : Dev nD) :
    (Pipeline.ΦA spec0 c : sProp 𝕄)
      = iprop(iprop((∃ d, owns (c : Thread nD τ) scM fullShare d) ∗ (∃ d, owns (c : Thread nD τ) scL fullShare d) ∗ restOther (F := F) c) ∗ (∃ r, prngReg c r)) := by
  unfold Pipeline.ΦA restOther; rw [scopedRest0_eq]; simp only [scM, scL, owns_whole]; try rfl

/-- Before position n: at the very first point nothing is known of the scratch buffers; afterwards they hold what the
    point before left. -/
def PhiS (c : Dev nD) : (n : ℕ) → n ≤ cfg0.N → sProp 𝕄
  | 0, _ => Pipeline.ΦA spec0 c
  | n + 1, hn => iprop(iprop(owns (c : Thread nD τ) scM fullShare ((outsAt0 V c n hn).2.1) ∗ owns (c : Thread nD τ) scL fullShare ((outsAt0 V c n hn).2.2) ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt0 V c n hn).2.1) ∗ owns (c : Thread nD τ) scL fullShare ((outsAt0 V c n hn).2.2) ∗ restOther (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((outsAt0 V c (n - 1) (by omega)).2.1) ∗ owns (c : Thread nD τ) scL fullShare ((outsAt0 V c (n - 1) (by omega)).2.2) ∗ restOther (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Lse

end
-- ==== Proof.KLseBody.lean ====
/-
  The first kernel region's body obligation: at every grid point the body, called on the windows' current staging
  buffers and the two scratch buffers, leaves the inputs' blocks in place, the scratch buffers at the next running
  maximum and sum, and — at a last tile — the output block; at the other points the idle output buffer is handed back
  as found. By cases on the point's position in its row block.
-/
import proofs.«111248_j26912265077430_1_alg».proof.Proof.KLseData

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0 t) fullShare ((dat0 V c).after 0 t) from by
    unfold Dat.leavesExact; rw [liveAt0 t], after0_0]
  rw [show (dat0 V c).leavesExact 1 t = owns (c : Thread nD τ) (ms1 t) fullShare ((dat0 V c).after 1 t) from by
    unfold Dat.leavesExact; rw [liveAt1 t], after0_1]
  by_cases h0 : t.val % 16 = 0
  · -- a first tile
    have hc1 : ¬condLast (grid0.coords t) := fun h => by have := (hcondLast t).mp h; omega
    rw [Dat.leavesExact_idle (dat0 V c) 2 t (idleAt2 t hc1) (noFlush2 t hc1)]
    rw [outsAt0_first V c t h0 hc1]
    unfold mFirst lFirst; (try dsimp only)
    by_cases hz : t.val = 0
    · rw [PhiS_castSucc V c t, PhiS_zero V c _ _ hz, PhiA0_eq]
      iintro ⟨⟨⟨HM, HL, HR⟩, Hg⟩, Ho, ⟨%d0, H0⟩, ⟨%d1, H1⟩, ⟨%d2, H2⟩⟩
      iapply ((runFirst c (grid0.coords t) _ _ _ _ _ _ _ _ _ _ ((hcondFirst t).mpr h0) hc1 (iblk0 V c 0 t) (iblk0 V c 1 t)).2.2 _ Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_first c _ _ _ _ _ _ _ _ _ _ _ _ _ _ _)
          isplitl [HL]
          · unfold owns; iexists _; isplitr
            swap; · iexact HL
            ipureintro; exact View.read_writes_of_cover _ _ _ _ _ (coverL_first c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HM, HL, HR⟩, Hg⟩, Ho, ⟨%d0, H0⟩, ⟨%d1, H1⟩, ⟨%d2, H2⟩⟩
      iapply ((runFirst c (grid0.coords t) _ _ _ _ _ _ _ _ _ _ ((hcondFirst t).mpr h0) hc1 (iblk0 V c 0 t) (iblk0 V c 1 t)).2.2 _ Set.univ _)
      isplitl [H0]; · iexact H0
      isplitl [H1]; · iexact H1
      isplitl [H2]; · iexact H2
      isplitl [HM]; · iexists _; iexact HM
      isplitl [HL]; · iexists _; iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_first c _ _ _ _ _ _ _ _ _ _ _ _ _ _ _)
          isplitl [HL]
          · unfold owns; iexists _; isplitr
            swap; · iexact HL
            ipureintro; exact View.read_writes_of_cover _ _ _ _ _ (coverL_first c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · -- a last tile
      rw [show (dat0 V c).leavesExact 2 t = owns (c : Thread nD τ) (ms2 t) fullShare ((dat0 V c).after 2 t) from by
        unfold Dat.leavesExact; rw [liveAt2 t ((hcondLast t).mpr h1)], after0_2]
      rw [outsAt0_last V c t h0 h1]
      unfold oLast mLast lLast; (try dsimp only)
      rw [PhiS_castSucc V c t, PhiS_pos V c _ _ hz]
      iintro ⟨⟨⟨HM, HL, HR⟩, Hg⟩, Ho, ⟨%d0, H0⟩, ⟨%d1, H1⟩, ⟨%d2, H2⟩⟩
      iapply ((runLast c (grid0.coords t) _ _ _ _ _ _ _ _ _ _ (fun h => h0 ((hcondFirst t).mp h)) ((hcondLast t).mpr h1) (iblk0 V c 0 t) (iblk0 V c 1 t) _ _).2.2.2 Set.univ _)
      isplitl [H0]; · iexact H0
      isplitl [H1]; · iexact H1
      isplitl [H2]; · iexists _; iexact H2
      isplitl [HM]; · iexact HM
      isplitl [HL]; · iexact HL
      iintro ⟨H0, H1, ⟨%e2, H2⟩, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_last c _ _ _ _ _ _ _ _ _ _ _ _ _ _ _ _ _)
          isplitl [HL]
          · unfold owns; iexists _; isplitr
            swap; · iexact HL
            ipureintro; exact View.read_writes_of_cover _ _ _ _ _ (coverL_last c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hc1 : ¬condLast (grid0.coords t) := fun h => h1 ((hcondLast t).mp h)
      rw [Dat.leavesExact_idle (dat0 V c) 2 t (idleAt2 t hc1) (noFlush2 t hc1)]
      rw [outsAt0_mid V c t h0 h1]
      unfold mMid lMid; (try dsimp only)
      rw [PhiS_castSucc V c t, PhiS_pos V c _ _ hz]
      iintro ⟨⟨⟨HM, HL, HR⟩, Hg⟩, Ho, ⟨%d0, H0⟩, ⟨%d1, H1⟩, ⟨%d2, H2⟩⟩
      iapply ((runMid c (grid0.coords t) _ _ _ _ _ _ _ _ _ _ (fun h => h0 ((hcondFirst t).mp h)) hc1 (iblk0 V c 0 t) (iblk0 V c 1 t) _ _).2.2 _ Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_mid c _ _ _ _ _ _ _ _ _ _ _ _ _ _ _ _ _)
          isplitl [HL]
          · unfold owns; iexists _; isplitr
            swap; · iexact HL
            ipureintro; exact View.read_writes_of_cover _ _ _ _ _ (coverL_mid c _ _ _ _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back, the scratch contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HM, HL, HR⟩, Hg⟩
  isplitl [HM HL HR]
  · isplitl [HM]; · iexists _; iexact HM
    isplitl [HL]; · iexists _; iexact HL
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 256 := N_0; omega)

end Cert.Kernel.Lse

end
-- ==== Proof.KRegion1.lean ====
import proofs.«111248_j26912265077430_1_alg».proof.Proof.Gen.Kernel.Launch
import proofs.«111248_j26912265077430_1_alg».proof.Proof.Gen.Kernel.Skeleton
import proofs.«111248_j26912265077430_1_alg».proof.Proof.Gen.Kernel.Points
import Idealize.ShloMosaic.Lib.Pipeline.FrameBody
import Idealize.ShloMosaic.Lib.Ring
import Idealize.ShloMosaic.Lib.Tactic

/-! # The second region: the row-wise scaled inner products

For the pipeline of the second region (grid of 8 points, four windows: three read, one written), at a
parameter `V` — the buffer contents when the region is entered —: each window's block at a point,
what the body leaves in the written window's buffer (the scaled lane sums of the products of the two
row blocks), the body's triple, the proof data and the body obligation at every point. -/

set_option maxRecDepth 16384

noncomputable section

namespace Cert.Kernel.Diag

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1 := Rect.unit (s := S1x1) ![0, 0] S1x1.size inb_S1x1_S1x1_0_0
abbrev r1_1 : Rect S1024x256 := Rect.unit (s := S1024x256) ![0, 0] S1024x256.size inb_S1024x256_S1024x256_0_0
abbrev r1_2 : Rect S1024x1 := Rect.unit (s := S1024x1) ![0, 0] S1024x1.size inb_S1024x1_S1024x1_0_0

/-! ## What the body leaves in the output window's buffer -/

/-- Window 3's staging buffer after the body, from the input windows' blocks: its one store as a piece. -/
def out1_3 (x0 x1 : Vec F S1024x256 .f32) (x2 : Vec F S1x1 .f32) : Vec F S1024x1 .f32 :=
  View.canon [⟨r1_2, k1_pay1 (View.ld x2 r1_0) (View.ld x0 r1_1) (View.ld x1 r1_1)⟩]

/-- Its store tiles the buffer, so it covers it. -/
theorem cover1_3 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

/-! ## The body's triple -/

set_option maxHeartbeats 1000000 in
/-- The body on whole staging memrefs, the inputs' at read contents `xW` and the output's at anything, runs to
    the continuation holding the inputs' as they were and the output's at `out1_3` of the inputs'. -/
theorem sound_kernel1 (c : Dev nD) (E : Set ℕ) (i : grid1.Coords) (arg1 : Memref sig .tc .vmem S1024x256 .f32) (harg1 : arg1.IsWhole) (arg2 : Memref sig .tc .vmem S1024x256 .f32) (harg2 : arg2.IsWhole) (arg3 : Memref sig .tc .vmem S1x1 .f32) (harg3 : arg3.IsWhole) (arg4 : Memref sig .tc .vmem S1024x1 .f32) (harg4 : arg4.IsWhole)
    (x0 : Vec F S1024x256 .f32) (x1 : Vec F S1024x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__diag_kernel i arg1 harg1 arg2 harg2 arg3 harg3 arg4 harg4) K := by
  simp only [cc1__diag_kernel_eq_skeleton]; unfold cc1__diag_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at
    point `t` each input's buffer at its block and the output's at `out1_3` of the input blocks; the invariant
    the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Diag

end
-- ==== Proof.KRun.lean ====
/-
  The whole program's run, at a generic float instance: @main is five segments — host operations, the tiled
  logsumexp region, one host reshape, the row-dot region, and the closing host operations. Between two segments the
  core holds every unscoped buffer at contents that are folded from the launch memory: a host stretch applies its
  operations, a region replaces its output array by what its write-backs leave. Every weakly fair execution
  terminates with each unscoped buffer at the last of these contents.
-/
import proofs.«111248_j26912265077430_1_alg».proof.Proof.KLseBody
import proofs.«111248_j26912265077430_1_alg».proof.Proof.KRegion1

set_option maxRecDepth 16384

noncomputable section

namespace Cert.Kernel.Whole

open Cert.Kernel Cert.Kernel.Gen Cert.Kernel.Lse Cert.Kernel.Diag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (Q := Pipeline.ΦA spec0 c) (hout0 (V1 m ρ) c) ?_
    unfold Pipeline.ΦA
    show iprop(Pipeline.scopedRest spec0 c ∗ ∃ r, prngReg c r) ⊢ iprop((∃ r, prngReg c r) ∗ BI.emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Whole

end
-- ==== Proof.KArgs.lean ====
/-
  The argument arrays end as launched: no host operation writes one, and a region only reads them (through an
  input window, or not at all), so the fold of buffer contents through @main, read at an argument, walks back to the
  launch memory.
-/
import proofs.«111248_j26912265077430_1_alg».proof.Proof.KRun
import proofs.«111248_j26912265077430_1_alg».proof.Proof.Gen.Kernel.Regions

set_option maxRecDepth 16384

noncomputable section

namespace Cert.Kernel.Whole

open Cert.Kernel Cert.Kernel.Gen Cert.Kernel.Lse Cert.Kernel.Diag
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- An input array of the second region reaches that region as launched, -/
theorem V3_main_arg0 (c : Dev nD) : V3 m ρ c main_arg0 = m ((c : Thread nD τ).loc main_arg0) :=
  (W3_of m ρ c main_arg0 (by decide)).trans <| (W2_of_ne m ρ c main_arg0 (by decide)).trans <| (W1_of m ρ c main_arg0 (by decide)).trans rfl
theorem V3_main_arg1 (c : Dev nD) : V3 m ρ c main_arg1 = m ((c : Thread nD τ).loc main_arg1) :=
  (W3_of m ρ c main_arg1 (by decide)).trans <| (W2_of_ne m ρ c main_arg1 (by decide)).trans <| (W1_of m ρ c main_arg1 (by decide)).trans rfl

/-- and the end of @main. -/
theorem W5_main_arg0 (c : Dev nD) : W5 m ρ c (Proc.devRef .tc main_arg0) = m ((c : Thread nD τ).loc main_arg0) :=
  (W5_of m ρ c main_arg0 (by decide)).trans <|
    ((W4_arr m ρ c 0).trans (((dat1 (V3 m ρ) c).arrAt_in 0 rfl _).trans (A_eq1 (V3 m ρ) c 0))).trans (V3_main_arg0 m ρ c)
theorem W5_main_arg1 (c : Dev nD) : W5 m ρ c (Proc.devRef .tc main_arg1) = m ((c : Thread nD τ).loc main_arg1) :=
  (W5_of m ρ c main_arg1 (by decide)).trans <|
    ((W4_arr m ρ c 1).trans (((dat1 (V3 m ρ) c).arrAt_in 1 rfl _).trans (A_eq1 (V3 m ρ) c 1))).trans (V3_main_arg1 m ρ c)
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Whole

end
-- ==== Proof.LseShared.lean ====
/-
  The first kernel region (the tiled logsumexp) at a generic float instance: what its three kinds of grid point
  share. The grid is 16 × 16, walked row-major: point t is row block t / 16 and column tile t % 16. The body resets
  its two carried scratch buffers (the running maximum and the running sum) at the first tile of a row block
  (t % 16 = 0) and writes the output block only at the last one (t % 16 = 15); at every other point the output
  window is idle.
-/
import proofs.«111248_j26912265077430_1_alg».proof.Proof.Gen.KernelIdeal.Launch
import proofs.«111248_j26912265077430_1_alg».proof.Proof.Gen.KernelIdeal.Skeleton
import proofs.«111248_j26912265077430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first column tile": the reset of the running maximum and sum. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column tile": the output block is written. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Off the last tile the output window is idle and is not written back. -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem liveAt2 : ∀ t : Fin cfg0.N, condLast (grid0.coords t) → cfg0.idle 2 (grid0.coords t) = false := by decide +kernel

/-! ## The memrefs the body is called with -/

abbrev ms0 (t : Fin cfg0.N) : Memref sig .tc .vmem S16384x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The two scratch buffers: the running maximum and the running sum. -/
abbrev scM : Memref sig .tc .vmem S1024x1 .f32 := Memref.whole cc0_scratch0
abbrev scL : Memref sig .tc .vmem S1024x1 .f32 := Memref.whole cc0_scratch1
abbrev VM : View sig .tc .vmem S1024x1 .f32 := scM.view
abbrev VL : View sig .tc .vmem S1024x1 .f32 := scL.view
abbrev VO : View sig .tc .vmem S1024x1 .f32 := (Memref.whole cc0_stg2_0 : Memref sig .tc .vmem S1024x1 .f32).view

end Cert.KernelIdeal.Lse

end
-- ==== Proof.LseRunFirst.lean ====
/-
  The body at the first column tile of a row block: both scratch buffers are overwritten before they are read, so
  they may hold anything on entry; the output window is not touched.
-/
import proofs.«111248_j26912265077430_1_alg».proof.Proof.LseShared

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers at a first tile (last store first), with the body's
    triple: the inputs' staging memrefs at their contents and the idle output's at any contents are handed back
    untouched. -/
noncomputable def runFirst (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 : Vec F S16384x256 .bf16) (x1 : Vec F S1x1 .f32) :
    Σ' (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%dm, %fm, -, HM⟩, ⟨%dl, %fl, -, HL⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HM]; · iexists _; iexact HM
    iexists _; iexact HL

end Cert.KernelIdeal.Lse

end
-- ==== Proof.LseRunMid.lean ====
/-
  The body at a middle column tile: the scratch buffers hold what the tile before left and are updated; the output
  window is not touched.
-/
import proofs.«111248_j26912265077430_1_alg».proof.Proof.LseShared

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers at a middle tile, from their contents on entry. -/
noncomputable def runMid (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 : Vec F S16384x256 .bf16) (x1 : Vec F S1x1 .f32) (xm xl : Vec F S1024x1 .f32) :
    Σ' (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fm, %hfm, HM⟩, ⟨%fl, %hfl, HL⟩, Hk⟩
    obtain rfl := harg2.eq_unread hf0; obtain rfl := harg3.eq_unread hf1; obtain rfl := harg4.eq_unread hf2
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HM]; · iexists _; iexact HM
    iexists _; iexact HL

end Cert.KernelIdeal.Lse

end
-- ==== Proof.LseRunLast.lean ====
/-
  The body at the last column tile of a row block: the scratch buffers are updated once more and the output block is
  written from them.
-/
import proofs.«111248_j26912265077430_1_alg».proof.Proof.LseShared

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the two scratch buffers at a last tile. -/
noncomputable def runLast (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 : Vec F S16384x256 .bf16) (x1 : Vec F S1x1 .f32) (xm xl : Vec F S1024x1 .f32) :
    Σ' (LO : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xm ∗ owns (c : Thread nD τ) arg6 fullShare xl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LM) ∗ (∃ f, arg6.view.loc (c : Thread nD τ) ↦[arg6.view.set]{fullShare} arg6.view.writes (Elt F) f LL)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fm, %hfm, HM⟩, ⟨%fl, %hfl, HL⟩, Hk⟩
    obtain rfl := harg2.eq_unread hf0; obtain rfl := harg3.eq_unread hf1
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HM]; · iexists _; iexact HM
    iexists _; iexact HL

end Cert.KernelIdeal.Lse

end
-- ==== Proof.LseData.lean ====
/-
  The first kernel region's proof data and body obligation, at a generic float instance and at ANY contents V of the
  TensorCore's buffers on entry: what the two carried scratch buffers (the running maximum, the running sum) and the
  output's staging buffer hold after each grid point, by recursion on the point; the region invariant that carries
  the scratch contents from one point to the next; and the body's triple at every point, by cases on the point's
  position in its row block (first tile, middle tile, last tile).
-/
import proofs.«111248_j26912265077430_1_alg».proof.Proof.LseRunFirst
import proofs.«111248_j26912265077430_1_alg».proof.Proof.LseRunMid
import proofs.«111248_j26912265077430_1_alg».proof.Proof.LseRunLast

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves: the stores' pieces read back -/

section Pieces
variable (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole)

theorem coverM_first (hc0 : condFirst i) (hc1 : ¬condLast i) (x0 : Vec F S16384x256 .bf16) (x1 : Vec F S1x1 .f32) (y : S1024x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x1.size (by sl_kernel_rfl) y
theorem coverL_first (hc0 : condFirst i) (hc1 : ¬condLast i) (x0 : Vec F S16384x256 .bf16) (x1 : Vec F S1x1 .f32) (y : S1024x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1024x1.size (by sl_kernel_rfl) y
/-- The running maximum and the running sum after a first tile. -/
def mFirst (hc0 : condFirst i) (hc1 : ¬condLast i) (x0 : Vec F S16384x256 .bf16) (x1 : Vec F S1x1 .f32) : Vec F S1024x1 .f32 :=
  VM.read (Elt F) (VM.writes (Elt F) VM.junk (runFirst c i arg2 harg2 arg3 harg3 arg4 harg4 arg5 harg5 arg6 harg6 hc0 hc1 x0 x1).1)
def lFirst (hc0 : condFirst i) (hc1 : ¬condLast i) (x0 : Vec F S16384x256 .bf16) (x1 : Vec F S1x1 .f32) : Vec F S1024x1 .f32 :=
  VL.read (Elt F) (VL.writes (Elt F) VL.junk (runFirst c i arg2 harg2 arg3 harg3 arg4 harg4 arg5 harg5 arg6 harg6 hc0 hc1 x0 x1).2.1)

theorem coverM_mid (hc0 : ¬condFirst i) (hc1 : ¬condLast i) (x0 : Vec F S16384x256 .bf16) (x1 : Vec F S1x1 .f32) (xm xl : Vec F S1024x1 .f32) (y : S1024x1.Idx) :
    ∃ pc ∈ (runMid c i arg2 harg2 arg3 harg3 arg4 harg4 arg5 harg5 arg6 harg6 hc0 hc1 x0 x1 xm xl).1, y ∈ pc.1.set :=
  View.cover_of_tiledL (runMid c i arg2 harg2 arg3 harg3 arg4 harg4 arg5 harg5 arg6 harg6 hc0 hc1 x0 x1 xm xl).1 S1024x1.size (by sl_kernel_rfl) y
theorem coverL_mid (hc0 : ¬condFirst i) (hc1 : ¬condLast i) (x0 : Vec F S16384x256 .bf16) (x1 : Vec F S1x1 .f32) (xm xl : Vec F S1024x1 .f32) (y : S1024x1.Idx) :
    ∃ pc ∈ (runMid c i arg2 harg2 arg3 harg3 arg4 harg4 arg5 harg5 arg6 harg6 hc0 hc1 x0 x1 xm xl).2.1, y ∈ pc.1.set :=
  View.cover_of_tiledL (runMid c i arg2 harg2 arg3 harg3 arg4 harg4 arg5 harg5 arg6 harg6 hc0 hc1 x0 x1 xm xl).2.1 S1024x1.size (by sl_kernel_rfl) y
/-- The running maximum and the running sum after a middle tile, from those before it. -/
def mMid (hc0 : ¬condFirst i) (hc1 : ¬condLast i) (x0 : Vec F S16384x256 .bf16) (x1 : Vec F S1x1 .f32) (xm xl : Vec F S1024x1 .f32) : Vec F S1024x1 .f32 :=
  VM.read (Elt F) (VM.writes (Elt F) VM.junk (runMid c i arg2 harg2 arg3 harg3 arg4 harg4 arg5 harg5 arg6 harg6 hc0 hc1 x0 x1 xm xl).1)
def lMid (hc0 : ¬condFirst i) (hc1 : ¬condLast i) (x0 : Vec F S16384x256 .bf16) (x1 : Vec F S1x1 .f32) (xm xl : Vec F S1024x1 .f32) : Vec F S1024x1 .f32 :=
  VL.read (Elt F) (VL.writes (Elt F) VL.junk (runMid c i arg2 harg2 arg3 harg3 arg4 harg4 arg5 harg5 arg6 harg6 hc0 hc1 x0 x1 xm xl).2.1)

theorem coverO_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).1, y ∈ pc.1.set :=
  View.cover_of_tiledL (runLast c i arg2 harg2 arg3 harg3 arg4 harg4 arg5 harg5 arg6 harg6 hc0 hc1 x0 x1 xm xl).1 S1024x1.size (by sl_kernel_rfl) y
theorem coverM_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).2.1, y ∈ pc.1.set :=
  View.cover_of_tiledL (runLast c i arg2 harg2 arg3 harg3 arg4 harg4 arg5 harg5 arg6 harg6 hc0 hc1 x0 x1 xm xl).2.1 S1024x1.size (by sl_kernel_rfl) y
theorem coverL_last (hc0 : ¬condFirst i) (hc1 : condLast i) (x0 : Vec F S16384x256 .bf16) (x1 : Vec F S1x1 .f32) (xm xl : Vec F S1024x1 .f32) (y : S1024x1.Idx) :
    ∃ pc ∈ (runLast c i arg2 harg2 arg3 harg3 arg4 harg4 arg5 harg5 arg6 harg6 hc0 hc1 x0 x1 xm xl).2.2.1, y ∈ pc.1.set :=
  View.cover_of_tiledL (runLast c i arg2 harg2 arg3 harg3 arg4 harg4 arg5 harg5 arg6 harg6 hc0 hc1 x0 x1 xm xl).2.2.1 S1024x1.size (by sl_kernel_rfl) y
/-- The output block, the running maximum and the running sum after a last tile. -/
def oLast (hc0 : ¬condFirst i) (hc1 : condLast i) (x0 : Vec F S16384x256 .bf16) (x1 : Vec F S1x1 .f32) (xm xl : Vec F S1024x1 .f32) : Vec F S1024x1 .f32 :=
  VO.read (Elt F) (VO.writes (Elt F) VO.junk (runLast c i arg2 harg2 arg3 harg3 arg4 harg4 arg5 harg5 arg6 harg6 hc0 hc1 x0 x1 xm xl).1)
def mLast (hc0 : ¬condFirst i) (hc1 : condLast i) (x0 : Vec F S16384x256 .bf16) (x1 : Vec F S1x1 .f32) (xm xl : Vec F S1024x1 .f32) : Vec F S1024x1 .f32 :=
  VM.read (Elt F) (VM.writes (Elt F) VM.junk (runLast c i arg2 harg2 arg3 harg3 arg4 harg4 arg5 harg5 arg6 harg6 hc0 hc1 x0 x1 xm xl).2.1)
def lLast (hc0 : ¬condFirst i) (hc1 : condLast i) (x0 : Vec F S16384x256 .bf16) (x1 : Vec F S1x1 .f32) (xm xl : Vec F S1024x1 .f32) : Vec F S1024x1 .f32 :=
  VL.read (Elt F) (VL.writes (Elt F) VL.junk (runLast c i arg2 harg2 arg3 harg3 arg4 harg4 arg5 harg5 arg6 harg6 hc0 hc1 x0 x1 xm xl).2.2.1)

end Pieces

/-- What an idle point "leaves" in the output's staging buffer: a placeholder nothing consults. -/
def oIdle : Vec F S1024x1 .f32 := VO.read (Elt F) (VO.writes (Elt F) VO.junk [])

/-! ## What the buffers hold after each point -/

/-- After the body at position n: the output's staging buffer, the running maximum, the running sum. A first tile starts
    afresh; every other tile continues from what the point before left in the scratch buffers. -/
def outsAt0 (c : Dev nD) : (n : ℕ) → n < cfg0.N → Vec F S1024x1 .f32 × Vec F S1024x1 .f32 × Vec F S1024x1 .f32
  | 0, hn => (oIdle,
      mFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) scL (Memref.isWhole_whole _) ((hcondFirst ⟨0, hn⟩).mpr (Nat.zero_mod _)) (fun h => by have := (hcondLast ⟨0, hn⟩).mp h; (try dsimp only at this); omega) (iblk0 V c 0 ⟨0, hn⟩) (iblk0 V c 1 ⟨0, hn⟩),
      lFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) scL (Memref.isWhole_whole _) ((hcondFirst ⟨0, hn⟩).mpr (Nat.zero_mod _)) (fun h => by have := (hcondLast ⟨0, hn⟩).mp h; (try dsimp only at this); omega) (iblk0 V c 0 ⟨0, hn⟩) (iblk0 V c 1 ⟨0, hn⟩))
  | n + 1, hn =>
    if h0 : (n + 1) % 16 = 0 then
      (oIdle,
        mFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) ((hcondFirst ⟨n + 1, hn⟩).mpr h0) (fun h => by have := (hcondLast ⟨n + 1, hn⟩).mp h; (try dsimp only at this); omega) (iblk0 V c 0 ⟨n + 1, hn⟩) (iblk0 V c 1 ⟨n + 1, hn⟩),
        lFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) ((hcondFirst ⟨n + 1, hn⟩).mpr h0) (fun h => by have := (hcondLast ⟨n + 1, hn⟩).mp h; (try dsimp only at this); omega) (iblk0 V c 0 ⟨n + 1, hn⟩) (iblk0 V c 1 ⟨n + 1, hn⟩))
    else if h1 : (n + 1) % 16 = 15 then
      (oLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
        mLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
        lLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
    else
      (oIdle,
        mMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
        lMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) scL (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- The point before t (t itself when t is the first point). -/
abbrev prevLt (t : Fin cfg0.N) : t.val - 1 < cfg0.N := Nat.lt_of_le_of_lt (Nat.sub_le _ _) t.isLt

theorem outsAt0_first (c : Dev nD) (t : Fin cfg0.N) (h0 : t.val % 16 = 0) (hc1 : ¬condLast (grid0.coords t)) :
    outsAt0 V c t.val t.isLt = (oIdle,
      mFirst c (grid0.coords t) (ms0 t) (hs0 t) (ms1 t) (hs1 t) (ms2 t) (hs2 t) scM (Memref.isWhole_whole _) scL (Memref.isWhole_whole _) ((hcondFirst t).mpr h0) hc1 (iblk0 V c 0 t) (iblk0 V c 1 t),
      lFirst c (grid0.coords t) (ms0 t) (hs0 t) (ms1 t) (hs1 t) (ms2 t) (hs2 t) scM (Memref.isWhole_whole _) scL (Memref.isWhole_whole _) ((hcondFirst t).mpr h0) hc1 (iblk0 V c 0 t) (iblk0 V c 1 t)) := by
  obtain ⟨n, hn⟩ := t
  cases n with
  | zero => exact rfl
  | succ n => exact (dif_pos h0).trans rfl

theorem outsAt0_mid (c : Dev nD) (t : Fin cfg0.N) (h0 : ¬t.val % 16 = 0) (h1 : ¬t.val % 16 = 15) :
    outsAt0 V c t.val t.isLt = (oIdle,
      mMid c (grid0.coords t) (ms0 t) (hs0 t) (ms1 t) (hs1 t) (ms2 t) (hs2 t) scM (Memref.isWhole_whole _) scL (Memref.isWhole_whole _) (fun h => h0 ((hcondFirst t).mp h)) (fun h => h1 ((hcondLast t).mp h)) (iblk0 V c 0 t) (iblk0 V c 1 t) (outsAt0 V c (t.val - 1) (prevLt t)).2.1 (outsAt0 V c (t.val - 1) (prevLt t)).2.2,
      lMid c (grid0.coords t) (ms0 t) (hs0 t) (ms1 t) (hs1 t) (ms2 t) (hs2 t) scM (Memref.isWhole_whole _) scL (Memref.isWhole_whole _) (fun h => h0 ((hcondFirst t).mp h)) (fun h => h1 ((hcondLast t).mp h)) (iblk0 V c 0 t) (iblk0 V c 1 t) (outsAt0 V c (t.val - 1) (prevLt t)).2.1 (outsAt0 V c (t.val - 1) (prevLt t)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 16 = 0) (h1 : t.val % 16 = 15) :
    outsAt0 V c t.val t.isLt = (
      oLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2,
      mLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2,
      lLast c (grid0.coords t) (ms0 t) (hs0 t) (ms1 t) (hs1 t) (ms2 t) (hs2 t) scM (Memref.isWhole_whole _) scL (Memref.isWhole_whole _) (fun h => h0 ((hcondFirst t).mp h)) ((hcondLast t).mpr h1) (iblk0 V c 0 t) (iblk0 V c 1 t) (outsAt0 V c (t.val - 1) (prevLt t)).2.1 (outsAt0 V c (t.val - 1) (prevLt t)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The scoped buffers of the core that this region neither stages nor uses as scratch (the other region's staging
    buffers), each whole at some contents. -/
def restOther (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant with nothing known of the scratch buffers, spelt out. -/
theorem PhiA0_eq (c : Dev nD) :
    (Pipeline.ΦA spec0 c : sProp 𝕄)
      = iprop(iprop((∃ d, owns (c : Thread nD τ) scM fullShare d) ∗ (∃ d, owns (c : Thread nD τ) scL fullShare d) ∗ restOther (F := F) c) ∗ (∃ r, prngReg c r)) := by
  unfold Pipeline.ΦA restOther; rw [scopedRest0_eq]; simp only [scM, scL, owns_whole]; try rfl

/-- Before position n: at the very first point nothing is known of the scratch buffers; afterwards they hold what the
    point before left. -/
def PhiS (c : Dev nD) : (n : ℕ) → n ≤ cfg0.N → sProp 𝕄
  | 0, _ => Pipeline.ΦA spec0 c
  | n + 1, hn => iprop(iprop(owns (c : Thread nD τ) scM fullShare ((outsAt0 V c n hn).2.1) ∗ owns (c : Thread nD τ) scL fullShare ((outsAt0 V c n hn).2.2) ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt0 V c n hn).2.1) ∗ owns (c : Thread nD τ) scL fullShare ((outsAt0 V c n hn).2.2) ∗ restOther (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((outsAt0 V c (n - 1) (by omega)).2.1) ∗ owns (c : Thread nD τ) scL fullShare ((outsAt0 V c (n - 1) (by omega)).2.2) ∗ restOther (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Lse

end
-- ==== Proof.LseBody.lean ====
/-
  The first kernel region's body obligation: at every grid point the body, called on the windows' current staging
  buffers and the two scratch buffers, leaves the inputs' blocks in place, the scratch buffers at the next running
  maximum and sum, and — at a last tile — the output block; at the other points the idle output buffer is handed back
  as found. By cases on the point's position in its row block.
-/
import proofs.«111248_j26912265077430_1_alg».proof.Proof.LseData

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0 t) fullShare ((dat0 V c).after 0 t) from by
    unfold Dat.leavesExact; rw [liveAt0 t], after0_0]
  rw [show (dat0 V c).leavesExact 1 t = owns (c : Thread nD τ) (ms1 t) fullShare ((dat0 V c).after 1 t) from by
    unfold Dat.leavesExact; rw [liveAt1 t], after0_1]
  by_cases h0 : t.val % 16 = 0
  · -- a first tile
    have hc1 : ¬condLast (grid0.coords t) := fun h => by have := (hcondLast t).mp h; omega
    rw [Dat.leavesExact_idle (dat0 V c) 2 t (idleAt2 t hc1) (noFlush2 t hc1)]
    rw [outsAt0_first V c t h0 hc1]
    unfold mFirst lFirst; (try dsimp only)
    by_cases hz : t.val = 0
    · rw [PhiS_castSucc V c t, PhiS_zero V c _ _ hz, PhiA0_eq]
      iintro ⟨⟨⟨HM, HL, HR⟩, Hg⟩, Ho, ⟨%d0, H0⟩, ⟨%d1, H1⟩, ⟨%d2, H2⟩⟩
      iapply ((runFirst c (grid0.coords t) _ _ _ _ _ _ _ _ _ _ ((hcondFirst t).mpr h0) hc1 (iblk0 V c 0 t) (iblk0 V c 1 t)).2.2 _ Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_first c _ _ _ _ _ _ _ _ _ _ _ _ _ _ _)
          isplitl [HL]
          · unfold owns; iexists _; isplitr
            swap; · iexact HL
            ipureintro; exact View.read_writes_of_cover _ _ _ _ _ (coverL_first c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HM, HL, HR⟩, Hg⟩, Ho, ⟨%d0, H0⟩, ⟨%d1, H1⟩, ⟨%d2, H2⟩⟩
      iapply ((runFirst c (grid0.coords t) _ _ _ _ _ _ _ _ _ _ ((hcondFirst t).mpr h0) hc1 (iblk0 V c 0 t) (iblk0 V c 1 t)).2.2 _ Set.univ _)
      isplitl [H0]; · iexact H0
      isplitl [H1]; · iexact H1
      isplitl [H2]; · iexact H2
      isplitl [HM]; · iexists _; iexact HM
      isplitl [HL]; · iexists _; iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_first c _ _ _ _ _ _ _ _ _ _ _ _ _ _ _)
          isplitl [HL]
          · unfold owns; iexists _; isplitr
            swap; · iexact HL
            ipureintro; exact View.read_writes_of_cover _ _ _ _ _ (coverL_first c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · -- a last tile
      rw [show (dat0 V c).leavesExact 2 t = owns (c : Thread nD τ) (ms2 t) fullShare ((dat0 V c).after 2 t) from by
        unfold Dat.leavesExact; rw [liveAt2 t ((hcondLast t).mpr h1)], after0_2]
      rw [outsAt0_last V c t h0 h1]
      unfold oLast mLast lLast; (try dsimp only)
      rw [PhiS_castSucc V c t, PhiS_pos V c _ _ hz]
      iintro ⟨⟨⟨HM, HL, HR⟩, Hg⟩, Ho, ⟨%d0, H0⟩, ⟨%d1, H1⟩, ⟨%d2, H2⟩⟩
      iapply ((runLast c (grid0.coords t) _ _ _ _ _ _ _ _ _ _ (fun h => h0 ((hcondFirst t).mp h)) ((hcondLast t).mpr h1) (iblk0 V c 0 t) (iblk0 V c 1 t) _ _).2.2.2 Set.univ _)
      isplitl [H0]; · iexact H0
      isplitl [H1]; · iexact H1
      isplitl [H2]; · iexists _; iexact H2
      isplitl [HM]; · iexact HM
      isplitl [HL]; · iexact HL
      iintro ⟨H0, H1, ⟨%e2, H2⟩, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_last c _ _ _ _ _ _ _ _ _ _ _ _ _ _ _ _ _)
          isplitl [HL]
          · unfold owns; iexists _; isplitr
            swap; · iexact HL
            ipureintro; exact View.read_writes_of_cover _ _ _ _ _ (coverL_last c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_last c _ _ _ _ _ _ _ _ _ _ _ _ _ _ _ _ _)
    · -- a middle tile
      have hc1 : ¬condLast (grid0.coords t) := fun h => h1 ((hcondLast t).mp h)
      rw [Dat.leavesExact_idle (dat0 V c) 2 t (idleAt2 t hc1) (noFlush2 t hc1)]
      rw [outsAt0_mid V c t h0 h1]
      unfold mMid lMid; (try dsimp only)
      rw [PhiS_castSucc V c t, PhiS_pos V c _ _ hz]
      iintro ⟨⟨⟨HM, HL, HR⟩, Hg⟩, Ho, ⟨%d0, H0⟩, ⟨%d1, H1⟩, ⟨%d2, H2⟩⟩
      iapply ((runMid c (grid0.coords t) _ _ _ _ _ _ _ _ _ _ (fun h => h0 ((hcondFirst t).mp h)) hc1 (iblk0 V c 0 t) (iblk0 V c 1 t) _ _).2.2 _ Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL HR Hg]
      · isplitl [HM HL HR]
        · isplitl [HM]
          · unfold owns; iexists _; isplitr
            swap; · iexact HM
            ipureintro; exact View.read_writes_of_cover _ _ _ _ _ (coverM_mid c _ _ _ _ _ _ _ _ _ _ _ _ _ _ _ _ _)
          isplitl [HL]
          · unfold owns; iexists _; isplitr
            swap; · iexact HL
            ipureintro; exact View.read_writes_of_cover _ _ _ _ _ (coverL_mid c _ _ _ _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back, the scratch contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HM, HL, HR⟩, Hg⟩
  isplitl [HM HL HR]
  · isplitl [HM]; · iexists _; iexact HM
    isplitl [HL]; · iexists _; iexact HL
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 256 := N_0; omega)

end Cert.KernelIdeal.Lse

end
-- ==== Proof.Region1.lean ====
import proofs.«111248_j26912265077430_1_alg».proof.Proof.Gen.KernelIdeal.Launch
import proofs.«111248_j26912265077430_1_alg».proof.Proof.Gen.KernelIdeal.Skeleton
import proofs.«111248_j26912265077430_1_alg».proof.Proof.Gen.KernelIdeal.Points
import Idealize.ShloMosaic.Lib.Pipeline.FrameBody
import Idealize.ShloMosaic.Lib.Ring
import Idealize.ShloMosaic.Lib.Tactic

/-! # The second region: the row-wise scaled inner products

For the pipeline of the second region (grid of 8 points, four windows: three read, one written), at a
parameter `V` — the buffer contents when the region is entered —: each window's block at a point,
what the body leaves in the written window's buffer (the scaled lane sums of the products of the two
row blocks), the body's triple, the proof data and the body obligation at every point. -/

set_option maxRecDepth 16384

noncomputable section

namespace Cert.KernelIdeal.Diag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1 := Rect.unit (s := S1x1) ![0, 0] S1x1.size inb_S1x1_S1x1_0_0
abbrev r1_1 : Rect S1024x256 := Rect.unit (s := S1024x256) ![0, 0] S1024x256.size inb_S1024x256_S1024x256_0_0
abbrev r1_2 : Rect S1024x1 := Rect.unit (s := S1024x1) ![0, 0] S1024x1.size inb_S1024x1_S1024x1_0_0

/-! ## What the body leaves in the output window's buffer -/

/-- Window 3's staging buffer after the body, from the input windows' blocks: its one store as a piece. -/
def out1_3 (x0 x1 : Vec F S1024x256 .f32) (x2 : Vec F S1x1 .f32) : Vec F S1024x1 .f32 :=
  View.canon [⟨r1_2, k1_pay1 (View.ld x2 r1_0) (View.ld x0 r1_1) (View.ld x1 r1_1)⟩]

/-- Its store tiles the buffer, so it covers it. -/
theorem cover1_3 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

/-! ## The body's triple -/

set_option maxHeartbeats 1000000 in
/-- The body on whole staging memrefs, the inputs' at read contents `xW` and the output's at anything, runs to
    the continuation holding the inputs' as they were and the output's at `out1_3` of the inputs'. -/
theorem sound_kernel1 (c : Dev nD) (E : Set ℕ) (i : grid1.Coords) (arg1 : Memref sig .tc .vmem S1024x256 .f32) (harg1 : arg1.IsWhole) (arg2 : Memref sig .tc .vmem S1024x256 .f32) (harg2 : arg2.IsWhole) (arg3 : Memref sig .tc .vmem S1x1 .f32) (harg3 : arg3.IsWhole) (arg4 : Memref sig .tc .vmem S1024x1 .f32) (harg4 : arg4.IsWhole)
    (x0 : Vec F S1024x256 .f32) (x1 : Vec F S1024x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__diag_kernel i arg1 harg1 arg2 harg2 arg3 harg3 arg4 harg4) K := by
  simp only [cc1__diag_kernel_eq_skeleton]; unfold cc1__diag_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at
    point `t` each input's buffer at its block and the output's at `out1_3` of the input blocks; the invariant
    the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Diag

end
-- ==== Proof.KIRun.lean ====
/-
  The whole program's run, at a generic float instance: @main is five segments — host operations, the tiled
  logsumexp region, one host reshape, the row-dot region, and the closing host operations. Between two segments the
  core holds every unscoped buffer at contents that are folded from the launch memory: a host stretch applies its
  operations, a region replaces its output array by what its write-backs leave. Every weakly fair execution
  terminates with each unscoped buffer at the last of these contents.
-/
import proofs.«111248_j26912265077430_1_alg».proof.Proof.LseBody
import proofs.«111248_j26912265077430_1_alg».proof.Proof.Region1

set_option maxRecDepth 16384

noncomputable section

namespace Cert.KernelIdeal.Whole

open Cert.KernelIdeal Cert.KernelIdeal.Gen Cert.KernelIdeal.Lse Cert.KernelIdeal.Diag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (Q := Pipeline.ΦA spec0 c) (hout0 (V1 m ρ) c) ?_
    unfold Pipeline.ΦA
    show iprop(Pipeline.scopedRest spec0 c ∗ ∃ r, prngReg c r) ⊢ iprop((∃ r, prngReg c r) ∗ BI.emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Whole

end
-- ==== Proof.KIArgs.lean ====
/-
  The argument arrays end as launched: no host operation writes one, and a region only reads them (through an
  input window, or not at all), so the fold of buffer contents through @main, read at an argument, walks back to the
  launch memory.
-/
import proofs.«111248_j26912265077430_1_alg».proof.Proof.KIRun
import proofs.«111248_j26912265077430_1_alg».proof.Proof.Gen.KernelIdeal.Regions

set_option maxRecDepth 16384

noncomputable section

namespace Cert.KernelIdeal.Whole

open Cert.KernelIdeal Cert.KernelIdeal.Gen Cert.KernelIdeal.Lse Cert.KernelIdeal.Diag
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- An input array of the second region reaches that region as launched, -/
theorem V3_main_arg0 (c : Dev nD) : V3 m ρ c main_arg0 = m ((c : Thread nD τ).loc main_arg0) :=
  (W3_of m ρ c main_arg0 (by decide)).trans <| (W2_of_ne m ρ c main_arg0 (by decide)).trans <| (W1_of m ρ c main_arg0 (by decide)).trans rfl
theorem V3_main_arg1 (c : Dev nD) : V3 m ρ c main_arg1 = m ((c : Thread nD τ).loc main_arg1) :=
  (W3_of m ρ c main_arg1 (by decide)).trans <| (W2_of_ne m ρ c main_arg1 (by decide)).trans <| (W1_of m ρ c main_arg1 (by decide)).trans rfl

/-- and the end of @main. -/
theorem W5_main_arg0 (c : Dev nD) : W5 m ρ c (Proc.devRef .tc main_arg0) = m ((c : Thread nD τ).loc main_arg0) :=
  (W5_of m ρ c main_arg0 (by decide)).trans <|
    ((W4_arr m ρ c 0).trans (((dat1 (V3 m ρ) c).arrAt_in 0 rfl _).trans (A_eq1 (V3 m ρ) c 0))).trans (V3_main_arg0 m ρ c)
theorem W5_main_arg1 (c : Dev nD) : W5 m ρ c (Proc.devRef .tc main_arg1) = m ((c : Thread nD τ).loc main_arg1) :=
  (W5_of m ρ c main_arg1 (by decide)).trans <|
    ((W4_arr m ρ c 1).trans (((dat1 (V3 m ρ) c).arrAt_in 1 rfl _).trans (A_eq1 (V3 m ρ) c 1))).trans (V3_main_arg1 m ρ c)
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Whole

end
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«111248_j26912265077430_1_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  From the precondition to real entries.

  The precondition tests every entry x of the three inputs by  |x| < +∞  and answers the conjunction of all the
  tests.  A conjunction of one-bit answers that is 1 has every answer 1; an extended real whose absolute value is
  below +∞ is a real number.  So when the precondition holds the two arrays are arrays of real numbers and the
  scalar is a real number.
-/
import proofs.«111248_j26912265077430_1_alg».proof.Pre_finite_inputs
import proofs.«111248_j26912265077430_1_alg».proof.Proof.LibFiniteEntry
import proofs.«111248_j26912265077430_1_alg».proof.Proof.LibRealArith
import Idealize.ShloMosaic.Lib.ReduceAll
import Idealize.ShloMosaic.Lib.ValueIdx

noncomputable section

namespace Cert.Finite

open Idealize.ShloMosaic Cert.LibRealArith Cert.LibFiniteEntry

/-- The shape of rank 0 has one index. -/
instance : Subsingleton Cert.Pre_finite_inputs.S_.Idx := ⟨fun a b => funext fun d => d.elim0⟩

/-- An entry of an array whose every entry passes the test against the broadcast pattern of +∞ is real. -/
theorem isReal_of_test (x : EReal)
    (h : FloatOps.cmpf (F := Ideal) (φ := .f32) .olt (FloatOps.hostAbsf (F := Ideal) (φ := .f32) x)
      (FloatOps.ofBits (F := Ideal) .f32 0x7F800000#32) = 1#1) : IsReal x :=
  isReal_of_cmp x h

theorem reals_of_pre [Cert.Pre_finite_inputs.Facts]
    (x0 x1 : (⟨Cert.Pre_finite_inputs.S8192x256, .f32⟩ : BufTy).Contents (Elt Ideal))
    (x2 : (⟨Cert.Pre_finite_inputs.S_, .f32⟩ : BufTy).Contents (Elt Ideal))
    (h : Cert.Pre_finite_inputs.fn (F := Ideal) x0 x1 x2 = fun _ => 1#1) :
    ∃ (a b : Fin 8192 → Fin 256 → ℝ) (c : ℝ),
      (∀ p k, x0 (ValueIdx.ix2 p k) = ((a p k : ℝ) : EReal)) ∧
      (∀ p k, x1 (ValueIdx.ix2 p k) = ((b p k : ℝ) : EReal)) ∧
      (∀ i, x2 i = ((c : ℝ) : EReal)) := by
  have h0 := congrFun h ValueIdx.ix0
  dsimp only [Cert.Pre_finite_inputs.fn] at h0
  obtain ⟨h01, hC⟩ := IntOp.andi_eq_one.1 h0
  obtain ⟨hA, hB⟩ := IntOp.andi_eq_one.1 h01
  have eA : ∀ i, IsReal (x0 i) := fun i =>
    isReal_of_test (x0 i) (Host.reduce_andi_all _ _ _ _ _ hA i)
  have eB : ∀ i, IsReal (x1 i) := fun i =>
    isReal_of_test (x1 i) (Host.reduce_andi_all _ _ _ _ _ hB i)
  have eC : ∀ i, IsReal (x2 i) := fun i =>
    isReal_of_test (x2 i) (Host.reduce_andi_all _ _ _ _ _ hC i)
  have rA : ∀ (p : Fin 8192) (k : Fin 256), ∃ r : ℝ, x0 (ValueIdx.ix2 p k) = (r : EReal) :=
    fun p k => eA (ValueIdx.ix2 p k)
  have rB : ∀ (p : Fin 8192) (k : Fin 256), ∃ r : ℝ, x1 (ValueIdx.ix2 p k) = (r : EReal) :=
    fun p k => eB (ValueIdx.ix2 p k)
  choose a ha using rA
  choose b hb using rB
  obtain ⟨c, hc⟩ := eC ValueIdx.ix0
  refine ⟨a, b, c, ha, hb, fun i => ?_⟩
  rw [ValueIdx.eq_ix0 i]
  exact hc

end Cert.Finite

end
-- ==== Proof.Spec.lean ====
/-
  The mathematics of the claim, over the real numbers, with no program in sight.

  Two batches of 8192 rows of 256 reals are stacked into 16384 rows; row p and row q have the similarity
  (row p · row q) · s, where s = min (exp c) cap, except that the diagonal is replaced by one fixed number.
  The loss is the mean over the rows of  logsumexp (row of similarities) − (the similarity with the row's partner),
  the partner of row p being the same row of the other batch.

  One program computes each row's logsumexp in one pass (maximum, then the sum of the shifted exponentials); the other
  walks the row in 16 tiles of 1024 columns keeping a running maximum m and a running sum l rescaled by exp (m − m')
  whenever the maximum grows. `onl_fst` / `onl_snd` say that the walk ends at the row's maximum and at the sum of the
  exponentials shifted by it; `kerNum_eq_refNum` that the two programs' numerators (the sum over the rows of the
  per-row losses, arranged as each program arranges it) are one real number.
-/
import Mathlib.Analysis.SpecialFunctions.Log.Basic
import Mathlib.Algebra.BigOperators.Fin
import Mathlib.Order.Lattice
import Mathlib.Data.Finset.Lattice.Fold
import Mathlib.Tactic

noncomputable section

namespace Cert.Spec

open Finset

variable (a b : Fin 8192 → Fin 256 → ℝ) (c nb cap : ℝ)

/-- The stacked rows: the first batch, then the second. -/
def rows (p : Fin 16384) (k : Fin 256) : ℝ :=
  if h : p.val < 8192 then a ⟨p.val, h⟩ k else b ⟨p.val - 8192, by omega⟩ k

/-- The scale: the exponential of the learnt parameter, capped. -/
def scl : ℝ := min (Real.exp c) cap

/-- The similarity of rows p and q, the diagonal replaced by `nb`. -/
def logit (p q : Fin 16384) : ℝ :=
  if p = q then nb else (∑ k : Fin 256, rows a b p k * rows a b q k) * scl c cap

/-- The largest similarity of row p. -/
def rowMax (p : Fin 16384) : ℝ := Finset.univ.sup' Finset.univ_nonempty (logit a b c nb cap p)

/-- The sum over row p of the exponentials of the similarities shifted by the row's maximum. -/
def rowSumExp (p : Fin 16384) : ℝ := ∑ q : Fin 16384, Real.exp (logit a b c nb cap p q - rowMax a b c nb cap p)

/-- The row's logsumexp. -/
def lse (p : Fin 16384) : ℝ := rowMax a b c nb cap p + Real.log (rowSumExp a b c nb cap p)

/-- Row p's partner: the same row of the other batch. -/
def tgt (p : Fin 16384) : Fin 16384 :=
  if h : p.val < 8192 then ⟨p.val + 8192, by omega⟩ else ⟨p.val - 8192, by omega⟩

/-- Row r of the first batch, and of the second, among the stacked rows. -/
def lo (r : Fin 8192) : Fin 16384 := ⟨r.val, by omega⟩
def hi (r : Fin 8192) : Fin 16384 := ⟨r.val + 8192, by omega⟩

/-- The one-pass program's numerator: the sum over the rows of minus the log-probability of the partner. -/
def refNum : ℝ :=
  ∑ p : Fin 16384, -((logit a b c nb cap p (tgt p) - rowMax a b c nb cap p) - Real.log (rowSumExp a b c nb cap p))

/-- The similarity of row r of the first batch with row r of the second, computed directly. -/
def diag (r : Fin 8192) : ℝ := (∑ k : Fin 256, a r k * b r k) * scl c cap

/-- The tiled program's numerator: the two halves summed apart. -/
def kerNum : ℝ :=
  (∑ r : Fin 8192, (lse a b c nb cap (lo r) - diag a b c cap r))
    + (∑ r : Fin 8192, (lse a b c nb cap (hi r) - diag a b c cap r))

/-- Column q of tile j. -/
def col (j : Fin 16) (q : Fin 1024) : Fin 16384 := ⟨1024 * j.val + q.val, by omega⟩

/-- The largest similarity of row p within tile j. -/
def tileMax (p : Fin 16384) (j : Fin 16) : ℝ :=
  Finset.univ.sup' Finset.univ_nonempty (fun q : Fin 1024 => logit a b c nb cap p (col j q))

/-- The running maximum and the running rescaled sum of row p after tiles 0 … j. -/
def onl (p : Fin 16384) : ℕ → ℝ × ℝ
  | 0 => (tileMax a b c nb cap p 0,
          ∑ q : Fin 1024, Real.exp (logit a b c nb cap p (col 0 q) - tileMax a b c nb cap p 0))
  | j + 1 =>
    let m := (onl p j).1
    let l := (onl p j).2
    let jj : Fin 16 := ⟨(j + 1) % 16, Nat.mod_lt _ (by norm_num)⟩
    let m' := max m (tileMax a b c nb cap p jj)
    (m', Real.exp (m - m') * l + ∑ q : Fin 1024, Real.exp (logit a b c nb cap p (col jj q) - m'))

theorem onl_zero (p : Fin 16384) : onl a b c nb cap p 0 = (tileMax a b c nb cap p 0,
    ∑ q : Fin 1024, Real.exp (logit a b c nb cap p (col 0 q) - tileMax a b c nb cap p 0)) := rfl

theorem onl_succ (p : Fin 16384) (j : ℕ) : onl a b c nb cap p (j + 1) =
    (max (onl a b c nb cap p j).1 (tileMax a b c nb cap p ⟨(j + 1) % 16, Nat.mod_lt _ (by norm_num)⟩),
      Real.exp ((onl a b c nb cap p j).1 - max (onl a b c nb cap p j).1 (tileMax a b c nb cap p ⟨(j + 1) % 16, Nat.mod_lt _ (by norm_num)⟩)) * (onl a b c nb cap p j).2
        + ∑ q : Fin 1024, Real.exp (logit a b c nb cap p (col ⟨(j + 1) % 16, Nat.mod_lt _ (by norm_num)⟩ q)
            - max (onl a b c nb cap p j).1 (tileMax a b c nb cap p ⟨(j + 1) % 16, Nat.mod_lt _ (by norm_num)⟩))) := rfl

end Cert.Spec

end
-- ==== Proof.SpecLaws.lean ====
/-
  The laws of the mathematics over the real numbers.

  The 16 tiles of 1024 columns exhaust the 16384 columns, so the running maximum of the tiled walk ends at the row's
  maximum; and since  exp (m − m') · Σ exp (x − m) = Σ exp (x − m'),  the running rescaled sum after tiles 0 … j is
  the sum over their columns of the exponentials shifted by the running maximum, hence ends at the row's sum.  The
  two numerators agree row by row:  −((L − M) − log S) = (M + log S) − L,  the partner of row r of one batch is row r
  of the other, and the similarity of the two is the dot product of the two batches' rows times the scale.
-/
import proofs.«111248_j26912265077430_1_alg».proof.Proof.Spec

noncomputable section

namespace Cert.Spec

open Finset

variable (a b : Fin 8192 → Fin 256 → ℝ) (c nb cap : ℝ)

/-! ### Tiles and columns -/

/-- Tile number `i` modulo 16. -/
def tl (i : ℕ) : Fin 16 := ⟨i % 16, Nat.mod_lt _ (by norm_num)⟩

theorem tl_zero : tl 0 = 0 := rfl

theorem tl_val (i : Fin 16) : tl i.val = i := Fin.ext (Nat.mod_eq_of_lt i.isLt)

/-- Every column lies in the tile numbered by its quotient by 1024, at the place of its remainder. -/
theorem col_div_mod (q : Fin 16384) :
    col (tl (q.val / 1024)) ⟨q.val % 1024, Nat.mod_lt _ (by norm_num)⟩ = q := by
  apply Fin.ext
  simp only [col, tl]
  omega

/-- The pairs (tile, place in the tile) are the columns. -/
def tileEquiv : Fin 16 × Fin 1024 ≃ Fin 16384 where
  toFun x := col x.1 x.2
  invFun q := (⟨q.val / 1024, by omega⟩, ⟨q.val % 1024, Nat.mod_lt _ (by norm_num)⟩)
  left_inv x := by
    rcases x with ⟨i, q⟩
    refine Prod.ext (Fin.ext ?_) (Fin.ext ?_)
    · show (1024 * i.val + q.val) / 1024 = i.val
      omega
    · show (1024 * i.val + q.val) % 1024 = q.val
      omega
  right_inv q := by
    apply Fin.ext
    show 1024 * (q.val / 1024) + q.val % 1024 = q.val
    omega

/-- A sum over the columns of the 16 tiles is the sum over all the columns. -/
theorem sum_tiles (G : Fin 16384 → ℝ) :
    ∑ i ∈ Finset.range 16, ∑ q : Fin 1024, G (col (tl i) q) = ∑ q : Fin 16384, G q := by
  rw [Finset.sum_range (fun i => ∑ q : Fin 1024, G (col (tl i) q))]
  rw [← Fintype.sum_prod_type' (fun (i : Fin 16) (q : Fin 1024) => G (col (tl i.val) q))]
  refine Fintype.sum_equiv tileEquiv _ _ ?_
  rintro ⟨i, q⟩
  show G (col (tl i.val) q) = G (col i q)
  rw [tl_val]

/-! ### The running maximum -/

theorem le_tileMax (p : Fin 16384) (j : Fin 16) (q : Fin 1024) :
    logit a b c nb cap p (col j q) ≤ tileMax a b c nb cap p j :=
  Finset.le_sup' (fun q : Fin 1024 => logit a b c nb cap p (col j q)) (Finset.mem_univ q)

theorem tileMax_le_rowMax (p : Fin 16384) (j : Fin 16) :
    tileMax a b c nb cap p j ≤ rowMax a b c nb cap p :=
  Finset.sup'_le _ _ (fun q _ => Finset.le_sup' (logit a b c nb cap p) (Finset.mem_univ (col j q)))

theorem onl_fst_le (p : Fin 16384) (j : ℕ) : (onl a b c nb cap p j).1 ≤ rowMax a b c nb cap p := by
  induction j with
  | zero =>
    rw [onl_zero]
    exact tileMax_le_rowMax a b c nb cap p 0
  | succ j ih =>
    rw [onl_succ]
    exact max_le ih (tileMax_le_rowMax a b c nb cap p _)

theorem le_onl_fst (p : Fin 16384) (j i : ℕ) (hi : i ≤ j) (q : Fin 1024) :
    logit a b c nb cap p (col (tl i) q) ≤ (onl a b c nb cap p j).1 := by
  induction j with
  | zero =>
    obtain rfl : i = 0 := by omega
    rw [onl_zero, tl_zero]
    exact le_tileMax a b c nb cap p 0 q
  | succ j ih =>
    rw [onl_succ]
    rcases Nat.lt_or_ge i (j + 1) with h | h
    · exact le_trans (ih (by omega)) (le_max_left _ _)
    · obtain rfl : i = j + 1 := by omega
      exact le_trans (le_tileMax a b c nb cap p (tl (j + 1)) q) (le_max_right _ _)

theorem onl_fst (p : Fin 16384) : (onl a b c nb cap p 15).1 = rowMax a b c nb cap p := by
  apply le_antisymm (onl_fst_le a b c nb cap p 15)
  apply Finset.sup'_le
  intro q _
  have h := le_onl_fst a b c nb cap p 15 (q.val / 1024) (by omega)
    ⟨q.val % 1024, Nat.mod_lt _ (by norm_num)⟩
  rwa [col_div_mod] at h

/-! ### The running sum -/

theorem onl_snd_eq (p : Fin 16384) (j : ℕ) :
    (onl a b c nb cap p j).2 = ∑ i ∈ Finset.range (j + 1), ∑ q : Fin 1024,
      Real.exp (logit a b c nb cap p (col (tl i) q) - (onl a b c nb cap p j).1) := by
  induction j with
  | zero =>
    rw [Finset.sum_range_one, onl_zero, tl_zero]
  | succ j ih =>
    rw [Finset.sum_range_succ, onl_succ]
    dsimp only
    rw [ih, Finset.mul_sum]
    congr 1
    apply Finset.sum_congr rfl
    intro i _
    rw [Finset.mul_sum]
    apply Finset.sum_congr rfl
    intro q _
    rw [← Real.exp_add]
    congr 1
    ring

theorem onl_snd (p : Fin 16384) : (onl a b c nb cap p 15).2 = rowSumExp a b c nb cap p := by
  rw [onl_snd_eq, onl_fst]
  exact sum_tiles (fun q => Real.exp (logit a b c nb cap p q - rowMax a b c nb cap p))

theorem onl_snd_pos (p : Fin 16384) (j : ℕ) : 0 < (onl a b c nb cap p j).2 := by
  induction j with
  | zero =>
    rw [onl_zero]
    dsimp only
    exact Finset.sum_pos (fun q _ => Real.exp_pos _) Finset.univ_nonempty
  | succ j ih =>
    rw [onl_succ]
    exact add_pos (mul_pos (Real.exp_pos _) ih)
      (Finset.sum_pos (fun q _ => Real.exp_pos _) Finset.univ_nonempty)

theorem rowSumExp_pos (p : Fin 16384) : 0 < rowSumExp a b c nb cap p := by
  unfold rowSumExp
  exact Finset.sum_pos (fun q _ => Real.exp_pos _) Finset.univ_nonempty

/-! ### The two numerators -/

theorem rows_lo (r : Fin 8192) (k : Fin 256) : rows a b (lo r) k = a r k := by
  have h : (lo r).val < 8192 := r.isLt
  rw [rows, dif_pos h]
  rfl

theorem rows_hi (r : Fin 8192) (k : Fin 256) : rows a b (hi r) k = b r k := by
  have h : ¬ (hi r).val < 8192 := by
    show ¬ r.val + 8192 < 8192
    omega
  rw [rows, dif_neg h]
  refine congrArg (fun x => b x k) (Fin.ext ?_)
  show r.val + 8192 - 8192 = r.val
  omega

theorem tgt_lo (r : Fin 8192) : tgt (lo r) = hi r := by
  have h : (lo r).val < 8192 := r.isLt
  rw [tgt, dif_pos h]
  rfl

theorem tgt_hi (r : Fin 8192) : tgt (hi r) = lo r := by
  have h : ¬ (hi r).val < 8192 := by
    show ¬ r.val + 8192 < 8192
    omega
  rw [tgt, dif_neg h]
  apply Fin.ext
  show r.val + 8192 - 8192 = r.val
  omega

theorem lo_ne_hi (r : Fin 8192) : lo r ≠ hi r := by
  intro h
  have h' : r.val = r.val + 8192 := congrArg Fin.val h
  omega

theorem logit_lo_hi (r : Fin 8192) : logit a b c nb cap (lo r) (hi r) = diag a b c cap r := by
  rw [logit, if_neg (lo_ne_hi r), diag]
  congr 1
  apply Finset.sum_congr rfl
  intro k _
  rw [rows_lo, rows_hi]

theorem logit_hi_lo (r : Fin 8192) : logit a b c nb cap (hi r) (lo r) = diag a b c cap r := by
  rw [logit, if_neg (lo_ne_hi r).symm, diag]
  congr 1
  apply Finset.sum_congr rfl
  intro k _
  rw [rows_lo, rows_hi, mul_comm]

/-- A sum over the stacked rows is the sum over the first batch plus the sum over the second. -/
theorem sum_lo_hi (F : Fin 16384 → ℝ) :
    ∑ p : Fin 16384, F p = (∑ r : Fin 8192, F (lo r)) + ∑ r : Fin 8192, F (hi r) := by
  have h := Fin.sum_univ_add (a := 8192) (b := 8192) (fun p : Fin (8192 + 8192) => F p)
  refine h.trans (congrArg₂ (· + ·) ?_ ?_)
  · exact Finset.sum_congr rfl (fun r _ => congrArg F (Fin.ext rfl))
  · refine Finset.sum_congr rfl (fun r _ => congrArg F (Fin.ext ?_))
    show 8192 + r.val = r.val + 8192
    omega

theorem kerNum_eq_refNum : kerNum a b c nb cap = refNum a b c nb cap := by
  rw [refNum, sum_lo_hi, kerNum]
  congr 1
  · apply Finset.sum_congr rfl
    intro r _
    rw [tgt_lo, logit_lo_hi, lse]
    ring
  · apply Finset.sum_congr rfl
    intro r _
    rw [tgt_hi, logit_hi_lo, lse]
    ring

end Cert.Spec

end
-- ==== Proof.Consts.lean ====
/-
  The float constants the two programs spell, as the extended reals their binary32 patterns denote:
  −10⁹ (the number written on the diagonal), 100 (the cap of the scale), −∞ (where a running maximum starts)
  and 0 (where a running sum starts).
-/
import Idealize.ShloMosaic.PureOps.Ideal

noncomputable section

namespace Cert.Consts

open Idealize.ShloMosaic

/-- The number written on the diagonal of the similarity matrix. -/
def negBig : ℝ := -1000000000
/-- The cap of the scale. -/
def cap : ℝ := 100

theorem ofBits_negBig : Ideal.ofBits .f32 0xCE6E6B28#32 = ((negBig : ℝ) : EReal) := by
  simp [Ideal.ofBits, Ideal.ieee, negBig, -EReal.coe_mul]; norm_num

theorem ofBits_cap : Ideal.ofBits .f32 0x42C80000#32 = ((cap : ℝ) : EReal) := by
  simp [Ideal.ofBits, Ideal.ieee, cap, -EReal.coe_mul]; norm_num

theorem ofBits_negInf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

end Cert.Consts

end
-- ==== Proof.Region1Value.lean ====
import proofs.«111248_j26912265077430_1_alg».proof.Proof.Region1
import proofs.«111248_j26912265077430_1_alg».proof.Proof.LibRealArith
import Idealize.ShloMosaic.Lib.Pipeline.Value
import Idealize.ShloMosaic.Lib.ValueIdx
import Idealize.ShloMosaic.Lib.IdealHost
import Idealize.ShloMosaic.PureOps.Ideal.Laws

/-! # What the second region leaves in its output column, row by row

At the extended reals. The body's arithmetic at a row of a block is the row's inner product times the scale (the
lane sum read as a sum over the 256 lanes, the cast from a flat array of 1024 to a column, the scalar broadcast down
the column). Point `t` of the grid of 8 reads rows `1024 t … 1024 t + 1023` of the two row arrays and the one entry
of the scale, and writes back the same rows of the column; row `p` of the column is in the block of point
`p / 1024`, so the blocks cover the column and it ends holding, at every row, that row's inner product times the scale. -/

set_option maxRecDepth 16384

noncomputable section

namespace Cert.KernelIdeal.Diag

open Cert.KernelIdeal Cert.KernelIdeal.Gen
open Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl

/-- The lane sum of a block of 1024 rows of 256, at row `q`: the sum over the row. -/
theorem laneSum_apply (v : FVec Ideal S1024x256 .f32) (hφ : FKind.Formats .f32)
    (hacc : (0x00000000#32 : BitVec 32) = FKind.add.neutral .f32 hφ) (q : Fin 1024) :
    multiReduction .add [1] S1024 v 0x00000000#32 reduces_S1024x256_S1024 hφ hacc (ix1 q)
      = ∑ k : Fin 256, v (ix2 q k) := by
  refine (Ideal.multiReduction_add_single v 0x00000000#32 reduces_S1024x256_S1024 hφ hacc (ix1 q)).trans ?_
  show (∑ k : Fin 256, v (reduces_S1024x256_S1024.lift (ix1 q) k)) = _
  refine Finset.sum_congr rfl fun k _ => congrArg v (funext fun a => ?_)
  match a with
  | ⟨0, _⟩ => exact Fin.ext rfl
  | ⟨1, _⟩ => exact Fin.ext rfl

/-- The body's arithmetic at row `q` of the block: the row's inner product, times the scale. -/
theorem pay_apply (x0 x1 : Vec Ideal S1024x256 .f32) (x2 : Vec Ideal S1x1 .f32) (q : Fin 1024) (z : Fin 1) :
    k1_pay1 (F := Ideal) x2 x0 x1 (ix2 q z) = (∑ k : Fin 256, x0 (ix2 q k) * x1 (ix2 q k)) * x2 (ix2 0 0) := by
  unfold k1_pay1
  refine (mulf_apply _ _ _).trans ?_
  refine congrArg₂ (· * ·) ?_ ?_
  · refine (shapeCast_apply _ shapeCasts_S1024_S1024x1 (ix2 q z) (ix1 q) ?_).trans ?_
    · rw [Shape.rowMajor_val_two, Shape.rowMajor_val_one]
      show q.val = q.val * 1 + z.val
      omega
    · exact laneSum_apply _ _ _ q
  · show x2 _ = x2 _
    exact congrArg x2 (funext fun a => match a with | ⟨0, _⟩ => rfl | ⟨1, _⟩ => rfl)

/-! ## From the blocks to the array -/

/-- The printed index maps over the grid: point `t` takes row block `t` of each of the two row arrays, the one
    block of the scale, and writes row block `t` of the result. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The first window's block at point `t` is rows `1024 t … 1024 t + 1023` of the first row array. -/
theorem iblk1_0_apply (c : Dev nD) (t : Fin cfg1.N) (y : S1024x256.Idx) (i : S8192x256.Idx)
    (h0 : (i 0).val = 1024 * t.val + (y 0).val) (h1 : (i 1).val = (y 1).val) :
    (iblk1 V c 0 t : Vec Ideal S1024x256 .f32) y = (V c main_arg0 : S8192x256.Idx → EReal) i := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 1024 + 1 * (y 0).val = (i 0).val; rw [e0, h0]; omega
  | ⟨1, _⟩ => show win1_0.index t 1 * 256 + 1 * (y 1).val = (i 1).val; rw [e1, h1]; omega

/-- The second window's block at point `t` is the same rows of the second row array. -/
theorem iblk1_1_apply (c : Dev nD) (t : Fin cfg1.N) (y : S1024x256.Idx) (i : S8192x256.Idx)
    (h0 : (i 0).val = 1024 * t.val + (y 0).val) (h1 : (i 1).val = (y 1).val) :
    (iblk1 V c 1 t : Vec Ideal S1024x256 .f32) y = (V c main_arg1 : S8192x256.Idx → EReal) i := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t 0 * 1024 + 1 * (y 0).val = (i 0).val; rw [e0, h0]; omega
  | ⟨1, _⟩ => show win1_1.index t 1 * 256 + 1 * (y 1).val = (i 1).val; rw [e1, h1]; omega

/-- The third window's block at every point is the scale's one entry. -/
theorem iblk1_2_apply (c : Dev nD) (t : Fin cfg1.N) (y : S1x1.Idx) :
    (iblk1 V c 2 t : Vec Ideal S1x1 .f32) y = (V c main_v2 : S1x1.Idx → EReal) (ix2 0 0) := by
  obtain ⟨-, -, -, -, e0, e1, -⟩ := idx_facts1 t
  unfold iblk1
  rw [View.read_apply]
  show V c main_v2 _ = V c main_v2 _
  congr 1
  funext a
  apply Fin.ext
  match a with
  | ⟨0, _⟩ => show win1_2.index t 0 * 1 + 1 * (y 0).val = 0; rw [e0]; have h : (y 0).val < 1 := idx2_lt0 y; omega
  | ⟨1, _⟩ => show win1_2.index t 1 * 1 + 1 * (y 1).val = 0; rw [e1]; have h : (y 1).val < 1 := idx2_lt1 y; omega

/-- Row `p`'s value from two arrays of 8192 rows of 256 and a scale: the inner product of the two rows `p`, times the scale. -/
def rowDot (a0 a1 : S8192x256.Idx → EReal) (s : S1x1.Idx → EReal) (p : Fin 8192) : EReal :=
  (∑ k : Fin 256, a0 (ix2 p k) * a1 (ix2 p k)) * s (ix2 0 0)

/-- The column the region leaves: row by row, the rows' values of the two row arrays and the scale as the region finds them. -/
def diagArr (c : Dev nD) : S8192x1.Idx → EReal :=
  fun i => rowDot (V c main_arg0) (V c main_arg1) (V c main_v2) ⟨(i 0).val, idx2_lt0 i⟩

/-- A block of 1024 rows that agrees, row by row, with rows `1024 t …` of a column is what point `t`'s block of
    the column reads. -/
theorem cut3_eq (t : Fin cfg1.N) (X : Vec Ideal S1024x1 .f32) (G : S8192x1.Idx → EReal)
    (h : ∀ (q : Fin 1024) (z : Fin 1) (i : S8192x1.Idx), (i 0).val = 1024 * t.val + q.val → X (ix2 q z) = G i) :
    (cfg1.win 3).cut (grid1.coords t) X = ((cfg1.win 3).blk t).view.read (Elt Ideal) G := by
  obtain ⟨-, -, -, -, -, -, e0, e1⟩ := idx_facts1 t
  funext j
  show X j = G (((cfg1.win 3).blk t).view.emb j)
  refine (congrArg X (eq_ix2 (n0 := 1024) (n1 := 1) j)).trans (h _ _ _ ?_)
  show win1_3.index t 0 * 1024 + 1 * (j 0).val = 1024 * t.val + (j 0).val
  rw [e0]; omega

/-- What point `t` writes back is block `t` of the column of the rows' values. -/
theorem flushed3_eq (c : Dev nD) (t : Fin cfg1.N) :
    (dat1 V c).flushed 3 t = ((cfg1.win 3).blk t).view.read (Elt Ideal) (diagArr V c) := by
  show (cfg1.win 3).cut (grid1.coords t) ((dat1 V c).after 3 t) = _
  rw [after1_3]
  unfold out1_3
  rw [View.canon_unit_zero hz2]
  simp only [View.ld_unit_zero (S := S1024x256) hz2, View.ld_unit_zero (S := S1x1) hz2]
  refine cut3_eq t _ _ fun q z i hi => ?_
  refine (pay_apply (iblk1 V c 0 t) (iblk1 V c 1 t) (iblk1 V c 2 t) q z).trans ?_
  unfold diagArr rowDot
  refine congrArg₂ (· * ·) (Finset.sum_congr rfl fun k _ => congrArg₂ (· * ·) ?_ ?_) ?_
  · exact iblk1_0_apply V c t (ix2 q k) (ix2 ⟨(i 0).val, idx2_lt0 i⟩ k) hi rfl
  · exact iblk1_1_apply V c t (ix2 q k) (ix2 ⟨(i 0).val, idx2_lt0 i⟩ k) hi rfl
  · exact iblk1_2_apply V c t (ix2 0 0)

/-- An index of the column is in point `t`'s block iff each coordinate is in the block's range on its axis. -/
theorem mem_blk3 (t : Fin cfg1.N) (i : S8192x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v7).slice (win1_3.rect t)).set ↔ _
  rw [View.set_slice_whole, Rect.mem_set_unit]
  exact Iff.rfl

/-- Row `r` of the column is in the block of point `r / 1024`, which is written back. -/
theorem cover3 (i : S8192x1.Idx) :
    ∃ t : Fin cfg1.N, (cfg1.win 3).flush t = true ∧ i ∈ ((cfg1.win 3).blk t).view.set := by
  have h0 : (i 0).val < 8192 := idx2_lt0 i
  have h1 : (i 1).val < 1 := idx2_lt1 i
  have hN : cfg1.N = 8 := N_1
  have ht : (i 0).val / 1024 < cfg1.N := by rw [hN]; omega
  obtain ⟨-, -, -, -, -, -, e0, e1⟩ := idx_facts1 ⟨(i 0).val / 1024, ht⟩
  refine ⟨⟨(i 0).val / 1024, ht⟩, flush1_3 _, ?_⟩
  rw [mem_blk3]
  intro a
  match a with
  | ⟨0, _⟩ =>
    show win1_3.index ⟨(i 0).val / 1024, ht⟩ 0 * 1024 ≤ (i 0).val ∧ (i 0).val < win1_3.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win1_3.index ⟨(i 0).val / 1024, ht⟩ 1 * 1 ≤ (i 1).val ∧ (i 1).val < win1_3.index ⟨(i 0).val / 1024, ht⟩ 1 * 1 + 1
    rw [e1]; omega

/-- The column after the region is the column of the rows' values. -/
theorem final3 (c : Dev nD) : (dat1 V c).arrAt 3 cfg1.N = diagArr V c :=
  (dat1 V c).arrAt_eq_of_cover 3 (diagArr V c) (fun t _ => flushed3_eq V c t) cover3

/-- WHAT THE REGION LEAVES at row `p` of its output column: the inner product of row `p` of the two row arrays,
    times the scale's one entry. -/
theorem arrAt1_3 (V : (c : Dev nD) → (b : Ref sig .tc) → Buf (Elt Ideal) ((c : Thread nD τ).loc b)) (c : Dev nD) (p : Fin 8192) :
    (dat1 (F := Ideal) V c).arrAt 3 cfg1.N (ValueIdx.ix2 p 0)
      = (HMul.hMul : EReal → EReal → EReal)
          (∑ k : Fin 256, (HMul.hMul : EReal → EReal → EReal) (V c main_arg0 (ValueIdx.ix2 p k)) (V c main_arg1 (ValueIdx.ix2 p k)))
          (V c main_v2 (ValueIdx.ix2 0 0)) :=
  (congrFun (final3 V c) (ix2 p 0)).trans rfl

/-- The same, with the row's value named. -/
theorem arrAt1_3_rowDot (V : (c : Dev nD) → (b : Ref sig .tc) → Buf (Elt Ideal) ((c : Thread nD τ).loc b)) (c : Dev nD) (p : Fin 8192) :
    (dat1 (F := Ideal) V c).arrAt 3 cfg1.N (ValueIdx.ix2 p 0) = rowDot (V c main_arg0) (V c main_arg1) (V c main_v2) p :=
  (congrFun (final3 V c) (ix2 p 0)).trans rfl

end Cert.KernelIdeal.Diag

end
-- ==== Proof.Tail.lean ====
import proofs.«111248_j26912265077430_1_alg».proof.Proof.Gen.KernelIdeal.Launch
import proofs.«111248_j26912265077430_1_alg».proof.Proof.Spec
import proofs.«111248_j26912265077430_1_alg».proof.Proof.Consts
import proofs.«111248_j26912265077430_1_alg».proof.Proof.LibRealArith
import Idealize.ShloMosaic.Lib.StableHlo.Run
import Idealize.ShloMosaic.Lib.IdealHost
import Idealize.ShloMosaic.Lib.ValueIdx
import Idealize.ShloMosaic.Lib.Pipeline.Value

/-! # The host operations after the regions, as pure functions

After the first region its column of 16384 row values is flattened; after the second, its column of 8192 row
values is flattened too, the first array is cut in its two halves, the second is subtracted from each half,
each difference is summed from zero, the two sums are added and the result is divided by 16384. -/

noncomputable section

namespace Cert.KernelIdeal.Tail

open Cert.KernelIdeal Cert.KernelIdeal.Gen
open Idealize.ShloMosaic Idealize.ShloMosaic.TcCoe Idealize.ShloMosaic.StableHlo

section Generic
variable {F : FTy → Type} [FloatOps F]

/-- The column of 16384 values read as a flat array of 16384. -/
def flat (v5 : (⟨S16384x1, .f32⟩ : BufTy).Contents (Elt F)) : (⟨S16384, .f32⟩ : BufTy).Contents (Elt F) :=
  shapeCast S16384 v5 shapeCasts_S16384x1_S16384

/-- From the flat array `v6` of 16384 values and the column `v7` of 8192 values: the two halves of `v6`, each less
    the flattened `v7`, each summed from zero; the two sums added; the result divided by 16384. -/
def tailOf (v6 : (⟨S16384, .f32⟩ : BufTy).Contents (Elt F)) (v7 : (⟨S8192x1, .f32⟩ : BufTy).Contents (Elt F)) :
    (⟨S_, .f32⟩ : BufTy).Contents (Elt F) :=
  Host.divf (F := F)
    (addf (F := F)
      (Host.reduceAdd (F := F)
        (subf (F := F) (extractStridedSlice S8192 ![0] v6 slices_S16384_S8192_0) (shapeCast S8192 v7 shapeCasts_S8192x1_S8192))
        (constant (F := F) S_ .f32 0x00000000#32) reducesTo_S8192_S_d0 h_S_)
      (Host.reduceAdd (F := F)
        (subf (F := F) (extractStridedSlice S8192 ![8192] v6 slices_S16384_S8192_8192) (shapeCast S8192 v7 shapeCasts_S8192x1_S8192))
        (constant (F := F) S_ .f32 0x00000000#32) reducesTo_S8192_S_d0 h_S_))
    (constant (F := F) S_ .f32 0x46800000#32)

/-- What the one operation between the regions leaves in its result buffer. -/
theorem flat_after (W : Valuation τ sig (Elt F)) :
    StableHlo.after hostOps1 W (Proc.devRef .tc main_v6) = flat (W (Proc.devRef .tc main_v5)) := by
  after_results
  rfl

/-- What the twelve operations after the second region leave in the last result buffer. -/
theorem tail_after (W : Valuation τ sig (Elt F)) :
    StableHlo.after hostOps2 W (Proc.devRef .tc main_v16) = tailOf (W (Proc.devRef .tc main_v6)) (W (Proc.devRef .tc main_v7)) := by
  after_results
  rfl

/-- The flat array at position `p` is the column at row `p`. -/
theorem flat_apply (v5 : (⟨S16384x1, .f32⟩ : BufTy).Contents (Elt F)) (p : Fin 16384) :
    flat v5 (ValueIdx.ix1 p) = v5 (ValueIdx.ix2 p (0 : Fin 1)) := by
  unfold flat
  refine shapeCast_apply v5 shapeCasts_S16384x1_S16384 (ValueIdx.ix1 p) (ValueIdx.ix2 p (0 : Fin 1)) ?_
  rw [Shape.rowMajor_val_two, Shape.rowMajor_val_one]
  show p.val * 1 + 0 = p.val
  omega

/-- The flattened column of 8192 at position `r` is the column at row `r`. -/
theorem flat8192_apply (v7 : (⟨S8192x1, .f32⟩ : BufTy).Contents (Elt F)) (r : Fin 8192) :
    shapeCast S8192 v7 shapeCasts_S8192x1_S8192 (ValueIdx.ix1 r) = v7 (ValueIdx.ix2 r (0 : Fin 1)) := by
  refine shapeCast_apply v7 shapeCasts_S8192x1_S8192 (ValueIdx.ix1 r) (ValueIdx.ix2 r (0 : Fin 1)) ?_
  rw [Shape.rowMajor_val_two, Shape.rowMajor_val_one]
  show r.val * 1 + 0 = r.val
  omega

/-- The first half of the flat array at position `r` is the array at `r`. -/
theorem lowHalf_apply (v6 : (⟨S16384, .f32⟩ : BufTy).Contents (Elt F)) (r : Fin 8192) :
    extractStridedSlice S8192 ![0] v6 slices_S16384_S8192_0 (ValueIdx.ix1 r) = v6 (ValueIdx.ix1 (Cert.Spec.lo r)) :=
  extractStridedSlice_apply ![0] v6 slices_S16384_S8192_0 (ValueIdx.ix1 r) (ValueIdx.ix1 (Cert.Spec.lo r)) fun a =>
    match a with | ⟨0, _⟩ => by show r.val = 0 + r.val; omega

/-- The second half of the flat array at position `r` is the array at `r + 8192`. -/
theorem highHalf_apply (v6 : (⟨S16384, .f32⟩ : BufTy).Contents (Elt F)) (r : Fin 8192) :
    extractStridedSlice S8192 ![8192] v6 slices_S16384_S8192_8192 (ValueIdx.ix1 r) = v6 (ValueIdx.ix1 (Cert.Spec.hi r)) :=
  extractStridedSlice_apply ![8192] v6 slices_S16384_S8192_8192 (ValueIdx.ix1 r) (ValueIdx.ix1 (Cert.Spec.hi r)) fun a =>
    match a with | ⟨0, _⟩ => by show r.val + 8192 = 8192 + r.val; omega

end Generic

/-! ## At the extended reals -/

/-- A sum over the indices of a one-axis array is the sum over its coordinate. -/
theorem sum_idx1 {M : Type*} [AddCommMonoid M] {n : Nat} (f : (⟨1, ![n]⟩ : Shape).Idx → M) :
    ∑ i, f i = ∑ a : Fin n, f (ValueIdx.ix1 a) :=
  Fintype.sum_equiv ⟨fun i => i 0, fun a => ValueIdx.ix1 a, fun i => (ValueIdx.eq_ix1 i).symm, fun _ => rfl⟩ _ _
    fun i => congrArg f (ValueIdx.eq_ix1 i)

/-- A sum from zero over an array of 8192 real entries is the real sum. -/
theorem hostSum_coe (x : FVec Ideal S8192 .f32) (g : Fin 8192 → ℝ) (hx : ∀ r : Fin 8192, x (ValueIdx.ix1 r) = ((g r : ℝ) : EReal))
    (j : S_.Idx) :
    Host.reduceAdd (F := Ideal) x (constant (F := Ideal) S_ .f32 0x00000000#32) reducesTo_S8192_S_d0 h_S_ j
      = ((∑ r : Fin 8192, g r : ℝ) : EReal) := by
  refine (Ideal.hostReduceAdd_total reducesTo_S8192_S_d0 (fun b => b.elim0) x (Ideal.ofBits .f32 0x00000000#32) j).trans ?_
  rw [Cert.Consts.ofBits_zero, zero_add, ← Cert.LibRealArith.sum_coe, sum_idx1]
  exact Finset.sum_congr rfl fun r _ => hx r

/-- THE TAIL on real entries: with the first region's column at the reals `lseR` and the second's at `dR`, the result is
    the quotient by 16384 of the two half sums of the differences. -/
theorem tail_value (v5 : (⟨S16384x1, .f32⟩ : BufTy).Contents (Elt Ideal)) (v7 : (⟨S8192x1, .f32⟩ : BufTy).Contents (Elt Ideal))
    (lseR : Fin 16384 → ℝ) (dR : Fin 8192 → ℝ)
    (hl : ∀ p, v5 (ValueIdx.ix2 p 0) = ((lseR p : ℝ) : EReal)) (hd : ∀ r, v7 (ValueIdx.ix2 r 0) = ((dR r : ℝ) : EReal)) :
    tailOf (F := Ideal) (flat (F := Ideal) v5) v7
      = Host.divf (F := Ideal) (fun _ => (((∑ r : Fin 8192, (lseR (Cert.Spec.lo r) - dR r)) + (∑ r : Fin 8192, (lseR (Cert.Spec.hi r) - dR r)) : ℝ) : EReal))
          (constant (F := Ideal) S_ .f32 0x46800000#32) := by
  unfold tailOf
  refine congrArg (fun x => Host.divf (F := Ideal) x (constant (F := Ideal) S_ .f32 0x46800000#32)) ?_
  funext j
  refine (ValueIdx.addf_apply _ _ j).trans ?_
  refine (congrArg₂ (· + ·)
    (hostSum_coe _ (fun r => lseR (Cert.Spec.lo r) - dR r) (fun r => ?_) j)
    (hostSum_coe _ (fun r => lseR (Cert.Spec.hi r) - dR r) (fun r => ?_) j)).trans (EReal.coe_add _ _).symm
  · refine (ValueIdx.subf_apply _ _ _).trans ?_
    rw [lowHalf_apply, flat8192_apply, flat_apply, hl, hd, ← EReal.coe_sub]
  · refine (ValueIdx.subf_apply _ _ _).trans ?_
    rw [highHalf_apply, flat8192_apply, flat_apply, hl, hd, ← EReal.coe_sub]

end Cert.KernelIdeal.Tail

end
-- ==== Proof.KIValue.lean ====
import proofs.«111248_j26912265077430_1_alg».proof.Proof.KIRun
import proofs.«111248_j26912265077430_1_alg».proof.Proof.KIArgs
import proofs.«111248_j26912265077430_1_alg».proof.Proof.Region1Value
import proofs.«111248_j26912265077430_1_alg».proof.Proof.Tail
import proofs.«111248_j26912265077430_1_alg».proof.Proof.Spec
import proofs.«111248_j26912265077430_1_alg».proof.Proof.Consts
import proofs.«111248_j26912265077430_1_alg».proof.Proof.LibRealArith
import Idealize.ShloMosaic.Lib.Pipeline.Value
import Idealize.ShloMosaic.Lib.ValueIdx
import Idealize.ShloMosaic.Lib.IdealHost

/-! # The tiled program's result, at the extended reals

With every input entry a real number: the stacked rows the first region reads are the two row arrays one above the
other; the scale is the smaller of the exponential of the parameter and 100; the second region's column holds, row by
row, the rows' inner products times the scale; and, given that the first region's column holds the rows' logsumexp,
the closing operations return the quotient by 16384 of the sum over both halves of logsumexp minus inner product. -/

set_option maxRecDepth 16384

noncomputable section

namespace Cert.KernelIdeal.Whole

open Cert.KernelIdeal Cert.KernelIdeal.Gen Cert.KernelIdeal.Lse Cert.KernelIdeal.Diag Cert.KernelIdeal.Tail
open Idealize.ShloMosaic Idealize.ShloMosaic.TcCoe Idealize.SL.Sem
open Idealize.ShloMosaic.Pipeline (Dat)
open Idealize.ShloMosaic.ValueIdx

/-! ## What the opening operations leave, as functions of the contents they start from -/

section Generic
variable {F : FTy → Type} [FloatOps F]

/-- The stacked rows: the two row arrays one above the other, then the change of format. -/
theorem v4_after (W : Valuation τ sig (Elt F)) :
    StableHlo.after hostOps0 W (Proc.devRef .tc main_v4)
      = truncf (F := F) .bf16 (concatenate S16384x256 0 [⟨S8192x256, W (Proc.devRef .tc main_arg0)⟩, ⟨S8192x256, W (Proc.devRef .tc main_arg1)⟩]
          concatenates_S8192x256_S8192x256_S16384x256_d0) bitsLt_bf16_f32 := by
  after_results

/-- The scale: the exponential of the parameter, the smaller of it and the literal, as a one-by-one array. -/
theorem v2_after (W : Valuation τ sig (Elt F)) :
    StableHlo.after hostOps0 W (Proc.devRef .tc main_v2)
      = shapeCast S1x1 (minimumf (F := F) (Host.exp (F := F) (W (Proc.devRef .tc main_arg2))) (constant (F := F) S_ .f32 0x42C80000#32))
          shapeCasts_S_S1x1 := by
  after_results
  rfl

end Generic

variable (m : (ℓ : Loc nD τ sig) → Buf (Elt Ideal) ℓ) (ρ : Dev nD → PrngReg) (c : Dev nD)
variable (a b : Fin 8192 → Fin 256 → ℝ) (cs : ℝ)

/-- The stacked rows as the first region finds them: row `p` of the first array below 8192, row `p - 8192` of the second from there on. -/
theorem W1_v4_apply
    (h0 : ∀ p k, m ((c : Thread nD τ).loc main_arg0) (ValueIdx.ix2 p k) = ((a p k : ℝ) : EReal))
    (h1 : ∀ p k, m ((c : Thread nD τ).loc main_arg1) (ValueIdx.ix2 p k) = ((b p k : ℝ) : EReal))
    (p : Fin 16384) (k : Fin 256) :
    W1 m ρ c (Proc.devRef .tc main_v4) (ValueIdx.ix2 p k) = ((Cert.Spec.rows a b p k : ℝ) : EReal) := by
  refine (congrFun (v4_after (W0 m ρ c)) (ix2 p k)).trans ?_
  refine (truncf_apply (φ := .f32) (ψ := .bf16) _ bitsLt_bf16_f32 (ix2 p k)).trans ?_
  unfold Cert.Spec.rows
  split_ifs with hp
  · refine (concatenate_pair_apply_left _ _ _ concatenates_S8192x256_S8192x256_S16384x256_d0 (ix2 p k) rfl (ix2 ⟨p.val, hp⟩ k)
      (fun d => match d with | ⟨0, _⟩ => rfl | ⟨1, _⟩ => rfl)).trans ?_
    exact h0 _ _
  · refine (concatenate_pair_apply_right _ _ _ concatenates_S8192x256_S8192x256_S16384x256_d0 (ix2 p k) rfl rfl (ix2 ⟨p.val - 8192, by omega⟩ k)
      (fun d hd => match d, hd with | ⟨0, _⟩, hd => absurd rfl hd | ⟨1, _⟩, _ => rfl) (by show p.val - 8192 + 8192 = p.val; omega)).trans ?_
    exact h1 _ _

/-- The scale as the regions find it: the smaller of the exponential of the parameter and 100. -/
theorem W1_v2_apply
    (h2 : ∀ i, m ((c : Thread nD τ).loc main_arg2) i = ((cs : ℝ) : EReal)) :
    W1 m ρ c (Proc.devRef .tc main_v2) (ValueIdx.ix2 (0 : Fin 1) (0 : Fin 1)) = ((Cert.Spec.scl cs Cert.Consts.cap : ℝ) : EReal) := by
  refine (congrFun (v2_after (W0 m ρ c)) (ix2 0 0)).trans ?_
  refine (shapeCast_apply _ shapeCasts_S_S1x1 (ix2 0 0) ix0 ?_).trans ?_
  · rw [Shape.rowMajor_val_two]
    show (Shape.rowMajorPi _ _).val = 0 * 1 + 0
    rw [Shape.rowMajorPi_zero]
  · refine (minimumf_apply _ _ ix0).trans ?_
    show min (Ideal.exp (m ((c : Thread nD τ).loc main_arg2) ix0)) (Ideal.ofBits .f32 0x42C80000#32) = _
    rw [h2 ix0, Ideal.exp_coe, Cert.Consts.ofBits_cap]
    unfold Cert.Spec.scl
    exact (EReal.coe_strictMono.monotone.map_min).symm

/-- The same two facts at the contents the first region's proof data take. -/
theorem V1_v4_apply
    (h0 : ∀ p k, m ((c : Thread nD τ).loc main_arg0) (ValueIdx.ix2 p k) = ((a p k : ℝ) : EReal))
    (h1 : ∀ p k, m ((c : Thread nD τ).loc main_arg1) (ValueIdx.ix2 p k) = ((b p k : ℝ) : EReal))
    (p : Fin 16384) (k : Fin 256) :
    V1 m ρ c main_v4 (ValueIdx.ix2 p k) = ((Cert.Spec.rows a b p k : ℝ) : EReal) :=
  W1_v4_apply m ρ c a b h0 h1 p k
theorem V1_v2_apply
    (h2 : ∀ i, m ((c : Thread nD τ).loc main_arg2) i = ((cs : ℝ) : EReal)) :
    V1 m ρ c main_v2 (ValueIdx.ix2 (0 : Fin 1) (0 : Fin 1)) = ((Cert.Spec.scl cs Cert.Consts.cap : ℝ) : EReal) :=
  W1_v2_apply m ρ c cs h2

/-! ## The second region's column, and the whole result -/

/-- A row's value on real entries: the real inner product times the real scale. -/
theorem rowDot_coe (a0 a1 : S8192x256.Idx → EReal) (s : S1x1.Idx → EReal) (a b : Fin 8192 → Fin 256 → ℝ) (sc : ℝ)
    (h0 : ∀ p k, a0 (ix2 p k) = ((a p k : ℝ) : EReal)) (h1 : ∀ p k, a1 (ix2 p k) = ((b p k : ℝ) : EReal))
    (hs : s (ix2 0 0) = ((sc : ℝ) : EReal)) (r : Fin 8192) :
    rowDot a0 a1 s r = (((∑ k : Fin 256, a r k * b r k) * sc : ℝ) : EReal) := by
  unfold rowDot
  rw [hs, EReal.coe_mul, ← Cert.LibRealArith.sum_coe]
  refine congrArg (· * ((sc : ℝ) : EReal)) (Finset.sum_congr rfl fun k _ => ?_)
  rw [h0, h1, EReal.coe_mul]

/-- The scale reaches the second region as the first found it: the reshape between them does not write it, and the
    first region only reads it. -/
theorem V3_main_v2 : V3 m ρ c main_v2 = V1 m ρ c main_v2 :=
  (W3_of m ρ c main_v2 (by decide)).trans <|
    (W2_arr m ρ c 1).trans (((dat0 (V1 m ρ) c).arrAt_in 1 rfl _).trans (A_eq0 (V1 m ρ) c 1))

/-- The second region's column at row `r`: the inner product of the two rows `r`, times the scale. -/
theorem W4_v7_apply
    (h0 : ∀ p k, m ((c : Thread nD τ).loc main_arg0) (ValueIdx.ix2 p k) = ((a p k : ℝ) : EReal))
    (h1 : ∀ p k, m ((c : Thread nD τ).loc main_arg1) (ValueIdx.ix2 p k) = ((b p k : ℝ) : EReal))
    (h2 : ∀ i, m ((c : Thread nD τ).loc main_arg2) i = ((cs : ℝ) : EReal)) (r : Fin 8192) :
    (dat1 (F := Ideal) (V3 m ρ) c).arrAt 3 cfg1.N (ValueIdx.ix2 r (0 : Fin 1)) = ((Cert.Spec.diag a b cs Cert.Consts.cap r : ℝ) : EReal) := by
  refine (arrAt1_3_rowDot (V3 m ρ) c r).trans ?_
  exact rowDot_coe _ _ _ a b _
    (fun p k => (congrFun (V3_main_arg0 m ρ c) (ix2 p k)).trans (h0 p k))
    (fun p k => (congrFun (V3_main_arg1 m ρ c) (ix2 p k)).trans (h1 p k))
    ((congrFun (V3_main_v2 m ρ c) (ix2 0 0)).trans (V1_v2_apply m ρ c cs h2)) r

/-- THE RESULT: given that the first region's column holds the rows' logsumexp, the last buffer ends holding the
    quotient by 16384 of the sum, over both halves, of logsumexp minus inner product. -/
theorem kernel_value
    (h0 : ∀ p k, m ((c : Thread nD τ).loc main_arg0) (ValueIdx.ix2 p k) = ((a p k : ℝ) : EReal))
    (h1 : ∀ p k, m ((c : Thread nD τ).loc main_arg1) (ValueIdx.ix2 p k) = ((b p k : ℝ) : EReal))
    (h2 : ∀ i, m ((c : Thread nD τ).loc main_arg2) i = ((cs : ℝ) : EReal))
    (hfinal0 : ∀ p : Fin 16384, (Cert.KernelIdeal.Lse.dat0 (F := Ideal) (V1 m ρ) c).arrAt 2 cfg0.N (ValueIdx.ix2 p (0 : Fin 1))
      = ((Cert.Spec.lse a b cs Cert.Consts.negBig Cert.Consts.cap p : ℝ) : EReal)) :
    W5 m ρ c (Proc.devRef .tc main_v16)
      = Host.divf (F := Ideal) (fun _ => ((Cert.Spec.kerNum a b cs Cert.Consts.negBig Cert.Consts.cap : ℝ) : EReal))
          (constant (F := Ideal) S_ .f32 0x46800000#32) := by
  have e6 : W4 m ρ c (Proc.devRef .tc main_v6) = flat (F := Ideal) ((dat0 (F := Ideal) (V1 m ρ) c).arrAt 2 cfg0.N) :=
    (W4_of_ne m ρ c main_v6 (by decide)).trans ((flat_after (W2 m ρ c)).trans (congrArg (flat (F := Ideal)) (W2_arr m ρ c 2)))
  have e7 : W4 m ρ c (Proc.devRef .tc main_v7) = (dat1 (F := Ideal) (V3 m ρ) c).arrAt 3 cfg1.N := W4_arr m ρ c 3
  have hd := W4_v7_apply m ρ c a b cs h0 h1 h2
  refine (tail_after (W4 m ρ c)).trans ((congrArg₂ (tailOf (F := Ideal)) e6 e7).trans ?_)
  generalize (dat0 (F := Ideal) (V1 m ρ) c).arrAt 2 cfg0.N = v5 at hfinal0 ⊢
  generalize (dat1 (F := Ideal) (V3 m ρ) c).arrAt 3 cfg1.N = v7 at hd ⊢
  unfold Cert.Spec.kerNum
  exact tail_value v5 v7 _ _ hfinal0 hd

end Cert.KernelIdeal.Whole

end
-- ==== Proof.LsePieces.lean ====
/-
  What the body's stores leave, as functions of what it loads: at every kind of grid point the two scratch buffers end
  at one step of the running maximum and of the running sum, taken from their contents on entry (from −∞ and 0 at a
  first tile), and at a last tile the output block is the running maximum plus the logarithm of the running sum.
-/
import proofs.«111248_j26912265077430_1_alg».proof.Proof.LseData
import Idealize.ShloMosaic.Lib.Pipeline.Value

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile step as a function of the loads -/

theorem hz2 : (![0, 0] : Fin 2 → Nat) = fun _ => 0 := by funext a; fin_cases a <;> rfl

/-- The query rows and the key rows of a point: two bands of 1024 rows of the resident array. -/
def qBlk (i : grid0.Coords) (x0 : Vec F S16384x256 .bf16) : Vec F S1024x256 .bf16 :=
  View.ld x0 (Rect.unit (s := S16384x256) (k0_off1 i) S1024x256.size (k0_off1_inb i))
def kBlk (i : grid0.Coords) (x0 : Vec F S16384x256 .bf16) : Vec F S1024x256 .bf16 :=
  View.ld x0 (Rect.unit (s := S16384x256) (k0_off2 i) S1024x256.size (k0_off2_inb i))
/-- The running maximum after a tile, from the one before it; -/
def stepM (i : grid0.Coords) (x0 : Vec F S16384x256 .bf16) (x1 : Vec F S1x1 .f32) (xm : Vec F S1024x1 .f32) : Vec F S1024x1 .f32 :=
  k0_pay2 (k0_pay7 i (qBlk i x0) (kBlk i x0) x1 xm)
/-- and the running sum. -/
def stepL (i : grid0.Coords) (x0 : Vec F S16384x256 .bf16) (x1 : Vec F S1x1 .f32) (xm xl : Vec F S1024x1 .f32) : Vec F S1024x1 .f32 :=
  k0_pay1 (k0_pay8 i (qBlk i x0) (kBlk i x0) x1 xm xm) (k0_pay9 i (qBlk i x0) (kBlk i x0) x1 xm) xl

section
variable (c : Dev nD) (i : grid0.Coords) (arg2 : Memref sig .tc .vmem S16384x256 .bf16) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole)

theorem mFirst_eq (hc0 : condFirst i) (hc1 : ¬condLast i) (x0 : Vec F S16384x256 .bf16) (x1 : Vec F S1x1 .f32) :
    mFirst c i arg2 harg2 arg3 harg3 arg4 harg4 arg5 harg5 arg6 harg6 hc0 hc1 x0 x1 = stepM i x0 x1 (k0_pay4 (F := F)) := by
  unfold mFirst
  rw [View.read_writes_eq_canon _ _ _ (coverM_first c i arg2 harg2 arg3 harg3 arg4 harg4 arg5 harg5 arg6 harg6 hc0 hc1 x0 x1)]
  unfold runFirst
  dsimp only
  sl_unfold_words
  rw [View.canon_cons_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem lFirst_eq (hc0 : condFirst i) (hc1 : ¬condLast i) (x0 : Vec F S16384x256 .bf16) (x1 : Vec F S1x1 .f32) :
    lFirst c i arg2 harg2 arg3 harg3 arg4 harg4 arg5 harg5 arg6 harg6 hc0 hc1 x0 x1 = stepL i x0 x1 (k0_pay4 (F := F)) (k0_pay5 (F := F)) := by
  unfold lFirst
  rw [View.read_writes_eq_canon _ _ _ (coverL_first c i arg2 harg2 arg3 harg3 arg4 harg4 arg5 harg5 arg6 harg6 hc0 hc1 x0 x1)]
  unfold runFirst
  dsimp only
  sl_unfold_words
  rw [View.canon_cons_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem mMid_eq (hc0 : ¬condFirst i) (hc1 : ¬condLast i) (x0 : Vec F S16384x256 .bf16) (x1 : Vec F S1x1 .f32) (xm xl : Vec F S1024x1 .f32) :
    mMid c i arg2 harg2 arg3 harg3 arg4 harg4 arg5 harg5 arg6 harg6 hc0 hc1 x0 x1 xm xl = stepM i x0 x1 xm := by
  unfold mMid
  rw [View.read_writes_eq_canon _ _ _ (coverM_mid c i arg2 harg2 arg3 harg3 arg4 harg4 arg5 harg5 arg6 harg6 hc0 hc1 x0 x1 xm xl)]
  unfold runMid
  dsimp only
  sl_unfold_words
  rw [View.canon_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem lMid_eq (hc0 : ¬condFirst i) (hc1 : ¬condLast i) (x0 : Vec F S16384x256 .bf16) (x1 : Vec F S1x1 .f32) (xm xl : Vec F S1024x1 .f32) :
    lMid c i arg2 harg2 arg3 harg3 arg4 harg4 arg5 harg5 arg6 harg6 hc0 hc1 x0 x1 xm xl = stepL i x0 x1 xm xl := by
  unfold lMid
  rw [View.read_writes_eq_canon _ _ _ (coverL_mid c i arg2 harg2 arg3 harg3 arg4 harg4 arg5 harg5 arg6 harg6 hc0 hc1 x0 x1 xm xl)]
  unfold runMid
  dsimp only
  sl_unfold_words
  rw [View.canon_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem mLast_eq (hc0 : ¬condFirst i) (hc1 : condLast i) (x0 : Vec F S16384x256 .bf16) (x1 : Vec F S1x1 .f32) (xm xl : Vec F S1024x1 .f32) :
    mLast c i arg2 harg2 arg3 harg3 arg4 harg4 arg5 harg5 arg6 harg6 hc0 hc1 x0 x1 xm xl = stepM i x0 x1 xm := by
  unfold mLast
  rw [View.read_writes_eq_canon _ _ _ (coverM_last c i arg2 harg2 arg3 harg3 arg4 harg4 arg5 harg5 arg6 harg6 hc0 hc1 x0 x1 xm xl)]
  unfold runLast
  dsimp only
  sl_unfold_words
  rw [View.canon_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem lLast_eq (hc0 : ¬condFirst i) (hc1 : condLast i) (x0 : Vec F S16384x256 .bf16) (x1 : Vec F S1x1 .f32) (xm xl : Vec F S1024x1 .f32) :
    lLast c i arg2 harg2 arg3 harg3 arg4 harg4 arg5 harg5 arg6 harg6 hc0 hc1 x0 x1 xm xl = stepL i x0 x1 xm xl := by
  unfold lLast
  rw [View.read_writes_eq_canon _ _ _ (coverL_last c i arg2 harg2 arg3 harg3 arg4 harg4 arg5 harg5 arg6 harg6 hc0 hc1 x0 x1 xm xl)]
  unfold runLast
  dsimp only
  sl_unfold_words
  rw [View.canon_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

theorem oLast_eq (hc0 : ¬condFirst i) (hc1 : condLast i) (x0 : Vec F S16384x256 .bf16) (x1 : Vec F S1x1 .f32) (xm xl : Vec F S1024x1 .f32) :
    oLast c i arg2 harg2 arg3 harg3 arg4 harg4 arg5 harg5 arg6 harg6 hc0 hc1 x0 x1 xm xl = k0_pay3 (stepM i x0 x1 xm) (stepL i x0 x1 xm xl) := by
  unfold oLast
  rw [View.read_writes_eq_canon _ _ _ (coverO_last c i arg2 harg2 arg3 harg3 arg4 harg4 arg5 harg5 arg6 harg6 hc0 hc1 x0 x1 xm xl)]
  unfold runLast
  dsimp only
  sl_unfold_words
  rw [View.canon_unit_zero hz2]
  simp only [View.readAt_eq_ld, harg2.read_unread, harg3.read_unread, harg5.read_unread, harg6.read_unread, View.ld_unit_zero (S := S1x1) hz2, View.ld_unit_zero (S := S1024x1) hz2, View.readCov_unit_zero (S := S1024x1) arg5.view hz2, View.readCov_unit_zero (S := S1024x1) arg6.view hz2]
  rfl

end

end Cert.KernelIdeal.Lse

end
-- ==== Proof.Payloads.lean ====
/-
  One tile of the online softmax, read index by index as real numbers.

  At grid point (i0, i1) the tile holds the similarities of the query rows 1024·i0 + r with the key rows
  1024·i1 + q: the inner product of the two rows of 256 reals times the scale, except on the diagonal of the
  whole matrix (where the two row numbers agree), which holds one fixed number. The tile's row maximum is
  merged into the running maximum; the running sum is rescaled by the exponential of the old maximum minus
  the new one and the tile's shifted exponentials are added. When every entry is real all of this is
  arithmetic of real numbers.
-/
import proofs.«111248_j26912265077430_1_alg».proof.Proof.Gen.KernelIdeal.Skeleton
import proofs.«111248_j26912265077430_1_alg».proof.Proof.Consts
import proofs.«111248_j26912265077430_1_alg».proof.Proof.LibRealArith
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal

/-- The tile's entry (r, q): the fixed number on the diagonal of the whole matrix, else the scaled inner product. -/
def tl (i0 i1 : ℕ) (Q K : Fin 1024 → Fin 256 → ℝ) (s : ℝ) (r q : Fin 1024) : ℝ :=
  if 1024 * i0 + r.val = 1024 * i1 + q.val then Cert.Consts.negBig else (∑ k : Fin 256, Q r k * K q k) * s

/-- The largest entry of row r of the tile. -/
def tmax (i0 i1 : ℕ) (Q K : Fin 1024 → Fin 256 → ℝ) (s : ℝ) (r : Fin 1024) : ℝ :=
  Finset.univ.sup' Finset.univ_nonempty (tl i0 i1 Q K s r)

/-! ## The small payloads -/

/-- A cast to the same shape changes nothing. -/
theorem pay2_apply (v : FVec Ideal S1024x1 .f32) (r : Fin 1024) :
    Gen.k0_pay2 (F := Ideal) v (ix2 r (0 : Fin 1)) = v (ix2 r (0 : Fin 1)) := by
  unfold Gen.k0_pay2
  rw [shapeCast_self]

/-- The last step: the running maximum plus the logarithm of the running sum. -/
theorem pay3_apply (mv lv : Vec Ideal S1024x1 .f32) (r : Fin 1024) :
    Gen.k0_pay3 (F := Ideal) mv lv (ix2 r (0 : Fin 1)) = mv (ix2 r (0 : Fin 1)) + Ideal.log (lv (ix2 r (0 : Fin 1))) := rfl

/-- The running maximum starts at −∞. -/
theorem pay4_apply (r : Fin 1024) : Gen.k0_pay4 (F := Ideal) (ix2 r (0 : Fin 1)) = (⊥ : EReal) := by
  unfold Gen.k0_pay4
  rw [shapeCast_self]
  exact Cert.Consts.ofBits_negInf

/-- The running sum starts at 0. -/
theorem pay5_apply (r : Fin 1024) : Gen.k0_pay5 (F := Ideal) (ix2 r (0 : Fin 1)) = (0 : EReal) := by
  unfold Gen.k0_pay5
  rw [shapeCast_self]
  exact Cert.Consts.ofBits_zero

/-! ## The running sum's update -/

/-- A sum along the lanes, read at row r: the sum over the row. -/
theorem rowsum_apply (P : FVec Ideal S1024x1024 .f32) (h : S1024x1024.Reduces [1] S1024) (hφ : FKind.Formats .f32)
    (hacc : (0x00000000#32 : BitVec 32) = 0x00000000#32) (r : Fin 1024) :
    multiReduction .add [1] S1024 P 0x00000000#32 h hφ hacc (ix1 r) = ∑ q : Fin 1024, P (ix2 r q) := by
  refine (Ideal.multiReduction_add_single P 0x00000000#32 h hφ hacc (ix1 r)).trans ?_
  refine Finset.sum_congr rfl fun q _ => congrArg P ?_
  funext a
  match a with
  | ⟨0, _⟩ => rfl
  | ⟨1, _⟩ => rfl

/-- A vector of 1024 entries viewed as a column reads, at (r, 0), its entry r. -/
theorem col_cast_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The running sum's update: the rescaling factor times the old sum, plus the row sum of the tile's exponentials. -/
theorem pay1_apply (av : FVec Ideal S1024x1 .f32) (P : FVec Ideal S1024x1024 .f32) (lv : Vec Ideal S1024x1 .f32) (r : Fin 1024) :
    Gen.k0_pay1 (F := Ideal) av P lv (ix2 r (0 : Fin 1)) = av (ix2 r (0 : Fin 1)) * lv (ix2 r (0 : Fin 1)) + ∑ q : Fin 1024, P (ix2 r q) := by
  unfold Gen.k0_pay1
  rw [shapeCast_self]
  show av (ix2 r (0 : Fin 1)) * lv (ix2 r (0 : Fin 1)) + shapeCast S1024x1 _ _ (ix2 r (0 : Fin 1)) = _
  rw [col_cast_apply]
  refine congrArg (av (ix2 r (0 : Fin 1)) * lv (ix2 r (0 : Fin 1)) + ·) ?_
  exact rowsum_apply P _ _ _ r

/-! ## The row maximum -/

/-- The fold of max from −∞ over finitely many reals is their largest. -/
theorem fold_max_coe {ι : Type*} [Fintype ι] [Nonempty ι] (f : ι → ℝ) :
    (Finset.univ : Finset ι).fold max (⊥ : EReal) (fun q => ((f q : ℝ) : EReal))
      = ((Finset.univ.sup' Finset.univ_nonempty f : ℝ) : EReal) := by
  have h1 : (Finset.univ : Finset ι).fold max (⊥ : EReal) (fun q => ((f q : ℝ) : EReal))
      = Finset.univ.sup (fun q => ((f q : ℝ) : EReal)) := rfl
  rw [h1, ← Finset.sup'_eq_sup Finset.univ_nonempty]
  exact (Finset.comp_sup'_eq_sup'_comp Finset.univ_nonempty (fun x : ℝ => (x : EReal))
    (fun x y => EReal.coe_strictMono.monotone.map_max)).symm

/-- A maximum along the lanes from −∞, read at row r: the fold of max over the row. -/
theorem rowmax_apply (P : FVec Ideal S1024x1024 .f32) (h : S1024x1024.Reduces [1] S1024) (hφ : FKind.Formats .f32)
    (hacc : (0xFF800000#32 : BitVec 32) = 0xFF800000#32) (r : Fin 1024) :
    multiReduction .maximumf [1] S1024 P 0xFF800000#32 h hφ hacc (ix1 r)
      = (Finset.univ : Finset (Fin 1024)).fold max (⊥ : EReal) (fun q => P (ix2 r q)) := by
  refine (Ideal.multiReduction_maximumf_single P 0xFF800000#32 h hφ hacc (ix1 r)).trans ?_
  show (Finset.univ : Finset (Fin 1024)).fold max (Ideal.ofBits .f32 0xFF800000#32) (fun q => P (h.lift (ix1 r) q)) = _
  rw [Cert.Consts.ofBits_negInf]
  refine congrArg (fun g : Fin 1024 → EReal => (Finset.univ : Finset (Fin 1024)).fold max (⊥ : EReal) g) (funext fun q => congrArg P ?_)
  funext a
  match a with
  | ⟨0, _⟩ => rfl
  | ⟨1, _⟩ => rfl

/-! ## The mask -/

/-- The word 1024·a + r, for a below 16 and r below 1024, is that natural number. -/
theorem word_toNat (a : ℕ) (ha : a < 16) (r : Fin 1024) :
    (IntOp.addi (Scalar.muli (BitVec.ofNat 32 a) 1024#32) (BitVec.ofNat 32 r.val)).toNat = 1024 * a + r.val := by
  have hr := r.isLt
  show (BitVec.ofNat 32 a * 1024#32 + BitVec.ofNat 32 r.val).toNat = _
  rw [BitVec.toNat_add, BitVec.toNat_mul, BitVec.toNat_ofNat, BitVec.toNat_ofNat, BitVec.toNat_ofNat]
  omega

/-- Two such words are equal exactly when the two naturals are. -/
theorem mask_bit (a b : ℕ) (ha : a < 16) (hb : b < 16) (r q : Fin 1024) :
    IntOp.cmpi .eq (IntOp.addi (Scalar.muli (BitVec.ofNat 32 a) 1024#32) (BitVec.ofNat 32 r.val))
      (IntOp.addi (Scalar.muli (BitVec.ofNat 32 b) 1024#32) (BitVec.ofNat 32 q.val))
      = if 1024 * a + r.val = 1024 * b + q.val then 1#1 else 0#1 := by
  have ex := word_toNat a ha r
  have ey := word_toNat b hb q
  generalize IntOp.addi (Scalar.muli (BitVec.ofNat 32 a) 1024#32) (BitVec.ofNat 32 r.val) = x at ex ⊢
  generalize IntOp.addi (Scalar.muli (BitVec.ofNat 32 b) 1024#32) (BitVec.ofNat 32 q.val) = y at ey ⊢
  show BitVec.ofBool (x == y) = _
  by_cases h : 1024 * a + r.val = 1024 * b + q.val
  · rw [if_pos h]
    have e : x = y := BitVec.eq_of_toNat_eq (by rw [ex, ey, h])
    have : (x == y) = true := by rw [e]; exact beq_self_eq_true y
    rw [this]; rfl
  · rw [if_neg h]
    have e : x ≠ y := fun e => h (by rw [← ex, ← ey, e])
    have : (x == y) = false := beq_false_of_ne e
    rw [this]; rfl

/-- The mask read at (r, q). -/
theorem mask_apply (w4 w6 : BitVec 32) (h1 : S1024x1.Iotas .tc 32 [0]) (h2 : S1x1024.Iotas .tc 32 [1])
    (hb1 : S1024x1.Broadcasts S1024x1024) (hb2 : S1x1024.Broadcasts S1024x1024) (r q : Fin 1024) :
    cmpi .eq (broadcastTo S1024x1024 (addi (broadcast S1024x1 w4) (iota .tc S1024x1 32 [0] h1)) hb1)
        (broadcastTo S1024x1024 (addi (broadcast S1x1024 w6) (iota .tc S1x1024 32 [1] h2)) hb2) (ix2 r q)
      = IntOp.cmpi .eq (IntOp.addi w4 (BitVec.ofNat 32 r.val)) (IntOp.addi w6 (BitVec.ofNat 32 q.val)) := by
  show IntOp.cmpi .eq (broadcastTo S1024x1024 _ hb1 (ix2 r q)) (broadcastTo S1024x1024 _ hb2 (ix2 r q)) = _
  rw [broadcastTo_1b_ab_apply,
    broadcastTo_apply _ hb1 (ix2 r q) (ix2 r (0 : Fin 1)) (fun a => by
      match a with
      | ⟨0, _⟩ => rfl
      | ⟨1, _⟩ => rfl)]
  show IntOp.cmpi .eq (IntOp.addi w4 (iota .tc S1024x1 32 [0] h1 (ix2 r (0 : Fin 1))))
    (IntOp.addi w6 (iota .tc S1x1024 32 [1] h2 (ix2 (0 : Fin 1) q))) = _
  rw [iota_single_apply, iota_single_apply]

/-! ## The contraction -/

theorem lhs_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product into the zero accumulator, read at (r, q): the sum over the 256 shared coordinates. -/
theorem mm_apply (A : FVec Ideal S1024x256 .bf16) (B : FVec Ideal S256x1024 .bf16) (r q : Fin 1024) :
    matmul dot_S1024x256_S256x1024_S1024x1024_1_0_0_1_n_n none A B (constant (F := Ideal) S1024x1024 .f32 0x00000000#32) (ix2 r q)
      = ∑ k : Fin 256, A (ix2 r k) * B (ix2 k q) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r q) ((contrEquiv1 dot_S1024x256_S256x1024_S1024x1024_1_0_0_1_n_n 256 rfl rfl).symm k) = ix2 r k := funext fun a => Fin.ext (by
    match a with
    | ⟨0, _⟩ => exact lhs_0 _ _
    | ⟨1, _⟩ => exact (lhs_1 _ _).trans hk)
  have er : dot_S1024x256_S256x1024_S1024x1024_1_0_0_1_n_n.rhsIdx (ix2 r q) ((contrEquiv1 dot_S1024x256_S256x1024_S1024x1024_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The product of the query rows with the transposed key rows, read at (r, q). -/
theorem prod_apply (v8 v11 : FVec Ideal S1024x256 .bf16) (hc : S1024x256.ShapeCasts S1024x256)
    (ht : S1024x256.Transposes [1, 0] S256x1024) (r q : Fin 1024) :
    matmul dot_S1024x256_S256x1024_S1024x1024_1_0_0_1_n_n none (shapeCast S1024x256 v8 hc)
        (transpose S256x1024 [1, 0] (shapeCast S1024x256 v11 hc) ht) (constant (F := Ideal) S1024x1024 .f32 0x00000000#32) (ix2 r q)
      = ∑ k : Fin 256, v8 (ix2 r k) * v11 (ix2 q k) := by
  rw [mm_apply, shapeCast_self, shapeCast_self]
  refine Finset.sum_congr rfl fun k _ => ?_
  rw [transpose_ix2_apply]

/-- The one entry of a 1×1 vector. -/
theorem extract_apply {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-- The tile's entry: the mask decides between the fixed number and the scaled inner product. -/
theorem pay6_apply (i : grid0.Coords) (v8 v11 : Vec Ideal S1024x256 .bf16) (v13 : Vec Ideal S1x1 .f32)
    (Q K : Fin 1024 → Fin 256 → ℝ) (s : ℝ)
    (hq : ∀ r k, v8 (ix2 r k) = ((Q r k : ℝ) : EReal)) (hk : ∀ q k, v11 (ix2 q k) = ((K q k : ℝ) : EReal))
    (hs : v13 (ix2 (0 : Fin 1) (0 : Fin 1)) = ((s : ℝ) : EReal)) (r q : Fin 1024) :
    Gen.k0_pay6 (F := Ideal) i v8 v11 v13 (ix2 r q) = ((tl (i 0).val (i 1).val Q K s r q : ℝ) : EReal) := by
  have h0 : (i 0).val < 16 := (i 0).isLt
  have h1 : (i 1).val < 16 := (i 1).isLt
  unfold Gen.k0_pay6
  dsimp only
  rw [select_apply, mask_apply, mask_bit _ _ h0 h1, broadcast_apply, mulf_apply, broadcast_apply, prod_apply, extract_apply, hs]
  show Scalar.select _ (Ideal.ofBits .f32 0xCE6E6B28#32) _ = _
  rw [Cert.Consts.ofBits_negBig]
  simp only [hq, hk, ← EReal.coe_mul, Cert.LibRealArith.sum_coe]
  unfold tl
  split
  · rw [select_one]
  · rw [select_zero]

end Cert.KernelIdeal.Pay

end
-- ==== Proof.Payloads2.lean ====
/-
  One step of the online softmax over a tile, in real numbers.

  The new running maximum is the larger of the old one and the tile's row maximum; the new running sum is
  the old one rescaled by the exponential of the old maximum minus the new one, plus the tile's exponentials
  shifted by the new maximum. From −∞ and 0 (the first tile of a row) the rescaled part vanishes, because
  the exponential of −∞ is 0; from real values every term is a real number.
-/
import proofs.«111248_j26912265077430_1_alg».proof.Proof.Payloads

noncomputable section

namespace Cert.KernelIdeal.Pay

open Idealize.ShloMosaic Idealize.ShloMosaic.ValueIdx Cert.KernelIdeal

/-! ## Three shapes of arithmetic, read at an index -/

/-- The larger of a column and the row maxima of a matrix, read at row r. -/
theorem max_step_apply (P : FVec Ideal S1024x1024 .f32) (mp : FVec Ideal S1024x1 .f32) (h : S1024x1024.Reduces [1] S1024)
    (hφ : FKind.Formats .f32) (hacc : (0xFF800000#32 : BitVec 32) = 0xFF800000#32) (hc : S1024.ShapeCasts S1024x1) (r : Fin 1024) :
    maximumf mp (shapeCast S1024x1 (multiReduction .maximumf [1] S1024 P 0xFF800000#32 h hφ hacc) hc) (ix2 r (0 : Fin 1))
      = max (mp (ix2 r (0 : Fin 1))) ((Finset.univ : Finset (Fin 1024)).fold max (⊥ : EReal) (fun q => P (ix2 r q))) := by
  rw [maximumf_apply, col_cast_apply, rowmax_apply]

/-- The exponential of a difference, read at an index. -/
theorem exp_sub_apply {S : Shape} (a b : FVec Ideal S .f32) (j : S.Idx) :
    exp (subf a b) j = Ideal.exp (a j - b j) := rfl

/-- The exponential of a matrix minus a column spread over its rows, read at (r, q). -/
theorem exp_sub_col_apply (A : FVec Ideal S1024x1024 .f32) (B : FVec Ideal S1024x1 .f32) (hb : S1024x1.Broadcasts S1024x1024)
    (r q : Fin 1024) :
    exp (subf A (broadcastTo S1024x1024 B hb)) (ix2 r q) = Ideal.exp (A (ix2 r q) - B (ix2 r (0 : Fin 1))) := by
  rw [exp_sub_apply, broadcastTo_apply B hb (ix2 r q) (ix2 r (0 : Fin 1)) (fun a => by
    match a with
    | ⟨0, _⟩ => rfl
    | ⟨1, _⟩ => rfl)]

/-! ## The merged maximum, the rescaling factor and the shifted exponentials -/

section Tile

variable (i : grid0.Coords) (v8 v11 : Vec Ideal S1024x256 .bf16) (v13 : Vec Ideal S1x1 .f32)
  (Q K : Fin 1024 → Fin 256 → ℝ) (s : ℝ)
  (hq : ∀ r k, v8 (ix2 r k) = ((Q r k : ℝ) : EReal)) (hk : ∀ q k, v11 (ix2 q k) = ((K q k : ℝ) : EReal))
  (hs : v13 (ix2 (0 : Fin 1) (0 : Fin 1)) = ((s : ℝ) : EReal))

include hq hk hs in
/-- The new running maximum: the larger of the old one and the tile's row maximum. -/
theorem pay7_apply (mp : Vec Ideal S1024x1 .f32) (r : Fin 1024) :
    Gen.k0_pay7 (F := Ideal) i v8 v11 v13 mp (ix2 r (0 : Fin 1))
      = max (mp (ix2 r (0 : Fin 1))) ((tmax (i 0).val (i 1).val Q K s r : ℝ) : EReal) := by
  unfold Gen.k0_pay7
  refine (max_step_apply _ _ _ _ _ _ r).trans ?_
  simp only [pay6_apply i v8 v11 v13 Q K s hq hk hs]
  rw [fold_max_coe]
  rfl

/-- The rescaling factor: the exponential of the old maximum minus the new one. -/
theorem pay8_apply (mp mp' : Vec Ideal S1024x1 .f32) (r : Fin 1024) :
    Gen.k0_pay8 (F := Ideal) i v8 v11 v13 mp mp' (ix2 r (0 : Fin 1))
      = Ideal.exp (mp' (ix2 r (0 : Fin 1)) - Gen.k0_pay7 (F := Ideal) i v8 v11 v13 mp (ix2 r (0 : Fin 1))) := by
  unfold Gen.k0_pay8
  exact exp_sub_apply _ _ _

include hq hk hs in
/-- The tile's exponentials, shifted by the new running maximum of the row. -/
theorem pay9_apply (mp : Vec Ideal S1024x1 .f32) (r q : Fin 1024) :
    Gen.k0_pay9 (F := Ideal) i v8 v11 v13 mp (ix2 r q)
      = Ideal.exp (((tl (i 0).val (i 1).val Q K s r q : ℝ) : EReal)
          - Gen.k0_pay7 (F := Ideal) i v8 v11 v13 mp (ix2 r (0 : Fin 1))) := by
  unfold Gen.k0_pay9
  refine (exp_sub_col_apply _ _ _ r q).trans ?_
  rw [pay6_apply i v8 v11 v13 Q K s hq hk hs]
/-! ## One step of the walk, in real numbers -/

include hq hk hs in
/-- Once the new running maximum is a real number m', the new running sum is the rescaled old sum plus the
    real sum of the tile's exponentials shifted by m'. -/
theorem step_sum (mp lp : Vec Ideal S1024x1 .f32) (r : Fin 1024) (m' : ℝ)
    (h7 : Gen.k0_pay7 (F := Ideal) i v8 v11 v13 mp (ix2 r (0 : Fin 1)) = ((m' : ℝ) : EReal)) :
    Gen.k0_pay1 (F := Ideal) (Gen.k0_pay8 (F := Ideal) i v8 v11 v13 mp mp) (Gen.k0_pay9 (F := Ideal) i v8 v11 v13 mp) lp (ix2 r (0 : Fin 1))
      = Ideal.exp (mp (ix2 r (0 : Fin 1)) - ((m' : ℝ) : EReal)) * lp (ix2 r (0 : Fin 1))
        + ((∑ q : Fin 1024, Real.exp (tl (i 0).val (i 1).val Q K s r q - m') : ℝ) : EReal) := by
  refine (pay1_apply _ _ _ r).trans ?_
  rw [pay8_apply, h7]
  simp only [pay9_apply i v8 v11 v13 Q K s hq hk hs, h7, ← EReal.coe_sub, Ideal.exp_coe, Cert.LibRealArith.sum_coe]

include hq hk hs in
/-- The first tile of a row: the walk starts from −∞ and 0. -/
theorem step_first (r : Fin 1024) :
    Gen.k0_pay2 (F := Ideal) (Gen.k0_pay7 (F := Ideal) i v8 v11 v13 (Gen.k0_pay4 (F := Ideal))) (ix2 r (0 : Fin 1))
        = ((tmax (i 0).val (i 1).val Q K s r : ℝ) : EReal)
      ∧ Gen.k0_pay1 (F := Ideal) (Gen.k0_pay8 (F := Ideal) i v8 v11 v13 (Gen.k0_pay4 (F := Ideal)) (Gen.k0_pay4 (F := Ideal)))
          (Gen.k0_pay9 (F := Ideal) i v8 v11 v13 (Gen.k0_pay4 (F := Ideal))) (Gen.k0_pay5 (F := Ideal)) (ix2 r (0 : Fin 1))
        = ((∑ q : Fin 1024, Real.exp (tl (i 0).val (i 1).val Q K s r q - tmax (i 0).val (i 1).val Q K s r) : ℝ) : EReal) := by
  have h7 : Gen.k0_pay7 (F := Ideal) i v8 v11 v13 (Gen.k0_pay4 (F := Ideal)) (ix2 r (0 : Fin 1))
      = ((tmax (i 0).val (i 1).val Q K s r : ℝ) : EReal) := by
    rw [pay7_apply i v8 v11 v13 Q K s hq hk hs, pay4_apply]
    exact max_bot_left _
  refine ⟨(pay2_apply _ r).trans h7, ?_⟩
  rw [step_sum i v8 v11 v13 Q K s hq hk hs _ _ r _ h7, pay4_apply, pay5_apply, sub_eq_add_neg, EReal.bot_add,
    Ideal.exp_bot, zero_mul, zero_add]

include hq hk hs in
/-- A later tile: from a real running maximum m and a real running sum l. -/
theorem step_next (mp lp : Vec Ideal S1024x1 .f32) (m l : ℝ) (r : Fin 1024)
    (hm : mp (ix2 r (0 : Fin 1)) = ((m : ℝ) : EReal)) (hl : lp (ix2 r (0 : Fin 1)) = ((l : ℝ) : EReal)) :
    Gen.k0_pay2 (F := Ideal) (Gen.k0_pay7 (F := Ideal) i v8 v11 v13 mp) (ix2 r (0 : Fin 1))
        = ((max m (tmax (i 0).val (i 1).val Q K s r) : ℝ) : EReal)
      ∧ Gen.k0_pay1 (F := Ideal) (Gen.k0_pay8 (F := Ideal) i v8 v11 v13 mp mp) (Gen.k0_pay9 (F := Ideal) i v8 v11 v13 mp) lp (ix2 r (0 : Fin 1))
        = ((Real.exp (m - max m (tmax (i 0).val (i 1).val Q K s r)) * l
            + ∑ q : Fin 1024, Real.exp (tl (i 0).val (i 1).val Q K s r q - max m (tmax (i 0).val (i 1).val Q K s r)) : ℝ) : EReal) := by
  have h7 : Gen.k0_pay7 (F := Ideal) i v8 v11 v13 mp (ix2 r (0 : Fin 1))
      = ((max m (tmax (i 0).val (i 1).val Q K s r) : ℝ) : EReal) := by
    rw [pay7_apply i v8 v11 v13 Q K s hq hk hs, hm]
    exact (EReal.coe_strictMono.monotone.map_max).symm
  refine ⟨(pay2_apply _ r).trans h7, ?_⟩
  rw [step_sum i v8 v11 v13 Q K s hq hk hs _ _ r _ h7, hm, hl, ← EReal.coe_sub, Ideal.exp_coe, ← EReal.coe_mul, ← EReal.coe_add]

end Tile

/-- The end of a row: the running maximum plus the logarithm of a positive running sum. -/
theorem last_apply (mv lv : Vec Ideal S1024x1 .f32) (m l : ℝ) (r : Fin 1024) (hl0 : 0 < l)
    (hm : mv (ix2 r (0 : Fin 1)) = ((m : ℝ) : EReal)) (hl : lv (ix2 r (0 : Fin 1)) = ((l : ℝ) : EReal)) :
    Gen.k0_pay3 (F := Ideal) mv lv (ix2 r (0 : Fin 1)) = ((m + Real.log l : ℝ) : EReal) := by
  rw [pay3_apply, hm, hl, Ideal.log_coe, if_neg (not_le.mpr hl0), ← EReal.coe_add]

end Cert.KernelIdeal.Pay

end
-- ==== Proof.LseValue.lean ====
/-
  What the tiled logsumexp region leaves in its output array, at the ideal instance, when the stacked rows and the scale
  it finds on entry are real numbers: row p holds the logsumexp of row p's similarities. Point t of the 16 × 16 grid is
  row block t / 16 and column tile t % 16; after it the two scratch buffers hold, row by row, the running maximum and
  the running rescaled sum of the tiles 0 … t % 16; the last tile writes their combination into the output block.
-/
import proofs.«111248_j26912265077430_1_alg».proof.Proof.LsePieces
import proofs.«111248_j26912265077430_1_alg».proof.Proof.Payloads2
import proofs.«111248_j26912265077430_1_alg».proof.Proof.SpecLaws
import Idealize.ShloMosaic.Lib.ValueIdx

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

/-! ## The grid's arithmetic, decided over its 256 points -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 16 ∧ win0_2.index t (1 : Fin 2) = 0
    ∧ k0_off1 (grid0.coords t) (0 : Fin 2) = 1024 * (t.val / 16) ∧ k0_off1 (grid0.coords t) (1 : Fin 2) = 0
    ∧ k0_off2 (grid0.coords t) (0 : Fin 2) = 1024 * (t.val % 16) ∧ k0_off2 (grid0.coords t) (1 : Fin 2) = 0
    ∧ ((grid0.coords t) 0).val = t.val / 16 ∧ ((grid0.coords t) 1).val = t.val % 16 :=
  (by decide +kernel : ∀ t : Fin grid0.N, _)

theorem tlt (t : Fin cfg0.N) : t.val < 256 := lt_of_lt_of_eq t.isLt (show cfg0.N = 256 from N_0)

/-- Row r of point t's row block, among the 16384 stacked rows. -/
def prow (n : ℕ) (hn : n < 256) (r : Fin 1024) : Fin 16384 := ⟨1024 * (n / 16) + r.val, by have := r.isLt; omega⟩
/-- Point t's column tile. -/
def jOf (n : ℕ) : Fin 16 := ⟨n % 16, Nat.mod_lt _ (by norm_num)⟩

section
variable (V : (c : Dev nD) → (b : Ref sig .tc) → Buf (Elt Ideal) ((c : Thread nD τ).loc b)) (c : Dev nD)

/-! ## The blocks the body loads -/

/-- The resident window's block is its whole array at every point. -/
theorem iblk0_0_apply (t : Fin cfg0.N) (p : Fin 16384) (k : Fin 256) :
    iblk0 V c 0 t (ix2 p k) = V c main_v4 (ix2 p k) := by
  obtain ⟨e0, e1, -⟩ := idx_facts t
  show V c main_v4 (((cfg0.win 0).blk t).view.emb (ix2 p k)) = V c main_v4 (ix2 p k)
  refine congrArg (V c main_v4) ?_
  funext a; apply Fin.ext
  match a with
  | ⟨0, _⟩ => show win0_0.index t (0 : Fin 2) * 16384 + 1 * p.val = p.val; omega
  | ⟨1, _⟩ => show win0_0.index t (1 : Fin 2) * 256 + 1 * k.val = k.val; omega

theorem iblk0_1_apply (t : Fin cfg0.N) :
    iblk0 V c 1 t (ix2 (0 : Fin 1) (0 : Fin 1)) = V c main_v2 (ix2 (0 : Fin 1) (0 : Fin 1)) := by
  obtain ⟨-, -, e2, e3, -⟩ := idx_facts t
  show V c main_v2 (((cfg0.win 1).blk t).view.emb (ix2 (0 : Fin 1) (0 : Fin 1))) = V c main_v2 (ix2 (0 : Fin 1) (0 : Fin 1))
  refine congrArg (V c main_v2) ?_
  funext a; apply Fin.ext
  match a with
  | ⟨0, _⟩ => show win0_1.index t (0 : Fin 2) * 1 + 1 * 0 = 0; omega
  | ⟨1, _⟩ => show win0_1.index t (1 : Fin 2) * 1 + 1 * 0 = 0; omega

/-- The query band of point t is rows 1024·(t / 16) … of the array; -/
theorem qBlk_apply (t : Fin cfg0.N) (x0 : Vec Ideal S16384x256 .bf16) (r : Fin 1024) (k : Fin 256) :
    qBlk (grid0.coords t) x0 (ix2 r k) = x0 (ix2 (prow t.val (tlt t) r) k) := by
  obtain ⟨-, -, -, -, -, -, e6, e7, -⟩ := idx_facts t
  show x0 ((Rect.unit (s := S16384x256) (k0_off1 (grid0.coords t)) S1024x256.size (k0_off1_inb (grid0.coords t))).emb (ix2 r k)) = _
  refine congrArg x0 ?_
  funext a; apply Fin.ext
  match a with
  | ⟨0, _⟩ => show k0_off1 (grid0.coords t) (0 : Fin 2) + 1 * r.val = 1024 * (t.val / 16) + r.val; omega
  | ⟨1, _⟩ => show k0_off1 (grid0.coords t) (1 : Fin 2) + 1 * k.val = k.val; omega

/-- the key band is the rows of column tile t % 16. -/
theorem kBlk_apply (t : Fin cfg0.N) (x0 : Vec Ideal S16384x256 .bf16) (q : Fin 1024) (k : Fin 256) :
    kBlk (grid0.coords t) x0 (ix2 q k) = x0 (ix2 (Cert.Spec.col (jOf t.val) q) k) := by
  obtain ⟨-, -, -, -, -, -, -, -, e8, e9, -⟩ := idx_facts t
  show x0 ((Rect.unit (s := S16384x256) (k0_off2 (grid0.coords t)) S1024x256.size (k0_off2_inb (grid0.coords t))).emb (ix2 q k)) = _
  refine congrArg x0 ?_
  funext a; apply Fin.ext
  match a with
  | ⟨0, _⟩ => show k0_off2 (grid0.coords t) (0 : Fin 2) + 1 * q.val = 1024 * (t.val % 16) + q.val; omega
  | ⟨1, _⟩ => show k0_off2 (grid0.coords t) (1 : Fin 2) + 1 * k.val = k.val; omega

end

/-! ## The tile in the stacked rows' terms -/

section
variable (a b : Fin 8192 → Fin 256 → ℝ) (cs : ℝ)

local notation "NB" => Cert.Consts.negBig
local notation "CAP" => Cert.Consts.cap

/-- The query rows and the key rows of point n, as real matrices. -/
def Qof (n : ℕ) (hn : n < 256) : Fin 1024 → Fin 256 → ℝ := fun r k => Cert.Spec.rows a b (prow n hn r) k
def Kof (n : ℕ) : Fin 1024 → Fin 256 → ℝ := fun q k => Cert.Spec.rows a b (Cert.Spec.col (jOf n) q) k

theorem tl_eq (n : ℕ) (hn : n < 256) (r q : Fin 1024) :
    Cert.KernelIdeal.Pay.tl (n / 16) (n % 16) (Qof a b n hn) (Kof a b n) (Cert.Spec.scl cs CAP) r q
      = Cert.Spec.logit a b cs NB CAP (prow n hn r) (Cert.Spec.col (jOf n) q) := by
  unfold Cert.KernelIdeal.Pay.tl Cert.Spec.logit Qof Kof
  have hiff : (prow n hn r = Cert.Spec.col (jOf n) q) ↔ (1024 * (n / 16) + r.val = 1024 * (n % 16) + q.val) := by
    constructor
    · intro h; exact congrArg Fin.val h
    · intro h; exact Fin.ext h
  by_cases h : 1024 * (n / 16) + r.val = 1024 * (n % 16) + q.val
  · rw [if_pos h, if_pos (hiff.mpr h)]
  · rw [if_neg h, if_neg (fun e => h (hiff.mp e))]

theorem tmax_eq (n : ℕ) (hn : n < 256) (r : Fin 1024) :
    Cert.KernelIdeal.Pay.tmax (n / 16) (n % 16) (Qof a b n hn) (Kof a b n) (Cert.Spec.scl cs CAP) r
      = Cert.Spec.tileMax a b cs NB CAP (prow n hn r) (jOf n) := by
  unfold Cert.KernelIdeal.Pay.tmax Cert.Spec.tileMax
  exact Finset.sup'_congr _ rfl (fun q _ => tl_eq a b cs n hn r q)

end

end Cert.KernelIdeal.Lse

end
-- ==== Proof.LseFinal.lean ====
/-
  The tiled logsumexp region's output array, row by row, when the stacked rows and the scale are real: by induction
  along the grid, after point t the running maximum and the running sum of row r of the row block are those of the
  real walk over the tiles 0 … t % 16 of that row; a last tile writes their combination, which is the row's
  logsumexp; the sixteen written blocks tile the output array.
-/
import proofs.«111248_j26912265077430_1_alg».proof.Proof.LseValue

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

local notation "NB" => Cert.Consts.negBig
local notation "CAP" => Cert.Consts.cap

/-! ## The real walk, restated at a grid position -/

section
variable (a b : Fin 8192 → Fin 256 → ℝ) (cs : ℝ)

theorem onl_first (p : Fin 16384) (n : ℕ) (h0 : n % 16 = 0) :
    Cert.Spec.onl a b cs NB CAP p (n % 16)
      = (Cert.Spec.tileMax a b cs NB CAP p (jOf n),
         ∑ q : Fin 1024, Real.exp (Cert.Spec.logit a b cs NB CAP p (Cert.Spec.col (jOf n) q) - Cert.Spec.tileMax a b cs NB CAP p (jOf n))) := by
  have hj : jOf n = (0 : Fin 16) := Fin.ext (by show n % 16 = 0; exact h0)
  rw [h0, hj, Cert.Spec.onl_zero]

theorem onl_step (p : Fin 16384) (n : ℕ) (h0 : (n + 1) % 16 ≠ 0) :
    Cert.Spec.onl a b cs NB CAP p ((n + 1) % 16)
      = (max (Cert.Spec.onl a b cs NB CAP p (n % 16)).1 (Cert.Spec.tileMax a b cs NB CAP p (jOf (n + 1))),
         Real.exp ((Cert.Spec.onl a b cs NB CAP p (n % 16)).1 - max (Cert.Spec.onl a b cs NB CAP p (n % 16)).1 (Cert.Spec.tileMax a b cs NB CAP p (jOf (n + 1)))) * (Cert.Spec.onl a b cs NB CAP p (n % 16)).2
           + ∑ q : Fin 1024, Real.exp (Cert.Spec.logit a b cs NB CAP p (Cert.Spec.col (jOf (n + 1)) q)
               - max (Cert.Spec.onl a b cs NB CAP p (n % 16)).1 (Cert.Spec.tileMax a b cs NB CAP p (jOf (n + 1))))) := by
  have hmod : (n + 1) % 16 = n % 16 + 1 := by omega
  have hj : (⟨(n % 16 + 1) % 16, Nat.mod_lt _ (by norm_num)⟩ : Fin 16) = jOf (n + 1) := Fin.ext (by show (n % 16 + 1) % 16 = (n + 1) % 16; omega)
  rw [hmod, Cert.Spec.onl_succ, hj]

end

/-! ## The invariant along the grid -/

section
variable (V : (c : Dev nD) → (b : Ref sig .tc) → Buf (Elt Ideal) ((c : Thread nD τ).loc b)) (c : Dev nD)
  (a b : Fin 8192 → Fin 256 → ℝ) (cs : ℝ)
  (hz : ∀ p k, V c main_v4 (ix2 p k) = ((Cert.Spec.rows a b p k : ℝ) : EReal))
  (hs : V c main_v2 (ix2 (0 : Fin 1) (0 : Fin 1)) = ((Cert.Spec.scl cs CAP : ℝ) : EReal))

include hz in
theorem hq_at (t : Fin cfg0.N) (r : Fin 1024) (k : Fin 256) :
    qBlk (grid0.coords t) (iblk0 V c 0 t) (ix2 r k) = ((Qof a b t.val (tlt t) r k : ℝ) : EReal) := by
  rw [qBlk_apply, iblk0_0_apply, hz]; rfl
include hz in
theorem hk_at (t : Fin cfg0.N) (q : Fin 1024) (k : Fin 256) :
    kBlk (grid0.coords t) (iblk0 V c 0 t) (ix2 q k) = ((Kof a b t.val q k : ℝ) : EReal) := by
  rw [kBlk_apply, iblk0_0_apply, hz]; rfl
include hs in
theorem hs_at (t : Fin cfg0.N) :
    iblk0 V c 1 t (ix2 (0 : Fin 1) (0 : Fin 1)) = ((Cert.Spec.scl cs CAP : ℝ) : EReal) := by
  rw [iblk0_1_apply, hs]

include hz hs in
/-- One step from −∞ and 0, in the stacked rows' terms. -/
theorem first_at (t : Fin cfg0.N) (h0 : t.val % 16 = 0) (r : Fin 1024) :
    stepM (grid0.coords t) (iblk0 V c 0 t) (iblk0 V c 1 t) (k0_pay4 (F := Ideal)) (ix2 r (0 : Fin 1))
        = (((Cert.Spec.onl a b cs NB CAP (prow t.val (tlt t) r) (t.val % 16)).1 : ℝ) : EReal)
      ∧ stepL (grid0.coords t) (iblk0 V c 0 t) (iblk0 V c 1 t) (k0_pay4 (F := Ideal)) (k0_pay5 (F := Ideal)) (ix2 r (0 : Fin 1))
        = (((Cert.Spec.onl a b cs NB CAP (prow t.val (tlt t) r) (t.val % 16)).2 : ℝ) : EReal) := by
  obtain ⟨-, -, -, -, -, -, -, -, -, -, e10, e11⟩ := idx_facts t
  have key := Cert.KernelIdeal.Pay.step_first (grid0.coords t) (qBlk (grid0.coords t) (iblk0 V c 0 t)) (kBlk (grid0.coords t) (iblk0 V c 0 t))
    (iblk0 V c 1 t) (Qof a b t.val (tlt t)) (Kof a b t.val) (Cert.Spec.scl cs CAP) (hq_at V c a b hz t) (hk_at V c a b hz t) (hs_at V c cs hs t) r
  rw [e10, e11] at key
  simp only [tmax_eq a b cs t.val (tlt t), tl_eq a b cs t.val (tlt t)] at key
  rw [onl_first a b cs _ t.val h0]
  exact key

include hz hs in
/-- One step from a real running maximum and sum. -/
theorem next_at (t : Fin cfg0.N) (xm xl : Vec Ideal S1024x1 .f32) (m l : ℝ) (r : Fin 1024)
    (hm : xm (ix2 r (0 : Fin 1)) = ((m : ℝ) : EReal)) (hl : xl (ix2 r (0 : Fin 1)) = ((l : ℝ) : EReal)) :
    stepM (grid0.coords t) (iblk0 V c 0 t) (iblk0 V c 1 t) xm (ix2 r (0 : Fin 1))
        = ((max m (Cert.Spec.tileMax a b cs NB CAP (prow t.val (tlt t) r) (jOf t.val)) : ℝ) : EReal)
      ∧ stepL (grid0.coords t) (iblk0 V c 0 t) (iblk0 V c 1 t) xm xl (ix2 r (0 : Fin 1))
        = ((Real.exp (m - max m (Cert.Spec.tileMax a b cs NB CAP (prow t.val (tlt t) r) (jOf t.val))) * l
            + ∑ q : Fin 1024, Real.exp (Cert.Spec.logit a b cs NB CAP (prow t.val (tlt t) r) (Cert.Spec.col (jOf t.val) q)
                - max m (Cert.Spec.tileMax a b cs NB CAP (prow t.val (tlt t) r) (jOf t.val))) : ℝ) : EReal) := by
  obtain ⟨-, -, -, -, -, -, -, -, -, -, e10, e11⟩ := idx_facts t
  have key := Cert.KernelIdeal.Pay.step_next (grid0.coords t) (qBlk (grid0.coords t) (iblk0 V c 0 t)) (kBlk (grid0.coords t) (iblk0 V c 0 t))
    (iblk0 V c 1 t) (Qof a b t.val (tlt t)) (Kof a b t.val) (Cert.Spec.scl cs CAP) (hq_at V c a b hz t) (hk_at V c a b hz t) (hs_at V c cs hs t) xm xl m l r hm hl
  rw [e10, e11] at key
  simp only [tmax_eq a b cs t.val (tlt t), tl_eq a b cs t.val (tlt t)] at key
  exact key

include hz hs in
/-- After point n the scratch buffers hold, at row r of the row block, the real walk's running maximum and sum over the
    tiles 0 … n % 16 of that row. -/
theorem inv : ∀ (n : ℕ) (hn : n < cfg0.N) (r : Fin 1024),
    (outsAt0 V c n hn).2.1 (ix2 r (0 : Fin 1)) = (((Cert.Spec.onl a b cs NB CAP (prow n (tlt ⟨n, hn⟩) r) (n % 16)).1 : ℝ) : EReal)
    ∧ (outsAt0 V c n hn).2.2 (ix2 r (0 : Fin 1)) = (((Cert.Spec.onl a b cs NB CAP (prow n (tlt ⟨n, hn⟩) r) (n % 16)).2 : ℝ) : EReal) := by
  intro n
  induction n with
  | zero =>
    intro hn r
    have hc1 : ¬condLast (grid0.coords ⟨0, hn⟩) := fun h => by
      have := (hcondLast ⟨0, hn⟩).mp h; dsimp only at this; omega
    have h := outsAt0_first V c ⟨0, hn⟩ (Nat.zero_mod 16) hc1
    dsimp only at h
    rw [h]; dsimp only
    rw [mFirst_eq, lFirst_eq]
    exact first_at V c a b cs hz hs ⟨0, hn⟩ (Nat.zero_mod 16) r
  | succ n ih =>
    intro hn r
    by_cases h0 : (n + 1) % 16 = 0
    · have hc1 : ¬condLast (grid0.coords ⟨n + 1, hn⟩) := fun h => by
        have := (hcondLast ⟨n + 1, hn⟩).mp h; dsimp only at this; omega
      have h := outsAt0_first V c ⟨n + 1, hn⟩ h0 hc1
      dsimp only at h
      rw [h]; dsimp only
      rw [mFirst_eq, lFirst_eq]
      exact first_at V c a b cs hz hs ⟨n + 1, hn⟩ h0 r
    · obtain ⟨ihm, ihl⟩ := ih (Nat.lt_of_succ_lt hn) r
      have hN : n + 1 < 256 := tlt ⟨n + 1, hn⟩
      have hp : prow n (tlt ⟨n, Nat.lt_of_succ_lt hn⟩) r = prow (n + 1) hN r := Fin.ext (by show 1024 * (n / 16) + r.val = 1024 * ((n + 1) / 16) + r.val; omega)
      rw [hp] at ihm ihl
      have key := next_at V c a b cs hz hs ⟨n + 1, hn⟩ _ _ _ _ r ihm ihl
      dsimp only at key
      rw [onl_step a b cs _ n h0]
      by_cases h1 : (n + 1) % 16 = 15
      · have h := outsAt0_last V c ⟨n + 1, hn⟩ h0 h1
        dsimp only at h
        simp only [Nat.add_sub_cancel] at h
        rw [h]; dsimp only
        rw [mLast_eq, lLast_eq]
        exact key
      · have h := outsAt0_mid V c ⟨n + 1, hn⟩ h0 h1
        dsimp only at h
        simp only [Nat.add_sub_cancel] at h
        rw [h]; dsimp only
        rw [mMid_eq, lMid_eq]
        exact key

end

/-! ## The output array -/

section
variable (V : (c : Dev nD) → (b : Ref sig .tc) → Buf (Elt Ideal) ((c : Thread nD τ).loc b)) (c : Dev nD)
  (a b : Fin 8192 → Fin 256 → ℝ) (cs : ℝ)
  (hz : ∀ p k, V c main_v4 (ix2 p k) = ((Cert.Spec.rows a b p k : ℝ) : EReal))
  (hs : V c main_v2 (ix2 (0 : Fin 1) (0 : Fin 1)) = ((Cert.Spec.scl cs CAP : ℝ) : EReal))

/-- The column of the rows' logsumexps. -/
def lseArr : S16384x1.Idx → EReal :=
  fun i => ((Cert.Spec.lse a b cs NB CAP ⟨(i 0).val, idx2_lt0 i⟩ : ℝ) : EReal)

include hz hs in
/-- At a last tile the output's staging buffer holds, row by row, the logsumexp of the row block's rows. -/
theorem out_last (t : Fin cfg0.N) (h0 : ¬t.val % 16 = 0) (h1 : t.val % 16 = 15) (r : Fin 1024) :
    (outsAt0 V c t.val t.isLt).1 (ix2 r (0 : Fin 1)) = ((Cert.Spec.lse a b cs NB CAP (prow t.val (tlt t) r) : ℝ) : EReal) := by
  have hN := tlt t
  rw [outsAt0_last V c t h0 h1]; dsimp only
  rw [oLast_eq]
  obtain ⟨ihm, ihl⟩ := inv V c a b cs hz hs (t.val - 1) (prevLt t) r
  have hp : prow (t.val - 1) (tlt ⟨t.val - 1, prevLt t⟩) r = prow t.val (tlt t) r :=
    Fin.ext (by show 1024 * ((t.val - 1) / 16) + r.val = 1024 * (t.val / 16) + r.val; omega)
  rw [hp] at ihm ihl
  obtain ⟨km, kl⟩ := next_at V c a b cs hz hs t _ _ _ _ r ihm ihl
  have hsucc : t.val - 1 + 1 = t.val := by omega
  have hst := onl_step a b cs (prow t.val (tlt t) r) (t.val - 1) (by rw [hsucc]; exact h0)
  rw [hsucc, h1] at hst
  have hpos := Cert.Spec.onl_snd_pos a b cs NB CAP (prow t.val (tlt t) r) 15
  rw [hst] at hpos
  refine (Cert.KernelIdeal.Pay.last_apply _ _ _ _ r hpos km kl).trans ?_
  unfold Cert.Spec.lse
  rw [← Cert.Spec.onl_fst, ← Cert.Spec.onl_snd, hst]

/-- A block of 1024 rows that agrees, row by row, with rows 1024·(t / 16) … of a column is what point t's block of the
    column reads. -/
theorem cut2_eq (t : Fin cfg0.N) (X : Vec Ideal S1024x1 .f32) (G : S16384x1.Idx → EReal)
    (h : ∀ (q : Fin 1024) (z : Fin 1) (i : S16384x1.Idx), (i 0).val = 1024 * (t.val / 16) + q.val → X (ix2 q z) = G i) :
    (cfg0.win 2).cut (grid0.coords t) X = ((cfg0.win 2).blk t).view.read (Elt Ideal) G := by
  obtain ⟨-, -, -, -, e4, e5, -⟩ := idx_facts t
  funext j
  show X j = G (((cfg0.win 2).blk t).view.emb j)
  refine (congrArg X (eq_ix2 (n0 := 1024) (n1 := 1) j)).trans (h _ _ _ ?_)
  show win0_2.index t 0 * 1024 + 1 * (j 0).val = 1024 * (t.val / 16) + (j 0).val
  rw [e4]; omega

include hz hs in
/-- What a last tile writes back is its block of the column of logsumexps. -/
theorem flushed2_eq (t : Fin cfg0.N) (hf : (cfg0.win 2).flush t = true) :
    (dat0 V c).flushed 2 t = ((cfg0.win 2).blk t).view.read (Elt Ideal) (lseArr a b cs) := by
  have h1 : t.val % 16 = 15 := (flush0_2 t).mp hf
  have h0 : ¬t.val % 16 = 0 := by omega
  show (cfg0.win 2).cut (grid0.coords t) ((dat0 V c).after 2 t) = _
  rw [after0_2]
  refine cut2_eq t _ _ fun q z i hi => ?_
  obtain rfl : z = 0 := Subsingleton.elim _ _
  refine (out_last V c a b cs hz hs t h0 h1 q).trans ?_
  unfold lseArr
  exact congrArg (fun p => ((Cert.Spec.lse a b cs NB CAP p : ℝ) : EReal)) (Fin.ext hi.symm)

theorem mem_blk2 (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v5).slice (win0_2.rect t)).set ↔ _
  rw [View.set_slice_whole, Rect.mem_set_unit]
  exact Iff.rfl

/-- Row p of the column is in the block of the last tile of its row block, which is written back. -/
theorem cover2 (i : S16384x1.Idx) :
    ∃ t : Fin cfg0.N, (cfg0.win 2).flush t = true ∧ i ∈ ((cfg0.win 2).blk t).view.set := by
  have h0 : (i 0).val < 16384 := idx2_lt0 i
  have h1 : (i 1).val < 1 := idx2_lt1 i
  have hN : cfg0.N = 256 := N_0
  have ht : 16 * ((i 0).val / 1024) + 15 < cfg0.N := by rw [hN]; omega
  obtain ⟨-, -, -, -, e4, e5, -⟩ := idx_facts ⟨16 * ((i 0).val / 1024) + 15, ht⟩
  refine ⟨⟨16 * ((i 0).val / 1024) + 15, ht⟩, (flush0_2 _).mpr (by show (16 * ((i 0).val / 1024) + 15) % 16 = 15; omega), ?_⟩
  rw [mem_blk2]
  intro a
  match a with
  | ⟨0, _⟩ =>
    show win0_2.index ⟨16 * ((i 0).val / 1024) + 15, ht⟩ 0 * 1024 ≤ (i 0).val ∧ (i 0).val < win0_2.index ⟨16 * ((i 0).val / 1024) + 15, ht⟩ 0 * 1024 + 1024
    rw [e4]; show (16 * ((i 0).val / 1024) + 15) / 16 * 1024 ≤ (i 0).val ∧ (i 0).val < (16 * ((i 0).val / 1024) + 15) / 16 * 1024 + 1024; omega
  | ⟨1, _⟩ =>
    show win0_2.index ⟨16 * ((i 0).val / 1024) + 15, ht⟩ 1 * 1 ≤ (i 1).val ∧ (i 1).val < win0_2.index ⟨16 * ((i 0).val / 1024) + 15, ht⟩ 1 * 1 + 1
    rw [e5]; omega

include hz hs in
/-- THE OUTPUT ARRAY after the region: the column of the rows' logsumexps. -/
theorem final2 : (dat0 V c).arrAt 2 cfg0.N = lseArr a b cs :=
  (dat0 V c).arrAt_eq_of_cover 2 (lseArr a b cs) (fun t hf => flushed2_eq V c a b cs hz hs t hf) cover2

include hz hs in
theorem final0 (p : Fin 16384) :
    (dat0 (F := Ideal) V c).arrAt 2 cfg0.N (ix2 p (0 : Fin 1)) = ((Cert.Spec.lse a b cs NB CAP p : ℝ) : EReal) := by
  rw [final2 V c a b cs hz hs]
  rfl

end

end Cert.KernelIdeal.Lse

end
-- ==== Proof.RefRunHand.lean ====
/-
  The reference program's run, read back stage by stage.

  The program is a straight line of 67 host operations. The line is cut into ten stretches, each with few values
  entering and few leaving: the masked similarities, the table of partners, the rows' maxima (in two steps), the shifted similarities
  and their exponentials, the log-probabilities, the start indices of the gather, their in-bounds test, the gathered
  values, and the mean of their negatives. What a stretch writes is the stage of that name over the arguments; what it
  does not write it leaves as it was. Composed, the last buffer holds the last stage, and the arguments are unchanged.
-/
import proofs.«111248_j26912265077430_1_alg».proof.Proof.RefRead

noncomputable section

namespace Cert.RefSide

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- Operations 1 to 17: the masked similarities. -/
abbrev opsA : List (HloOp τ sig (Elt F)) :=
  [ binary main_arg0 main_arg1 main_v0 ((fun a b => concatenate S16384x256 0 [⟨S8192x256, a⟩, ⟨S8192x256, b⟩] concatenates_S8192x256_S8192x256_S16384x256_d0) : (⟨S8192x256, .f32⟩ : BufTy).Contents (Elt F) → (⟨S8192x256, .f32⟩ : BufTy).Contents (Elt F) → (⟨S16384x256, .f32⟩ : BufTy).Contents (Elt F)),
    unary main_arg2 main_v1 (Host.exp : (⟨S_, .f32⟩ : BufTy).Contents (Elt F) → (⟨S_, .f32⟩ : BufTy).Contents (Elt F)),
    nullary main_cst (constant S_ .f32 0x42C80000#32),
    binary main_v1 main_cst main_v2 (minimumf : (⟨S_, .f32⟩ : BufTy).Contents (Elt F) → (⟨S_, .f32⟩ : BufTy).Contents (Elt F) → (⟨S_, .f32⟩ : BufTy).Contents (Elt F)),
    unary main_v0 main_v3 ((transpose S256x16384 [1, 0] · transposes_S16384x256_S256x16384_1_0) : (⟨S16384x256, .f32⟩ : BufTy).Contents (Elt F) → (⟨S256x16384, .f32⟩ : BufTy).Contents (Elt F)),
    binary main_v0 main_v3 main_v4 ((fun l r => Host.dotGeneral dot_S16384x256_S256x16384_S16384x16384_1_0_0_1_n_n none l r) : (⟨S16384x256, .f32⟩ : BufTy).Contents (Elt F) → (⟨S256x16384, .f32⟩ : BufTy).Contents (Elt F) → (⟨S16384x16384, .f32⟩ : BufTy).Contents (Elt F)),
    unary main_v2 main_v5 (broadcastInDim S16384x16384 ![] bcast_S_S16384x16384 : (⟨S_, .f32⟩ : BufTy).Contents (Elt F) → (⟨S16384x16384, .f32⟩ : BufTy).Contents (Elt F)),
    binary main_v4 main_v5 main_v6 (mulf : (⟨S16384x16384, .f32⟩ : BufTy).Contents (Elt F) → (⟨S16384x16384, .f32⟩ : BufTy).Contents (Elt F) → (⟨S16384x16384, .f32⟩ : BufTy).Contents (Elt F)),
    nullary main_v7 (iotaInDim S16384x16384 32 0),
    nullary main_v8 (iotaInDim S16384x16384 32 1),
    nullary main_c (constantI S_ 32 0#32),
    unary main_c main_v9 (broadcastInDim S16384x16384 ![] bcast_S_S16384x16384 : (⟨S_, .i32⟩ : BufTy).Contents (Elt F) → (⟨S16384x16384, .i32⟩ : BufTy).Contents (Elt F)),
    binary main_v7 main_v9 main_v10 (addi : (⟨S16384x16384, .i32⟩ : BufTy).Contents (Elt F) → (⟨S16384x16384, .i32⟩ : BufTy).Contents (Elt F) → (⟨S16384x16384, .i32⟩ : BufTy).Contents (Elt F)),
    binary main_v10 main_v8 main_v11 (cmpi .eq : (⟨S16384x16384, .i32⟩ : BufTy).Contents (Elt F) → (⟨S16384x16384, .i32⟩ : BufTy).Contents (Elt F) → (⟨S16384x16384, .i1⟩ : BufTy).Contents (Elt F)),
    nullary main_cst_0 (constant S_ .f32 0xCE6E6B28#32),
    TRef.unary (TRef.of (T := ⟨S_, .f32⟩) main_cst_0) (TRef.of (T := ⟨S16384x16384, .f32⟩) main_call0_v0) (broadcastInDim S16384x16384 ![] bcast_S_S16384x16384),
    TRef.ternary (TRef.of (T := ⟨S16384x16384, .i1⟩) main_v11) (TRef.of (T := ⟨S16384x16384, .f32⟩) main_call0_v0) (TRef.of (T := ⟨S16384x16384, .f32⟩) main_v6) (TRef.of (T := ⟨S16384x16384, .f32⟩) main_v12) select ]

/-- Operations 18 to 23: the table of partners. -/
abbrev opsB : List (HloOp τ sig (Elt F)) :=
  [ nullary main_v13 (iotaInDim S8192 32 0),
    nullary main_c_1 (constantI S_ 32 8192#32),
    unary main_c_1 main_v14 (broadcastInDim S8192 ![] bcast_S_S8192 : (⟨S_, .i32⟩ : BufTy).Contents (Elt F) → (⟨S8192, .i32⟩ : BufTy).Contents (Elt F)),
    binary main_v14 main_v13 main_v15 (addi : (⟨S8192, .i32⟩ : BufTy).Contents (Elt F) → (⟨S8192, .i32⟩ : BufTy).Contents (Elt F) → (⟨S8192, .i32⟩ : BufTy).Contents (Elt F)),
    nullary main_v16 (iotaInDim S8192 32 0),
    binary main_v15 main_v16 main_v17 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F)) ]

/-- Operations 24 and 25: the rows' maxima as the reduction computes them. -/
abbrev opsX : List (HloOp τ sig (Elt F)) :=
  [ TRef.nullary (TRef.of (T := ⟨S_, .f32⟩) main_call1_cst) (constant S_ .f32 0xFF800000#32),
    TRef.binary (TRef.of (T := ⟨S16384x16384, .f32⟩) main_v12) (TRef.of (T := ⟨S_, .f32⟩) main_call1_cst) (TRef.of (T := ⟨S16384, .f32⟩) main_call1_v0) (fun x v => Host.reduce FloatOps.maximumf x v reducesTo_S16384x16384_S16384_d1 h_S_) ]

/-- Operations 26 to 28: the rows' maxima. -/
abbrev opsY : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf ]

/-- Operations 29 to 32: the shifted similarities and their exponentials. -/
abbrev opsC2 : List (HloOp τ sig (Elt F)) :=
  [ TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x16384, .f32⟩) main_call1_v4) (broadcastInDim S16384x16384 ![0, 1] bcast_S16384x1_S16384x16384_0_1),
    TRef.binary (TRef.of (T := ⟨S16384x16384, .f32⟩) main_v12) (TRef.of (T := ⟨S16384x16384, .f32⟩) main_call1_v4) (TRef.of (T := ⟨S16384x16384, .f32⟩) main_call1_v5) subf,
    TRef.unary (TRef.of (T := ⟨S16384x16384, .f32⟩) main_call1_v5) (TRef.of (T := ⟨S16384x16384, .f32⟩) main_call1_v6) Host.exp ]

/-- Operations 33 to 38: the rows' sums, their logarithms, the log-probabilities. -/
abbrev opsC3 : List (HloOp τ sig (Elt F)) :=
  [ TRef.nullary (TRef.of (T := ⟨S_, .f32⟩) main_call1_cst_1) (constant S_ .f32 0x00000000#32),
    TRef.binary (TRef.of (T := ⟨S16384x16384, .f32⟩) main_call1_v6) (TRef.of (T := ⟨S_, .f32⟩) main_call1_cst_1) (TRef.of (T := ⟨S16384, .f32⟩) main_call1_v7) (fun x v => Host.reduceAdd x v reducesTo_S16384x16384_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x16384, .f32⟩) main_call1_v10) (broadcastInDim S16384x16384 ![0, 1] bcast_S16384x1_S16384x16384_0_1),
    TRef.binary (TRef.of (T := ⟨S16384x16384, .f32⟩) main_call1_v5) (TRef.of (T := ⟨S16384x16384, .f32⟩) main_call1_v10) (TRef.of (T := ⟨S16384x16384, .f32⟩) main_v18) subf ]

/-- Operations 39 to 47: the start indices of the gather. -/
abbrev opsD1 : List (HloOp τ sig (Elt F)) :=
  [ unary main_v17 main_v19 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16384x1, .i32⟩) main_call2_v0) (broadcastInDim S16384x1 ![] bcast_S_S16384x1),
    TRef.binary (TRef.of (T := ⟨S16384x1, .i32⟩) main_v19) (TRef.of (T := ⟨S16384x1, .i32⟩) main_call2_v0) (TRef.of (T := ⟨S16384x1, .i1⟩) main_call2_v1) (cmpi .slt),
    TRef.nullary (TRef.of (T := ⟨S_, .i32⟩) main_call2_c_0) (constantI S_ 32 16384#32),
    TRef.unary (TRef.of (T := ⟨S_, .i32⟩) main_call2_c_0) (TRef.of (T := ⟨S16384x1, .i32⟩) main_call2_v2) (broadcastInDim S16384x1 ![] bcast_S_S16384x1),
    TRef.binary (TRef.of (T := ⟨S16384x1, .i32⟩) main_v19) (TRef.of (T := ⟨S16384x1, .i32⟩) main_call2_v2) (TRef.of (T := ⟨S16384x1, .i32⟩) main_call2_v3) addi,
    TRef.ternary (TRef.of (T := ⟨S16384x1, .i1⟩) main_call2_v1) (TRef.of (T := ⟨S16384x1, .i32⟩) main_call2_v3) (TRef.of (T := ⟨S16384x1, .i32⟩) main_v19) (TRef.of (T := ⟨S16384x1, .i32⟩) main_call2_v4) select,
    TRef.reshape (TRef.of (T := ⟨S16384x1, .i32⟩) main_call2_v4) (TRef.of (T := ⟨S16384x1x1, .i32⟩) main_call2_v5) rfl shapeCasts_S16384x1_S16384x1x1 ]

/-- Operations 48 to 57: the in-bounds test of the start indices. -/
abbrev opsD2 : List (HloOp τ sig (Elt F)) :=
  [ TRef.nullary (TRef.of (T := ⟨S1, .i32⟩) main_call2_c_1) (constantI S1 32 16383#32),
    TRef.nullary (TRef.of (T := ⟨S_, .i32⟩) main_call2_c_2) (constantI S_ 32 0#32),
    TRef.unary (TRef.of (T := ⟨S_, .i32⟩) main_call2_c_2) (TRef.of (T := ⟨S16384x1x1, .i32⟩) main_call2_v6) (broadcastInDim S16384x1x1 ![] bcast_S_S16384x1x1),
    TRef.binary (TRef.of (T := ⟨S16384x1x1, .i32⟩) main_call2_v5) (TRef.of (T := ⟨S16384x1x1, .i32⟩) main_call2_v6) (TRef.of (T := ⟨S16384x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S16384x1x1, .i32⟩) main_call2_v9) (broadcastInDim S16384x1x1 ![0, 1, 2] bcast_S1x1x1_S16384x1x1_0_1_2),
    TRef.binary (TRef.of (T := ⟨S16384x1x1, .i32⟩) main_call2_v5) (TRef.of (T := ⟨S16384x1x1, .i32⟩) main_call2_v9) (TRef.of (T := ⟨S16384x1x1, .i1⟩) main_call2_v10) (cmpi .sle),
    TRef.binary (TRef.of (T := ⟨S16384x1x1, .i1⟩) main_call2_v7) (TRef.of (T := ⟨S16384x1x1, .i1⟩) main_call2_v10) (TRef.of (T := ⟨S16384x1x1, .i1⟩) main_call2_v11) andi,
    TRef.nullary (TRef.of (T := ⟨S_, .i1⟩) main_call2_c_3) (constantI S_ 1 1#1),
    TRef.binary (TRef.of (T := ⟨S16384x1x1, .i1⟩) main_call2_v11) (TRef.of (T := ⟨S_, .i1⟩) main_call2_c_3) (TRef.of (T := ⟨S16384x1, .i1⟩) main_call2_v12) (fun x v => Host.reduce IntOp.andi x v reducesTo_S16384x1x1_S16384x1_d2 h_S_) ]

/-- Operations 58 to 61: the gathered log-probabilities. -/
abbrev opsD3 : List (HloOp τ sig (Elt F)) :=
  [ TRef.binary (TRef.of (T := ⟨S16384x16384, .f32⟩) main_v18) (TRef.of (T := ⟨S16384x1x1, .i32⟩) main_call2_v5) (TRef.of (T := ⟨S16384x1, .f32⟩) main_call2_v13) (fun x i => Host.gather gather_S16384x16384_S16384x1x1_S16384x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S16384x1, .f32⟩) main_call2_v14) (broadcastInDim S16384x1 ![] bcast_S_S16384x1),
    TRef.ternary (TRef.of (T := ⟨S16384x1, .i1⟩) main_call2_v12) (TRef.of (T := ⟨S16384x1, .f32⟩) main_call2_v13) (TRef.of (T := ⟨S16384x1, .f32⟩) main_call2_v14) (TRef.of (T := ⟨S16384x1, .f32⟩) main_v20) select ]

/-- Operations 62 to 67: negated, summed and divided. -/
abbrev opsD4 : List (HloOp τ sig (Elt F)) :=
  [ reshape main_v20 main_v21 rfl shapeCasts_S16384x1_S16384,
    unary main_v21 main_v22 (Host.negf : (⟨S16384, .f32⟩ : BufTy).Contents (Elt F) → (⟨S16384, .f32⟩ : BufTy).Contents (Elt F)),
    nullary main_cst_2 (constant S_ .f32 0x00000000#32),
    binary main_v22 main_cst_2 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_3 (constant S_ .f32 0x46800000#32),
    binary main_v23 main_cst_3 main_v24 (Host.divf : (⟨S_, .f32⟩ : BufTy).Contents (Elt F) → (⟨S_, .f32⟩ : BufTy).Contents (Elt F) → (⟨S_, .f32⟩ : BufTy).Contents (Elt F)) ]

theorem ops_split : (ops (F := F)) = opsA ++ (opsB ++ (opsX ++ (opsY ++ (opsC2 ++ (opsC3 ++ (opsD1 ++ (opsD2 ++ (opsD3 ++ opsD4)))))))) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih =>
    show after (l ++ l₂) (op.result V) = after l₂ (after l (op.result V))
    exact ih _

/-! ### What each stretch computes, and what it leaves alone -/

set_option maxRecDepth 65536 in
theorem chunkA_main_v12 (V : Valuation τ sig (Elt F)) :
    after (opsA (F := F)) V (Proc.devRef .tc main_v12)
      = val_main_v12 (F := F) (V (Proc.devRef .tc main_arg0)) (V (Proc.devRef .tc main_arg1)) (V (Proc.devRef .tc main_arg2)) := by
  after_results_simp
  rfl

set_option maxRecDepth 65536 in
theorem chunkB_main_v17 (V : Valuation τ sig (Elt F)) :
    after (opsB (F := F)) V (Proc.devRef .tc main_v17) = val_main_v17 (F := F) := by
  after_results_simp
  rfl

set_option maxRecDepth 65536 in
theorem frameB_main_v12 (V : Valuation τ sig (Elt F)) :
    after (opsB (F := F)) V (Proc.devRef .tc main_v12) = V (Proc.devRef .tc main_v12) := by
  after_results_simp

/-- The reduction, over whatever array stands in the operand's buffer. -/
theorem chunkX_main_call1_v0 (V : Valuation τ sig (Elt F)) (y : (⟨S16384x16384, .f32⟩ : BufTy).Contents (Elt F))
    (h : V (Proc.devRef .tc main_v12) = y) :
    after (opsX (F := F)) V (Proc.devRef .tc main_call1_v0)
      = Host.reduce FloatOps.maximumf y (constant S_ .f32 0xFF800000#32) reducesTo_S16384x16384_S16384_d1 h_S_ := by
  after_results_simp
  rw [h]
  simp only [cast_eq]

set_option maxRecDepth 65536 in
theorem frameX_main_v12 (V : Valuation τ sig (Elt F)) :
    after (opsX (F := F)) V (Proc.devRef .tc main_v12) = V (Proc.devRef .tc main_v12) := by
  after_results_simp

set_option maxRecDepth 65536 in
theorem frameX_main_v17 (V : Valuation τ sig (Elt F)) :
    after (opsX (F := F)) V (Proc.devRef .tc main_v17) = V (Proc.devRef .tc main_v17) := by
  after_results_simp

/-- The larger of −∞ and whatever array stands in the reduction's buffer. -/
theorem chunkY_main_call1_v2 (V : Valuation τ sig (Elt F)) (y : (⟨S16384, .f32⟩ : BufTy).Contents (Elt F))
    (h : V (Proc.devRef .tc main_call1_v0) = y) :
    after (opsY (F := F)) V (Proc.devRef .tc main_call1_v2)
      = maximumf (broadcastInDim S16384 ![] bcast_S_S16384 (constant S_ .f32 0xFF800000#32)) y := by
  after_results_simp
  rw [h]
  simp only [cast_eq]

set_option maxRecDepth 65536 in
theorem frameY_main_v12 (V : Valuation τ sig (Elt F)) :
    after (opsY (F := F)) V (Proc.devRef .tc main_v12) = V (Proc.devRef .tc main_v12) := by
  after_results_simp

set_option maxRecDepth 65536 in
theorem frameY_main_v17 (V : Valuation τ sig (Elt F)) :
    after (opsY (F := F)) V (Proc.devRef .tc main_v17) = V (Proc.devRef .tc main_v17) := by
  after_results_simp

set_option maxRecDepth 65536 in
set_option maxHeartbeats 1000000 in
theorem chunkC2_main_call1_v5 (V : Valuation τ sig (Elt F)) (x0 x1 : (⟨S8192x256, .f32⟩ : BufTy).Contents (Elt F)) (x2 : (⟨S_, .f32⟩ : BufTy).Contents (Elt F))
    (h_main_call1_v2 : V (Proc.devRef .tc main_call1_v2) = val_main_call1_v2 (F := F) x0 x1 x2)
    (h_main_v12 : V (Proc.devRef .tc main_v12) = val_main_v12 (F := F) x0 x1 x2) :
    after (opsC2 (F := F)) V (Proc.devRef .tc main_call1_v5) = val_main_call1_v5 (F := F) x0 x1 x2 := by
  after_results_simp
  rw [h_main_call1_v2, h_main_v12]
  rfl

set_option maxRecDepth 65536 in
set_option maxHeartbeats 1000000 in
theorem chunkC2_main_call1_v6 (V : Valuation τ sig (Elt F)) (x0 x1 : (⟨S8192x256, .f32⟩ : BufTy).Contents (Elt F)) (x2 : (⟨S_, .f32⟩ : BufTy).Contents (Elt F))
    (h_main_call1_v2 : V (Proc.devRef .tc main_call1_v2) = val_main_call1_v2 (F := F) x0 x1 x2)
    (h_main_v12 : V (Proc.devRef .tc main_v12) = val_main_v12 (F := F) x0 x1 x2) :
    after (opsC2 (F := F)) V (Proc.devRef .tc main_call1_v6) = val_main_call1_v6 (F := F) x0 x1 x2 := by
  after_results_simp
  rw [h_main_call1_v2, h_main_v12]
  rfl

set_option maxRecDepth 65536 in
theorem frameC2_main_v17 (V : Valuation τ sig (Elt F)) :
    after (opsC2 (F := F)) V (Proc.devRef .tc main_v17) = V (Proc.devRef .tc main_v17) := by
  after_results_simp

set_option maxRecDepth 65536 in
set_option maxHeartbeats 1000000 in
theorem chunkC3_main_v18 (V : Valuation τ sig (Elt F)) (x0 x1 : (⟨S8192x256, .f32⟩ : BufTy).Contents (Elt F)) (x2 : (⟨S_, .f32⟩ : BufTy).Contents (Elt F))
    (h_main_call1_v5 : V (Proc.devRef .tc main_call1_v5) = val_main_call1_v5 (F := F) x0 x1 x2)
    (h_main_call1_v6 : V (Proc.devRef .tc main_call1_v6) = val_main_call1_v6 (F := F) x0 x1 x2) :
    after (opsC3 (F := F)) V (Proc.devRef .tc main_v18) = val_main_v18 (F := F) x0 x1 x2 := by
  after_results_simp
  rw [h_main_call1_v5, h_main_call1_v6]
  rfl

set_option maxRecDepth 65536 in
theorem frameC3_main_v17 (V : Valuation τ sig (Elt F)) :
    after (opsC3 (F := F)) V (Proc.devRef .tc main_v17) = V (Proc.devRef .tc main_v17) := by
  after_results_simp

set_option maxRecDepth 65536 in
set_option maxHeartbeats 1000000 in
theorem chunkD1_main_call2_v5 (V : Valuation τ sig (Elt F)) (x0 x1 : (⟨S8192x256, .f32⟩ : BufTy).Contents (Elt F)) (x2 : (⟨S_, .f32⟩ : BufTy).Contents (Elt F))
    (h_main_v17 : V (Proc.devRef .tc main_v17) = val_main_v17 (F := F)) :
    after (opsD1 (F := F)) V (Proc.devRef .tc main_call2_v5) = val_main_call2_v5 (F := F) := by
  after_results_simp
  rw [h_main_v17]
  rfl

set_option maxRecDepth 65536 in
theorem frameD1_main_v18 (V : Valuation τ sig (Elt F)) :
    after (opsD1 (F := F)) V (Proc.devRef .tc main_v18) = V (Proc.devRef .tc main_v18) := by
  after_results_simp

set_option maxRecDepth 65536 in
set_option maxHeartbeats 1000000 in
theorem chunkD2_main_call2_v12 (V : Valuation τ sig (Elt F)) (x0 x1 : (⟨S8192x256, .f32⟩ : BufTy).Contents (Elt F)) (x2 : (⟨S_, .f32⟩ : BufTy).Contents (Elt F))
    (h_main_call2_v5 : V (Proc.devRef .tc main_call2_v5) = val_main_call2_v5 (F := F)) :
    after (opsD2 (F := F)) V (Proc.devRef .tc main_call2_v12) = val_main_call2_v12 (F := F) := by
  after_results_simp
  rw [h_main_call2_v5]
  rfl

set_option maxRecDepth 65536 in
theorem frameD2_main_v18 (V : Valuation τ sig (Elt F)) :
    after (opsD2 (F := F)) V (Proc.devRef .tc main_v18) = V (Proc.devRef .tc main_v18) := by
  after_results_simp

set_option maxRecDepth 65536 in
theorem frameD2_main_call2_v5 (V : Valuation τ sig (Elt F)) :
    after (opsD2 (F := F)) V (Proc.devRef .tc main_call2_v5) = V (Proc.devRef .tc main_call2_v5) := by
  after_results_simp

set_option maxRecDepth 65536 in
set_option maxHeartbeats 1000000 in
theorem chunkD3_main_v20 (V : Valuation τ sig (Elt F)) (x0 x1 : (⟨S8192x256, .f32⟩ : BufTy).Contents (Elt F)) (x2 : (⟨S_, .f32⟩ : BufTy).Contents (Elt F))
    (h_main_v18 : V (Proc.devRef .tc main_v18) = val_main_v18 (F := F) x0 x1 x2)
    (h_main_call2_v5 : V (Proc.devRef .tc main_call2_v5) = val_main_call2_v5 (F := F))
    (h_main_call2_v12 : V (Proc.devRef .tc main_call2_v12) = val_main_call2_v12 (F := F)) :
    after (opsD3 (F := F)) V (Proc.devRef .tc main_v20) = val_main_v20 (F := F) x0 x1 x2 := by
  after_results_simp
  rw [h_main_v18, h_main_call2_v5, h_main_call2_v12]
  rfl

set_option maxRecDepth 65536 in
set_option maxHeartbeats 1000000 in
theorem chunkD4_main_v24 (V : Valuation τ sig (Elt F)) (x0 x1 : (⟨S8192x256, .f32⟩ : BufTy).Contents (Elt F)) (x2 : (⟨S_, .f32⟩ : BufTy).Contents (Elt F))
    (h_main_v20 : V (Proc.devRef .tc main_v20) = val_main_v20 (F := F) x0 x1 x2) :
    after (opsD4 (F := F)) V (Proc.devRef .tc main_v24) = val_main_v24 (F := F) x0 x1 x2 := by
  after_results_simp
  rw [h_main_v20]
  rfl

/-! ### The whole line -/

/-- After the whole line the last buffer holds the last stage over the arguments' contents. -/
theorem after_ops (V : Valuation τ sig (Elt F)) :
    after (ops (F := F)) V (Proc.devRef .tc main_v24)
      = val_main_v24 (F := F) (V (Proc.devRef .tc main_arg0)) (V (Proc.devRef .tc main_arg1)) (V (Proc.devRef .tc main_arg2)) := by
  rw [ops_split, after_append, after_append, after_append, after_append, after_append, after_append, after_append,
    after_append, after_append]
  generalize hx0 : V (Proc.devRef .tc main_arg0) = x0
  generalize hx1 : V (Proc.devRef .tc main_arg1) = x1
  generalize hx2 : V (Proc.devRef .tc main_arg2) = x2
  -- the contents after each stretch
  generalize hWA : after (opsA (F := F)) V = WA
  generalize hWB : after (opsB (F := F)) WA = WB
  generalize hWX : after (opsX (F := F)) WB = WX
  generalize hWY : after (opsY (F := F)) WX = WY
  generalize hW2 : after (opsC2 (F := F)) WY = W2
  generalize hW3 : after (opsC3 (F := F)) W2 = W3
  generalize hW4 : after (opsD1 (F := F)) W3 = W4
  generalize hW5 : after (opsD2 (F := F)) W4 = W5
  generalize hW6 : after (opsD3 (F := F)) W5 = W6
  have a12 : WA (Proc.devRef .tc main_v12) = val_main_v12 (F := F) x0 x1 x2 := by
    rw [← hWA, chunkA_main_v12, hx0, hx1, hx2]
  have b12 : WB (Proc.devRef .tc main_v12) = val_main_v12 (F := F) x0 x1 x2 := by
    rw [← hWB, frameB_main_v12, a12]
  have b17 : WB (Proc.devRef .tc main_v17) = val_main_v17 (F := F) := by
    rw [← hWB, chunkB_main_v17]
  have x12 : WX (Proc.devRef .tc main_v12) = val_main_v12 (F := F) x0 x1 x2 := by
    rw [← hWX, frameX_main_v12, b12]
  have x17 : WX (Proc.devRef .tc main_v17) = val_main_v17 (F := F) := by
    rw [← hWX, frameX_main_v17, b17]
  have x0' : WX (Proc.devRef .tc main_call1_v0) = val_main_call1_v0 (F := F) x0 x1 x2 := by
    rw [← hWX]; exact chunkX_main_call1_v0 WB _ b12
  have c12 : WY (Proc.devRef .tc main_v12) = val_main_v12 (F := F) x0 x1 x2 := by
    rw [← hWY, frameY_main_v12, x12]
  have c17 : WY (Proc.devRef .tc main_v17) = val_main_v17 (F := F) := by
    rw [← hWY, frameY_main_v17, x17]
  have c2 : WY (Proc.devRef .tc main_call1_v2) = val_main_call1_v2 (F := F) x0 x1 x2 := by
    rw [← hWY]; exact chunkY_main_call1_v2 WX _ x0'
  have d17 : W2 (Proc.devRef .tc main_v17) = val_main_v17 (F := F) := by
    rw [← hW2, frameC2_main_v17, c17]
  have d5 : W2 (Proc.devRef .tc main_call1_v5) = val_main_call1_v5 (F := F) x0 x1 x2 := by
    rw [← hW2]; exact chunkC2_main_call1_v5 WY x0 x1 x2 c2 c12
  have d6 : W2 (Proc.devRef .tc main_call1_v6) = val_main_call1_v6 (F := F) x0 x1 x2 := by
    rw [← hW2]; exact chunkC2_main_call1_v6 WY x0 x1 x2 c2 c12
  have e17 : W3 (Proc.devRef .tc main_v17) = val_main_v17 (F := F) := by
    rw [← hW3, frameC3_main_v17, d17]
  have e18 : W3 (Proc.devRef .tc main_v18) = val_main_v18 (F := F) x0 x1 x2 := by
    rw [← hW3]; exact chunkC3_main_v18 W2 x0 x1 x2 d5 d6
  have f18 : W4 (Proc.devRef .tc main_v18) = val_main_v18 (F := F) x0 x1 x2 := by
    rw [← hW4, frameD1_main_v18, e18]
  have f5 : W4 (Proc.devRef .tc main_call2_v5) = val_main_call2_v5 (F := F) := by
    rw [← hW4]; exact chunkD1_main_call2_v5 W3 x0 x1 x2 e17
  have g18 : W5 (Proc.devRef .tc main_v18) = val_main_v18 (F := F) x0 x1 x2 := by
    rw [← hW5, frameD2_main_v18, f18]
  have g5 : W5 (Proc.devRef .tc main_call2_v5) = val_main_call2_v5 (F := F) := by
    rw [← hW5, frameD2_main_call2_v5, f5]
  have g12 : W5 (Proc.devRef .tc main_call2_v12) = val_main_call2_v12 (F := F) := by
    rw [← hW5]; exact chunkD2_main_call2_v12 W4 x0 x1 x2 f5
  have h20 : W6 (Proc.devRef .tc main_v20) = val_main_v20 (F := F) x0 x1 x2 := by
    rw [← hW6]; exact chunkD3_main_v20 W5 x0 x1 x2 g18 g5 g12
  exact chunkD4_main_v24 W6 x0 x1 x2 h20

set_option maxRecDepth 65536 in
set_option maxHeartbeats 4000000 in
/-- Every weakly fair execution of the reference program terminates with the result buffer at the last stage over
    the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = val_main_v24 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (after_ops (F := Ideal) _), (h c main_arg0).trans (by after_results_simp <;> rfl), (h c main_arg1).trans (by after_results_simp <;> rfl), (h c main_arg2).trans (by after_results_simp <;> rfl)⟩) (run_seq scopedRefs_eq scopedSems_eq defs main (fun _ => ops) main_eq (fun _ => ops_sub) m ρ)

end Cert.RefSide

end
-- ==== Proof.RefValueA.lean ====
/-
  The reference program's masked similarities, entry by entry.

  The stacked rows are the two batches one after the other; the scale is the smaller of exp c and the cap; the
  similarity of rows p and q is their dot product times the scale; and the mask, which compares the 32-bit words of
  p and q, writes one fixed number exactly on the diagonal. So the entry (p, q) of the masked similarities is the real
  number `logit p q`.
-/
import proofs.«111248_j26912265077430_1_alg».proof.Proof.RefRead
import proofs.«111248_j26912265077430_1_alg».proof.Proof.Spec
import proofs.«111248_j26912265077430_1_alg».proof.Proof.Consts
import proofs.«111248_j26912265077430_1_alg».proof.Proof.LibRealArith
import Idealize.ShloMosaic.Lib.Affine

noncomputable section

namespace Cert.RefSide

open Cert.ReferenceIdeal Cert.ReferenceIdeal.Gen Cert.ReferenceIdeal.Read Idealize.ShloMosaic Idealize.ShloMosaic.ValueIdx
open Cert.Spec Cert.Consts

variable (x0 x1 : (⟨S8192x256, .f32⟩ : BufTy).Contents (Elt Ideal)) (x2 : (⟨S_, .f32⟩ : BufTy).Contents (Elt Ideal))
  (a b : Fin 8192 → Fin 256 → ℝ) (c : ℝ)

/-- A coordinate pair built from its own coordinates is itself. -/
theorem lidx_v4_ix2 (p q : Fin 16384) (k : Fin 256) : lidx_main_v4 (ix2 p q) k = ix2 p k := by
  funext d; match d with | ⟨0, _⟩ => rfl | ⟨1, _⟩ => rfl

theorem ridx_v4_ix2 (p q : Fin 16384) (k : Fin 256) : ridx_main_v4 (ix2 p q) k = ix2 k q := by
  funext d; match d with | ⟨0, _⟩ => rfl | ⟨1, _⟩ => rfl

theorem idx_v3_ix2 (k : Fin 256) (q : Fin 16384) : idx_main_v3 (ix2 k q) = ix2 q k := by
  funext d; match d with | ⟨0, _⟩ => rfl | ⟨1, _⟩ => rfl

/-- The stacked rows: entry (p, k) is the real number `rows p k`. -/
theorem z_apply (h0 : ∀ p k, x0 (ix2 p k) = ((a p k : ℝ) : EReal)) (h1 : ∀ p k, x1 (ix2 p k) = ((b p k : ℝ) : EReal))
    (p : Fin 16384) (k : Fin 256) :
    val_main_v0 (F := Ideal) x0 x1 (ix2 p k) = ((rows a b p k : ℝ) : EReal) := by
  unfold val_main_v0 rows
  by_cases h : p.val < 8192
  · rw [dif_pos h]
    refine (concatenate_pair_apply_left (0 : Fin S16384x256.rank) x0 x1 concatenates_S8192x256_S8192x256_S16384x256_d0
      (ix2 p k) rfl (ix2 (⟨p.val, h⟩ : Fin 8192) k) (fun d => ?_)).trans (h0 _ _)
    match d with
    | ⟨0, _⟩ => rfl
    | ⟨1, _⟩ => rfl
  · rw [dif_neg h]
    refine (concatenate_pair_apply_right (0 : Fin S16384x256.rank) x0 x1 concatenates_S8192x256_S8192x256_S16384x256_d0
      (ix2 p k) rfl rfl (ix2 (⟨p.val - 8192, by omega⟩ : Fin 8192) k) (fun d hd => ?_) ?_).trans (h1 _ _)
    · match d with
      | ⟨0, _⟩ => exact absurd rfl hd
      | ⟨1, _⟩ => rfl
    · show p.val - 8192 + 8192 = p.val
      omega

/-- The scale is the real number `scl c cap`. -/
theorem scale_apply (h2 : ∀ i, x2 i = ((c : ℝ) : EReal)) (i : S_.Idx) :
    val_main_v2 (F := Ideal) x2 i = ((scl c cap : ℝ) : EReal) := by
  show min (Ideal.exp (x2 i)) (Ideal.ofBits .f32 0x42C80000#32) = _
  rw [h2 i, Ideal.exp_coe, ofBits_cap]
  exact (EReal.coe_strictMono.monotone.map_min).symm

/-- The dot product of rows p and q. -/
theorem dot_apply (h0 : ∀ p k, x0 (ix2 p k) = ((a p k : ℝ) : EReal)) (h1 : ∀ p k, x1 (ix2 p k) = ((b p k : ℝ) : EReal))
    (p q : Fin 16384) :
    val_main_v4 (F := Ideal) x0 x1 (ix2 p q) = ((∑ k : Fin 256, rows a b p k * rows a b q k : ℝ) : EReal) := by
  rw [val_main_v4_apply, ← Cert.LibRealArith.sum_coe]
  refine Finset.sum_congr rfl fun k _ => ?_
  rw [lidx_v4_ix2, ridx_v4_ix2, val_main_v3_apply, idx_v3_ix2, z_apply x0 x1 a b h0 h1, z_apply x0 x1 a b h0 h1,
    EReal.coe_mul]

/-- The mask is 1 exactly on the diagonal. -/
theorem mask_apply (p q : Fin 16384) :
    val_main_v11 (F := Ideal) (ix2 p q) = 1#1 ↔ p = q := by
  show IntOp.cmpi .eq (IntOp.addi (BitVec.ofNat 32 p.val) (val_main_v9 (F := Ideal) (ix2 p q))) (BitVec.ofNat 32 q.val) = 1#1 ↔ _
  rw [val_main_v9_apply, val_main_c_apply, IntOp.cmpi_eq]
  show BitVec.ofNat 32 p.val + 0#32 = BitVec.ofNat 32 q.val ↔ _
  rw [BitVec.add_zero]
  constructor
  · intro h
    have h' := congrArg BitVec.toNat h
    rw [BitVec.toNat_ofNat, BitVec.toNat_ofNat] at h'
    apply Fin.ext
    omega
  · rintro rfl
    rfl

/-- Entry (p, q) of the masked similarities is the real number `logit p q`. -/
theorem logit_apply (h0 : ∀ p k, x0 (ix2 p k) = ((a p k : ℝ) : EReal)) (h1 : ∀ p k, x1 (ix2 p k) = ((b p k : ℝ) : EReal))
    (h2 : ∀ i, x2 i = ((c : ℝ) : EReal)) (p q : Fin 16384) :
    val_main_v12 (F := Ideal) x0 x1 x2 (ix2 p q) = ((logit a b c negBig cap p q : ℝ) : EReal) := by
  rw [val_main_v12_apply]
  unfold logit
  by_cases h : p = q
  · rw [(mask_apply p q).2 h, select_one, if_pos h, val_main_call0_v0_apply, val_main_cst_0_apply]
    exact ofBits_negBig
  · have hm : ¬ val_main_v11 (F := Ideal) (ix2 p q) = 1#1 := fun e => h ((mask_apply p q).1 e)
    rw [eq_zero_of_ne_one hm, select_zero, if_neg h, val_main_v6_apply,
      dot_apply x0 x1 a b h0 h1, val_main_v5_apply, scale_apply x2 c h2]
    exact (EReal.coe_mul _ _).symm

end Cert.RefSide

end
-- ==== Proof.RefValueB.lean ====
/-
  The reference program's log-probabilities, entry by entry.

  A row's maximum is a fold of max over the row's columns from −∞, which for real entries is the largest of them;
  the shifted exponentials are real, their sum is the row's sum, which is positive, so its logarithm is the real
  logarithm. So the entry (p, q) of the log-probabilities is the real number
  (logit p q − rowMax p) − log (rowSumExp p).
-/
import proofs.«111248_j26912265077430_1_alg».proof.Proof.RefValueA
import proofs.«111248_j26912265077430_1_alg».proof.Proof.SpecLaws

noncomputable section

namespace Cert.RefSide

open Cert.ReferenceIdeal Cert.ReferenceIdeal.Gen Cert.ReferenceIdeal.Read Idealize.ShloMosaic Idealize.ShloMosaic.ValueIdx
open Cert.Spec Cert.Consts

variable (x0 x1 : (⟨S8192x256, .f32⟩ : BufTy).Contents (Elt Ideal)) (x2 : (⟨S_, .f32⟩ : BufTy).Contents (Elt Ideal))
  (a b : Fin 8192 → Fin 256 → ℝ) (c : ℝ)

/-- A fold of max from −∞ over real numbers is the largest of them. -/
theorem fold_max_coe {ι : Type} [Fintype ι] [Nonempty ι] (op : EReal → EReal → EReal) [Std.Commutative op]
    [Std.Associative op] (hop : ∀ x y, op x y = max x y) (f : ι → ℝ) :
    Finset.univ.fold op ⊥ (fun k => ((f k : ℝ) : EReal))
      = ((Finset.univ.sup' Finset.univ_nonempty f : ℝ) : EReal) := by
  obtain rfl : op = max := funext fun x => funext fun y => hop x y
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' Finset.univ_nonempty f
    rw [hk, Finset.le_fold_max]
    exact Or.inr ⟨k, Finset.mem_univ k, le_rfl⟩

/-- Row p of the square array with column k put back. -/
theorem lift_row (h : S16384x16384.Reduces [1] S16384) (p k : Fin 16384) : h.lift (ix1 p) k = ix2 p k := by
  funext d
  apply Fin.ext
  show h.liftVal (ix1 p) k.val d = (ix2 p k d).val
  match d with
  | ⟨0, _⟩ => rfl
  | ⟨1, _⟩ => rfl

theorem idx_call1_v3_ix2 (p : Fin 16384) (z : Fin 1) : idx_main_call1_v3 (ix2 p z) = ix1 p := by
  funext d; match d with | ⟨0, _⟩ => rfl

theorem idx_call1_v4_ix2 (p q : Fin 16384) : idx_main_call1_v4 (ix2 p q) = ix2 p (0 : Fin 1) := by
  funext d; match d with | ⟨0, _⟩ => rfl | ⟨1, _⟩ => rfl

theorem idx_call1_v7_ix1 (p k : Fin 16384) : idx_main_call1_v7 (ix1 p) k = ix2 p k := by
  funext d; match d with | ⟨0, _⟩ => rfl | ⟨1, _⟩ => rfl

theorem idx_call1_v8_ix2 (p : Fin 16384) (z : Fin 1) : idx_main_call1_v8 (ix2 p z) = ix1 p := by
  funext d; match d with | ⟨0, _⟩ => rfl

theorem idx_call1_v10_ix2 (p q : Fin 16384) : idx_main_call1_v10 (ix2 p q) = ix2 p (0 : Fin 1) := by
  funext d; match d with | ⟨0, _⟩ => rfl | ⟨1, _⟩ => rfl

section
variable (h0 : ∀ p k, x0 (ix2 p k) = ((a p k : ℝ) : EReal)) (h1 : ∀ p k, x1 (ix2 p k) = ((b p k : ℝ) : EReal))
  (h2 : ∀ i, x2 i = ((c : ℝ) : EReal))
include h0 h1 h2

/-- The row's maximum, as the reduction computes it. -/
theorem reduce_max_apply (p : Fin 16384) :
    val_main_call1_v0 (F := Ideal) x0 x1 x2 (ix1 p) = ((rowMax a b c negBig cap p : ℝ) : EReal) := by
  unfold val_main_call1_v0
  have hred : S16384x16384.Reduces [1] S16384 := by decide
  rw [Host.reduce_eq_fold_single (FloatOps.maximumf (F := Ideal) (φ := .f32)) (val_main_v12 (F := Ideal) x0 x1 x2)
    (val_main_call1_cst (F := Ideal)) reducesTo_S16384x16384_S16384_d1 hred h_S_ (ix1 p)]
  rw [val_main_call1_cst_apply]
  have e : Ideal.ofBits .f32 0xFF800000#32 = (⊥ : EReal) := ofBits_negInf
  have hf : ∀ k ∈ (Finset.univ : Finset (Fin 16384)),
      (val_main_v12 (F := Ideal) x0 x1 x2 ∘ hred.lift (ix1 p)) k = ((logit a b c negBig cap p k : ℝ) : EReal) := by
    intro k _
    show val_main_v12 (F := Ideal) x0 x1 x2 (hred.lift (ix1 p) k) = _
    rw [lift_row, logit_apply x0 x1 x2 a b c h0 h1 h2]
  refine (Finset.fold_congr hf).trans ?_
  show Finset.univ.fold FloatOps.maximumf (Ideal.ofBits .f32 0xFF800000#32) _ = _
  rw [e]
  exact fold_max_coe (FloatOps.maximumf (F := Ideal) (φ := .f32)) (fun _ _ => rfl) (logit a b c negBig cap p)

theorem rowMax_apply (p : Fin 16384) :
    val_main_call1_v2 (F := Ideal) x0 x1 x2 (ix1 p) = ((rowMax a b c negBig cap p : ℝ) : EReal) := by
  rw [val_main_call1_v2_apply, reduce_max_apply x0 x1 x2 a b c h0 h1 h2, val_main_call1_v1_apply, val_main_call1_cst_0_apply]
  show max (Ideal.ofBits .f32 0xFF800000#32) _ = _
  rw [ofBits_negInf]
  exact max_eq_right bot_le

/-- The shifted similarity. -/
theorem shifted_apply (p q : Fin 16384) :
    val_main_call1_v5 (F := Ideal) x0 x1 x2 (ix2 p q)
      = ((logit a b c negBig cap p q - rowMax a b c negBig cap p : ℝ) : EReal) := by
  rw [val_main_call1_v5_apply, logit_apply x0 x1 x2 a b c h0 h1 h2, val_main_call1_v4_apply, idx_call1_v4_ix2,
    val_main_call1_v3_apply, idx_call1_v3_ix2, rowMax_apply x0 x1 x2 a b c h0 h1 h2]
  exact (EReal.coe_sub _ _).symm

/-- The row's sum of shifted exponentials. -/
theorem rowSum_apply (p : Fin 16384) :
    val_main_call1_v7 (F := Ideal) x0 x1 x2 (ix1 p) = ((rowSumExp a b c negBig cap p : ℝ) : EReal) := by
  rw [val_main_call1_v7_apply, val_main_call1_cst_1_apply]
  show Ideal.ofBits .f32 0x00000000#32 + _ = _
  rw [ofBits_zero, zero_add]
  unfold rowSumExp
  rw [← Cert.LibRealArith.sum_coe]
  refine Finset.sum_congr rfl fun k _ => ?_
  rw [idx_call1_v7_ix1, val_main_call1_v6_apply, shifted_apply x0 x1 x2 a b c h0 h1 h2]
  rfl

/-- The logarithm of the row's sum. -/
theorem logSum_apply (p : Fin 16384) (z : Fin 1) :
    val_main_call1_v9 (F := Ideal) x0 x1 x2 (ix2 p z) = ((Real.log (rowSumExp a b c negBig cap p) : ℝ) : EReal) := by
  rw [val_main_call1_v9_apply, val_main_call1_v8_apply, idx_call1_v8_ix2, rowSum_apply x0 x1 x2 a b c h0 h1 h2]
  show Ideal.log ((rowSumExp a b c negBig cap p : ℝ) : EReal) = _
  rw [Ideal.log_coe, if_neg (not_le.2 (rowSumExp_pos a b c negBig cap p))]

/-- Entry (p, q) of the log-probabilities. -/
theorem logProb_apply (p q : Fin 16384) :
    val_main_v18 (F := Ideal) x0 x1 x2 (ix2 p q)
      = (((logit a b c negBig cap p q - rowMax a b c negBig cap p) - Real.log (rowSumExp a b c negBig cap p) : ℝ) : EReal) := by
  rw [val_main_v18_apply, shifted_apply x0 x1 x2 a b c h0 h1 h2, val_main_call1_v10_apply, idx_call1_v10_ix2,
    logSum_apply x0 x1 x2 a b c h0 h1 h2]
  exact (EReal.coe_sub _ _).symm

end

end Cert.RefSide

end
-- ==== Proof.RefValueC.lean ====
/-
  The reference program's gathered log-probabilities and their mean.

  The table of partners holds, at row p, the 32-bit word of the partner's row number, which is below 16384: read as a
  signed integer it is that number, it is not negative and not above 16383, so the index fix-up leaves it, the in-bounds
  test passes, and the gather reads the log-probability of row p at its partner's column. Negated and summed over the
  rows this is the real number `refNum`.
-/
import proofs.«111248_j26912265077430_1_alg».proof.Proof.RefValueB
import Idealize.ShloMosaic.Lib.ReduceAll

noncomputable section

namespace Cert.RefSide

open Cert.ReferenceIdeal Cert.ReferenceIdeal.Gen Cert.ReferenceIdeal.Read Idealize.ShloMosaic Idealize.ShloMosaic.ValueIdx
open Cert.Spec Cert.Consts

variable (x0 x1 : (⟨S8192x256, .f32⟩ : BufTy).Contents (Elt Ideal)) (x2 : (⟨S_, .f32⟩ : BufTy).Contents (Elt Ideal))
  (a b : Fin 8192 → Fin 256 → ℝ) (c : ℝ)

/-! ### Words -/

/-- A number below 16384, as a 32-bit word read signed, is itself. -/
theorem toInt_ofNat_small (t : ℕ) (h : t < 16384) : (BitVec.ofNat 32 t).toInt = (t : Int) := by
  have hn : (BitVec.ofNat 32 t).toNat = t := by
    rw [BitVec.toNat_ofNat]
    exact Nat.mod_eq_of_lt (by omega)
  have h2 : 2 * (BitVec.ofNat 32 t).toNat < 2 ^ 32 := by
    rw [hn]
    have : (2 : ℕ) ^ 32 = 4294967296 := by norm_num
    omega
  rw [BitVec.toInt_eq_toNat_of_lt h2, hn]

theorem tgt_val_lt (p : Fin 16384) (h : p.val < 8192) : (tgt p).val = p.val + 8192 := by
  unfold tgt
  rw [dif_pos h]

theorem tgt_val_ge (p : Fin 16384) (h : ¬ p.val < 8192) : (tgt p).val = p.val - 8192 := by
  unfold tgt
  rw [dif_neg h]

/-- A fold of `and` from 1 over words that are all 1 is 1. -/
theorem fold_andi_one {ι : Type} [DecidableEq ι] (s : Finset ι) (g : ι → BitVec 1) (h : ∀ k, g k = 1#1) :
    s.fold IntOp.andi 1#1 g = 1#1 := by
  induction s using Finset.induction_on with
  | empty => rfl
  | insert x s hx ih =>
    rw [Finset.fold_insert hx, ih, h]
    rfl

/-! ### The table of partners and the start indices -/

/-- The table of partners: entry p is the 32-bit word of `tgt p`. -/
theorem tgtTable_apply (p : Fin 16384) : val_main_v17 (F := Ideal) (ix1 p) = BitVec.ofNat 32 (tgt p).val := by
  unfold val_main_v17
  by_cases h : p.val < 8192
  · rw [tgt_val_lt p h]
    refine (concatenate_pair_apply_left (0 : Fin S16384.rank) (val_main_v15 (F := Ideal)) (val_main_v16 (F := Ideal))
      concatenates_S8192_S8192_S16384_d0 (ix1 p) rfl (ix1 (⟨p.val, h⟩ : Fin 8192)) (fun d => ?_)).trans ?_
    · match d with
      | ⟨0, _⟩ => rfl
    · rw [val_main_v15_apply, val_main_v14_apply, val_main_c_1_apply, val_main_v13_apply]
      show 8192#32 + BitVec.ofNat 32 p.val = BitVec.ofNat 32 (p.val + 8192)
      rw [Nat.add_comm, BitVec.ofNat_add]
  · rw [tgt_val_ge p h]
    refine (concatenate_pair_apply_right (0 : Fin S16384.rank) (val_main_v15 (F := Ideal)) (val_main_v16 (F := Ideal))
      concatenates_S8192_S8192_S16384_d0 (ix1 p) rfl rfl (ix1 (⟨p.val - 8192, by omega⟩ : Fin 8192)) (fun d hd => ?_) ?_).trans ?_
    · match d with
      | ⟨0, _⟩ => exact absurd rfl hd
    · show p.val - 8192 + 8192 = p.val
      omega
    · rw [val_main_v16_apply]

theorem idx_v19_ix2 (p : Fin 16384) (z : Fin 1) : idx_main_v19 (ix2 p z) = ix1 p := by
  funext d; match d with | ⟨0, _⟩ => rfl

theorem start_v19 (p : Fin 16384) (z : Fin 1) :
    val_main_v19 (F := Ideal) (ix2 p z) = BitVec.ofNat 32 (tgt p).val := by
  rw [val_main_v19_apply, idx_v19_ix2, tgtTable_apply]

/-- The index fix-up leaves a nonnegative index as it is. -/
theorem start_v4 (p : Fin 16384) (z : Fin 1) :
    val_main_call2_v4 (F := Ideal) (ix2 p z) = BitVec.ofNat 32 (tgt p).val := by
  have hnot : ¬ val_main_call2_v1 (F := Ideal) (ix2 p z) = 1#1 := by
    rw [val_main_call2_v1_apply, start_v19, val_main_call2_v0_apply, val_main_call2_c_apply, IntOp.cmpi_slt,
      toInt_ofNat_small _ (tgt p).isLt, BitVec.toInt_zero]
    omega
  rw [val_main_call2_v4_apply, eq_zero_of_ne_one hnot, select_zero, start_v19]

theorem idx_call2_v5_ix3 (p : Fin 16384) (z w : Fin 1) : idx_main_call2_v5 (ix3 p z w) = ix2 p (0 : Fin 1) := by
  funext d
  match d with
  | ⟨0, _⟩ =>
    apply Fin.ext
    show ((p.val * 1 + z.val) * 1 + w.val) / 1 = p.val
    have := z.isLt
    have := w.isLt
    omega
  | ⟨1, _⟩ => rfl

theorem start_v5 (p : Fin 16384) (z w : Fin 1) :
    val_main_call2_v5 (F := Ideal) (ix3 p z w) = BitVec.ofNat 32 (tgt p).val := by
  rw [val_main_call2_v5_apply, idx_call2_v5_ix3, start_v4]

/-- Every start index passes the in-bounds test. -/
theorem inBounds_apply (i : S16384x1x1.Idx) : val_main_call2_v11 (F := Ideal) i = 1#1 := by
  obtain ⟨p, z, w, rfl⟩ : ∃ (p : Fin 16384) (z w : Fin 1), i = ix3 p z w := ⟨i 0, i 1, i 2, eq_ix3 i⟩
  rw [val_main_call2_v11_apply, val_main_call2_v7_apply, val_main_call2_v10_apply, start_v5,
    val_main_call2_v6_apply, val_main_call2_c_2_apply, val_main_call2_v9_apply, val_main_call2_v8_apply,
    val_main_call2_c_1_apply]
  refine IntOp.andi_eq_one.2 ⟨IntOp.cmpi_sge.2 ?_, IntOp.cmpi_sle.2 ?_⟩
  · rw [toInt_ofNat_small _ (tgt p).isLt, BitVec.toInt_zero]
    omega
  · rw [toInt_ofNat_small _ (tgt p).isLt, toInt_ofNat_small 16383 (by norm_num)]
    have := (tgt p).isLt
    omega

theorem inBoundsAll_apply (p : Fin 16384) (z : Fin 1) : val_main_call2_v12 (F := Ideal) (ix2 p z) = 1#1 := by
  unfold val_main_call2_v12
  have hred : S16384x1x1.Reduces [2] S16384x1 := by decide
  rw [Host.reduce_eq_fold_single IntOp.andi (val_main_call2_v11 (F := Ideal)) (val_main_call2_c_3 (F := Ideal))
    reducesTo_S16384x1x1_S16384x1_d2 hred h_S_ (ix2 p z)]
  rw [val_main_call2_c_3_apply]
  exact fold_andi_one _ _ (fun k => inBounds_apply _)

/-! ### The gather -/

/-- This program's gather read at (p, 0): the operand at row p and at the column its start index names, read signed
    and clamped into the row. -/
theorem gather_row_apply {α : Type} (x : S16384x16384.Idx → α) (idx : IVec S16384x1x1 32) (p : Fin 16384) (z : Fin 1) :
    Host.gather gather_S16384x16384_S16384x1x1_S16384x1_n_1_0_0_1_2_11 x idx (ix2 p z)
      = x (ix2 p (⟨min (idx (ix3 p z (0 : Fin 1))).toInt.toNat 16383, by omega⟩ : Fin 16384)) := by
  unfold Host.gather
  refine congrArg x (funext fun d => Fin.ext ?_)
  match d with
  | ⟨0, _⟩ =>
    show gather_S16384x16384_S16384x1x1_S16384x1_n_1_0_0_1_2_11.start (ix2 p z) idx (0 : Fin 2)
      + gather_S16384x16384_S16384x1x1_S16384x1_n_1_0_0_1_2_11.batchCoord (ix2 p z) (0 : Fin 2)
      + gather_S16384x16384_S16384x1x1_S16384x1_n_1_0_0_1_2_11.offCoord (ix2 p z) (0 : Fin 2) = p.val
    rw [GatherDims.start_batching _ _ _ _ (show (0 : Fin 2) ∈ gather_S16384x16384_S16384x1x1_S16384x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x16384_S16384x1x1_S16384x1_n_1_0_0_1_2_11.operandBatchingDims from List.mem_singleton.mpr rfl)]
    rfl
  | ⟨1, _⟩ =>
    show gather_S16384x16384_S16384x1x1_S16384x1_n_1_0_0_1_2_11.start (ix2 p z) idx (1 : Fin 2)
      + gather_S16384x16384_S16384x1x1_S16384x1_n_1_0_0_1_2_11.batchCoord (ix2 p z) (1 : Fin 2)
      + gather_S16384x16384_S16384x1x1_S16384x1_n_1_0_0_1_2_11.offCoord (ix2 p z) (1 : Fin 2) = _
    rw [GatherDims.batchCoord_eq_zero _ _ _ (show (1 : Fin 2) ∉ gather_S16384x16384_S16384x1x1_S16384x1_n_1_0_0_1_2_11.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x16384_S16384x1x1_S16384x1_n_1_0_0_1_2_11.startIndexMap from List.mem_singleton.mpr rfl)]
    have hsi : gather_S16384x16384_S16384x1x1_S16384x1_n_1_0_0_1_2_11.siIdx (ix2 p z)
        ⟨List.idxOf (1 : Fin 2) gather_S16384x16384_S16384x1x1_S16384x1_n_1_0_0_1_2_11.startIndexMap,
          List.idxOf_lt_length_iff.2 (List.mem_singleton.mpr rfl)⟩ = ix3 p z (0 : Fin 1) := by
      funext b
      refine Fin.ext ?_
      match b with
      | ⟨0, _⟩ => rfl
      | ⟨1, _⟩ => rfl
      | ⟨2, _⟩ => rfl
    rw [hsi]
    rfl

section
variable (h0 : ∀ p k, x0 (ix2 p k) = ((a p k : ℝ) : EReal)) (h1 : ∀ p k, x1 (ix2 p k) = ((b p k : ℝ) : EReal))
  (h2 : ∀ i, x2 i = ((c : ℝ) : EReal))
include h0 h1 h2

/-- The gathered value of row p: its log-probability at its partner's column. -/
theorem gathered_apply (p : Fin 16384) (z : Fin 1) :
    val_main_v20 (F := Ideal) x0 x1 x2 (ix2 p z)
      = (((logit a b c negBig cap p (tgt p) - rowMax a b c negBig cap p) - Real.log (rowSumExp a b c negBig cap p) : ℝ) : EReal) := by
  rw [val_main_v20_apply, inBoundsAll_apply, select_one]
  unfold val_main_call2_v13
  rw [gather_row_apply]
  have e : (⟨min (val_main_call2_v5 (F := Ideal) (ix3 p z (0 : Fin 1))).toInt.toNat 16383, by omega⟩ : Fin 16384) = tgt p := by
    apply Fin.ext
    show min (val_main_call2_v5 (F := Ideal) (ix3 p z (0 : Fin 1))).toInt.toNat 16383 = (tgt p).val
    rw [start_v5, toInt_ofNat_small _ (tgt p).isLt, Int.toNat_natCast]
    have := (tgt p).isLt
    omega
  rw [e, logProb_apply x0 x1 x2 a b c h0 h1 h2]

end

end Cert.RefSide

end
-- ==== Proof.RefValue.lean ====
/-
  The reference program's result as a real number.

  The gathered log-probabilities, one per row, are negated and summed from zero, which for real numbers is the real
  sum; that sum is `refNum`. The program's result is its quotient by the constant 16384, which is left as it stands.
-/
import proofs.«111248_j26912265077430_1_alg».proof.Proof.RefValueC

noncomputable section

namespace Cert.RefSide

open Cert.ReferenceIdeal Cert.ReferenceIdeal.Gen Cert.ReferenceIdeal.Read Idealize.ShloMosaic Idealize.ShloMosaic.ValueIdx
open Cert.Spec Cert.Consts

variable (x0 x1 : (⟨S8192x256, .f32⟩ : BufTy).Contents (Elt Ideal)) (x2 : (⟨S_, .f32⟩ : BufTy).Contents (Elt Ideal))
  (a b : Fin 8192 → Fin 256 → ℝ) (c : ℝ)

theorem idx_v21_ix1 (p : Fin 16384) : idx_main_v21 (ix1 p) = ix2 p (0 : Fin 1) := by
  funext d
  match d with
  | ⟨0, _⟩ =>
    apply Fin.ext
    show p.val / 1 = p.val
    exact Nat.div_one _
  | ⟨1, _⟩ => rfl

/-- The indices of a one-axis array of 16384 entries are the numbers below 16384. -/
def idxEquiv1 : S16384.Idx ≃ Fin 16384 where
  toFun j := j 0
  invFun p := ix1 p
  left_inv j := (eq_ix1 j).symm
  right_inv _ := rfl

section
variable (h0 : ∀ p k, x0 (ix2 p k) = ((a p k : ℝ) : EReal)) (h1 : ∀ p k, x1 (ix2 p k) = ((b p k : ℝ) : EReal))
  (h2 : ∀ i, x2 i = ((c : ℝ) : EReal))
include h0 h1 h2

/-- Row p's loss: minus the log-probability of its partner. -/
theorem negated_apply (p : Fin 16384) :
    val_main_v22 (F := Ideal) x0 x1 x2 (ix1 p)
      = ((-((logit a b c negBig cap p (tgt p) - rowMax a b c negBig cap p) - Real.log (rowSumExp a b c negBig cap p)) : ℝ) : EReal) := by
  rw [val_main_v22_apply, val_main_v21_apply, idx_v21_ix1, gathered_apply x0 x1 x2 a b c h0 h1 h2]
  exact (EReal.coe_neg _).symm

/-- The sum of the rows' losses is the real number `refNum`. -/
theorem total_apply (i : S_.Idx) :
    val_main_v23 (F := Ideal) x0 x1 x2 i = ((refNum a b c negBig cap : ℝ) : EReal) := by
  rw [val_main_v23_apply, val_main_cst_2_apply]
  show Ideal.ofBits .f32 0x00000000#32 + _ = _
  rw [ofBits_zero, zero_add]
  unfold refNum
  rw [← Cert.LibRealArith.sum_coe]
  refine Fintype.sum_equiv idxEquiv1 _ _ (fun j => ?_)
  exact (congrArg (val_main_v22 (F := Ideal) x0 x1 x2) (eq_ix1 j)).trans
    (negated_apply x0 x1 x2 a b c h0 h1 h2 (j 0))

/-- The reference program's result: the quotient of `refNum` by the constant 16384. -/
theorem ref_value :
    val_main_v24 (F := Ideal) x0 x1 x2
      = Host.divf (F := Ideal) (fun _ => ((refNum a b c negBig cap : ℝ) : EReal)) (constant (F := Ideal) S_ .f32 0x46800000#32) := by
  unfold val_main_v24
  have e : val_main_v23 (F := Ideal) x0 x1 x2 = fun _ => ((refNum a b c negBig cap : ℝ) : EReal) :=
    funext fun i => total_apply x0 x1 x2 a b c h0 h1 h2 i
  rw [e]
  rfl

end

end Cert.RefSide

end
-- ==== Proof.lean ====
/-
  The claim, assembled.

  Both programs compute, from two batches of 8192 rows of 256 numbers and a scalar, the mean over the 16384 stacked
  rows of logsumexp (row of masked similarities) − (similarity with the row's partner). When every input entry is a
  real number the tiled program ends at the quotient of one real number (the two halves summed apart) by 16384 and the
  one-pass program at the quotient of another (the sum over all rows) by 16384, and the two numerators are equal.
  Each program also runs to the end leaving its arguments as launched.
-/
import proofs.«111248_j26912265077430_1_alg».proof.Defs
import proofs.«111248_j26912265077430_1_alg».proof.Proof.Gen.Kernel
import proofs.«111248_j26912265077430_1_alg».proof.Proof.Gen.KernelIdeal
import proofs.«111248_j26912265077430_1_alg».proof.Proof.Gen.ReferenceIdeal
import proofs.«111248_j26912265077430_1_alg».proof.Proof.Gen.Pre_finite_inputs
import proofs.«111248_j26912265077430_1_alg».proof.Proof.KArgs
import proofs.«111248_j26912265077430_1_alg».proof.Proof.KIArgs
import proofs.«111248_j26912265077430_1_alg».proof.Proof.Finite
import proofs.«111248_j26912265077430_1_alg».proof.Proof.SpecLaws
import proofs.«111248_j26912265077430_1_alg».proof.Proof.Consts
import proofs.«111248_j26912265077430_1_alg».proof.Proof.KIValue
import proofs.«111248_j26912265077430_1_alg».proof.Proof.LseFinal
import proofs.«111248_j26912265077430_1_alg».proof.Proof.RefRunHand
import proofs.«111248_j26912265077430_1_alg».proof.Proof.RefValue
import Idealize.ShloMosaic.Adequacy
import Idealize.ShloMosaic.Init

noncomputable section

namespace Cert.Proof

open Idealize.ShloMosaic Idealize.SL.Sem Idealize.ShloMosaic.ValueIdx

/-! ## The three programs run, their arguments unchanged -/

theorem frame_K : Cert.frame_Kernel := fun m ρ _ => Cert.Kernel.Whole.frame (F := Bits) m ρ

theorem frame_KI : Cert.frame_KernelIdeal := fun m ρ _ => Cert.KernelIdeal.Whole.frame (F := Ideal) m ρ

theorem frame_RI : Cert.frame_ReferenceIdeal := fun m ρ _ =>
  (θ_run Cert.ReferenceIdeal.defs _ _).mono (fun _ h c => (h c).2) (Cert.RefSide.run m ρ)

/-- The ideal reading rewrote no operation. -/
theorem preserves : Cert.preserves_Kernel_KernelIdeal := trivial

/-! ## The tiled program's result on real inputs -/

/-- With real entries a, b and a real parameter cs, the first region leaves every row's logsumexp, so the last
    buffer ends at the quotient by 16384 of the two half sums of logsumexp minus the partner's similarity. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (a b : Fin 8192 → Fin 256 → ℝ) (cs : ℝ)
    (h0 : ∀ p k, m ((c.tc : Thread Cert.KernelIdeal.nD Cert.KernelIdeal.τ).loc Cert.KernelIdeal.main_arg0) (ix2 p k) = ((a p k : ℝ) : EReal))
    (h1 : ∀ p k, m ((c.tc : Thread Cert.KernelIdeal.nD Cert.KernelIdeal.τ).loc Cert.KernelIdeal.main_arg1) (ix2 p k) = ((b p k : ℝ) : EReal))
    (h2 : ∀ i, m ((c.tc : Thread Cert.KernelIdeal.nD Cert.KernelIdeal.τ).loc Cert.KernelIdeal.main_arg2) i = ((cs : ℝ) : EReal)) :
    Cert.KernelIdeal.Whole.W5 m ρ c (Proc.devRef .tc Cert.KernelIdeal.main_v16)
      = Host.divf (F := Ideal) (fun _ => ((Cert.Spec.kerNum a b cs Cert.Consts.negBig Cert.Consts.cap : ℝ) : EReal))
          (constant (F := Ideal) Cert.KernelIdeal.S_ .f32 0x46800000#32) :=
  Cert.KernelIdeal.Whole.kernel_value m ρ c a b cs h0 h1 h2
    (Cert.KernelIdeal.Lse.final0 (Cert.KernelIdeal.Whole.V1 m ρ) c a b cs
      (Cert.KernelIdeal.Whole.V1_v4_apply m ρ c a b h0 h1) (Cert.KernelIdeal.Whole.V1_v2_apply m ρ c cs h2))

/-! ## The two results are one real quotient -/

theorem algebraic : Cert.algebraic_KernelIdeal_ReferenceIdeal := by
  intro m ρ m' ρ' hpre hagree
  choose a b cs h0 h1 h2 using fun c => Cert.Finite.reals_of_pre _ _ _ (hpre c)
  refine ⟨fun c => Host.divf (F := Ideal)
      (fun _ => ((Cert.Spec.kerNum (a c) (b c) (cs c) Cert.Consts.negBig Cert.Consts.cap : ℝ) : EReal))
      (constant (F := Ideal) Cert.KernelIdeal.S_ .f32 0x46800000#32), ?_, ?_⟩
  · exact (θ_run Cert.KernelIdeal.defs _ _).mono (fun _ h c =>
      ⟨(h c _ (Cert.KernelIdeal.Whole.mem_uc Cert.KernelIdeal.main_v16 (by decide))).trans
          (kernel_result m ρ c (a c) (b c) (cs c) (h0 c) (h1 c) (h2 c)),
       (h c _ (Cert.KernelIdeal.Whole.mem_uc Cert.KernelIdeal.main_arg0 (by decide))).trans (Cert.KernelIdeal.Whole.W5_main_arg0 m ρ c),
       (h c _ (Cert.KernelIdeal.Whole.mem_uc Cert.KernelIdeal.main_arg1 (by decide))).trans (Cert.KernelIdeal.Whole.W5_main_arg1 m ρ c),
       (h c _ (Cert.KernelIdeal.Whole.mem_uc Cert.KernelIdeal.main_arg2 (by decide))).trans (Cert.KernelIdeal.Whole.W5_main_arg2 m ρ c)⟩)
      (Cert.KernelIdeal.Whole.run_all (F := Ideal) m ρ)
  · refine (θ_run Cert.ReferenceIdeal.defs _ _).mono (fun _ h c => ⟨(h c).1.trans ?_, (h c).2⟩) (Cert.RefSide.run m' ρ')
    rw [(hagree c).1, (hagree c).2.1, (hagree c).2.2]
    refine (Cert.RefSide.ref_value _ _ _ (a c) (b c) (cs c) (h0 c) (h1 c) (h2 c)).trans ?_
    rw [← Cert.Spec.kerNum_eq_refNum]
    rfl

/-! ## The claim -/

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
